-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S5000x128 : Shape := ⟨2, ![5000, 128]⟩
abbrev S5000x1 : Shape := ⟨2, ![5000, 1]⟩
abbrev S700000x128 : Shape := ⟨2, ![700000, 128]⟩
abbrev S1x128 : Shape := ⟨2, ![1, 128]⟩
abbrev S100000x40 : Shape := ⟨2, ![100000, 40]⟩
abbrev S5000x40 : Shape := ⟨2, ![5000, 40]⟩
abbrev S700000x40 : Shape := ⟨2, ![700000, 40]⟩
abbrev S1x40 : Shape := ⟨2, ![1, 40]⟩
abbrev S5000 : Shape := ⟨1, ![5000]⟩

abbrev nBuf : Space → Nat
  | .hbm => 79
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x600000, .i32⟩
  | .hbm, ⟨10, _⟩ => ⟨S600000, .i32⟩
  | .hbm, ⟨11, _⟩ => ⟨S700000, .i32⟩
  | .hbm, ⟨12, _⟩ => ⟨S1x600000, .i32⟩
  | .hbm, ⟨13, _⟩ => ⟨S600000, .i32⟩
  | .hbm, ⟨14, _⟩ => ⟨S700000, .i32⟩
  | .hbm, ⟨15, _⟩ => ⟨S_, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S700000, .i32⟩
  | .hbm, ⟨36, _⟩ => ⟨S700000, .i1⟩
  | .hbm, ⟨37, _⟩ => ⟨S_, .i32⟩
  | .hbm, ⟨38, _⟩ => ⟨S700000, .i32⟩
  | .hbm, ⟨39, _⟩ => ⟨S700000, .i32⟩
  | .hbm, ⟨40, _⟩ => ⟨S700000, .i32⟩
  | .hbm, ⟨41, _⟩ => ⟨S700000x1, .i32⟩
  | .hbm, ⟨42, _⟩ => ⟨S700000x128, .f32⟩
  | .hbm, ⟨43, _⟩ => ⟨S_, .f32⟩
  | .hbm, ⟨44, _⟩ => ⟨S100000x128, .f32⟩
  | .hbm, ⟨45, _⟩ => ⟨S700000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S700000, .i32⟩
  | .hbm, ⟨51, _⟩ => ⟨S700000, .i1⟩
  | .hbm, ⟨52, _⟩ => ⟨S_, .i32⟩
  | .hbm, ⟨53, _⟩ => ⟨S700000, .i32⟩
  | .hbm, ⟨54, _⟩ => ⟨S700000, .i32⟩
  | .hbm, ⟨55, _⟩ => ⟨S700000, .i32⟩
  | .hbm, ⟨56, _⟩ => ⟨S700000x1, .i32⟩
  | .hbm, ⟨57, _⟩ => ⟨S700000x128, .f32⟩
  | .hbm, ⟨58, _⟩ => ⟨S_, .f32⟩
  | .hbm, ⟨59, _⟩ => ⟨S100000x128, .f32⟩
  | .hbm, ⟨60, _⟩ => ⟨S700000x1, .i32⟩
  | .hbm, ⟨61, _⟩ => ⟨S100000x128, .f32⟩
  | .hbm, ⟨62, _⟩ => ⟨S1x128, .f32⟩
  | .hbm, ⟨63, _⟩ => ⟨S100000x40, .f32⟩
  | .hbm, ⟨64, _⟩ => ⟨S_, .i32⟩
  | .hbm, ⟨65, _⟩ => ⟨S700000, .i32⟩
  | .hbm, ⟨66, _⟩ => ⟨S700000, .i1⟩
  | .hbm, ⟨67, _⟩ => ⟨S_, .i32⟩
  | .hbm, ⟨68, _⟩ => ⟨S700000, .i32⟩
  | .hbm, ⟨69, _⟩ => ⟨S700000, .i32⟩
  | .hbm, ⟨70, _⟩ => ⟨S700000, .i32⟩
  | .hbm, ⟨71, _⟩ => ⟨S700000x1, .i32⟩
  | .hbm, ⟨72, _⟩ => ⟨S700000x40, .f32⟩
  | .hbm, ⟨73, _⟩ => ⟨S_, .f32⟩
  | .hbm, ⟨74, _⟩ => ⟨S100000x40, .f32⟩
  | .hbm, ⟨75, _⟩ => ⟨S700000x1, .i32⟩
  | .hbm, ⟨76, _⟩ => ⟨S100000x40, .f32⟩
  | .hbm, ⟨77, _⟩ => ⟨S1x40, .f32⟩
  | .hbm, ⟨78, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x40, .f32⟩
  | .local _ .vmem, ⟨21, _⟩ => ⟨S5000x40, .f32⟩
  | .local _ .vmem, ⟨22, _⟩ => ⟨S5000x40, .f32⟩
  | .local _ .vmem, ⟨23, _⟩ => ⟨S5000x40, .f32⟩
  | .local _ .vmem, ⟨24, _⟩ => ⟨S5000x40, .f32⟩
  | .local _ .vmem, ⟨25, _⟩ => ⟨S5000x1, .f32⟩
  | .local _ .vmem, ⟨26, _⟩ => ⟨S5000x1, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x40 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S700000x1_S700000_n_0_0_1_wf : ScatterDims.WF S100000 S700000x1 S700000 [] [0] [0] 1
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x40_S5000x40_1_0_0_1_n_n_wf : DotDims.WF S5000x128 S128x40 S5000x40 [1] [0] [0] [1] [] []
  gather_S100000x40_S700000x1_S700000x40_1_0_n_n_0_1_140_wf : GatherDims.WF S100000x40 S700000x1 S700000x40 [1] [0] [] [0] [] 1 ![1, 40]
  scatter_S100000x40_S700000x1_S700000x40_1_0_0_1_wf : ScatterDims.WF S100000x40 S700000x1 S700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x40.size a ≤ S100000x40.size a
  hwx2_4 : ∀ i : grid2.Coords, EltTy.bits .f32 = 32 ∨ (Rect.block (s := S100000x40) S5000x40.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S700000x1_S700000x40_1_0_n_n_0_1_140 : GatherDims S100000x40 S700000x1 S700000x40 where
  offsetDims := [1]
  collapsedSliceDims := [0]
  operandBatchingDims := []
  startIndicesBatchingDims := []
  startIndexMap := [0]
  indexVectorDim := 1
  sliceSizes := ![1, 40]
  wf := gather_S100000x40_S700000x1_S700000x40_1_0_n_n_0_1_140_wf
def scatter_S100000x40_S700000x1_S700000x40_1_0_0_1 : ScatterDims S100000x40 S700000x1 S700000x40 where
  updateWindowDims := [1]
  insertedWindowDims := [0]
  scatterDimsToOperandDims := [0]
  indexVectorDim := 1
  wf := scatter_S100000x40_S700000x1_S700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x40.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x40 : Shape := ⟨2, ![100000, 40]⟩
abbrev S700000x40 : Shape := ⟨2, ![700000, 40]⟩
abbrev S1x40 : Shape := ⟨2, ![1, 40]⟩
abbrev S100000x1 : Shape := ⟨2, ![100000, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S100000, .i32⟩
  | 9 => ⟨S1x600000, .i32⟩
  | 10 => ⟨S600000, .i32⟩
  | 11 => ⟨S700000, .i32⟩
  | 12 => ⟨S1x600000, .i32⟩
  | 13 => ⟨S600000, .i32⟩
  | 14 => ⟨S700000, .i32⟩
  | 15 => ⟨S_, .f32⟩
  | 16 => ⟨S700000, .f32⟩
  | 17 => ⟨S_, .f32⟩
  | 18 => ⟨S100000, .f32⟩
  | 19 => ⟨S700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S700000, .i32⟩
  | 34 => ⟨S700000, .i1⟩
  | 35 => ⟨S_, .i32⟩
  | 36 => ⟨S700000, .i32⟩
  | 37 => ⟨S700000, .i32⟩
  | 38 => ⟨S700000, .i32⟩
  | 39 => ⟨S700000x1, .i32⟩
  | 40 => ⟨S700000, .f32⟩
  | 41 => ⟨S_, .i32⟩
  | 42 => ⟨S700000, .i32⟩
  | 43 => ⟨S700000, .i1⟩
  | 44 => ⟨S_, .i32⟩
  | 45 => ⟨S700000, .i32⟩
  | 46 => ⟨S700000, .i32⟩
  | 47 => ⟨S700000, .i32⟩
  | 48 => ⟨S700000x1, .i32⟩
  | 49 => ⟨S700000, .f32⟩
  | 50 => ⟨S700000, .f32⟩
  | 51 => ⟨S100000x128, .f32⟩
  | 52 => ⟨S_, .i32⟩
  | 53 => ⟨S700000, .i32⟩
  | 54 => ⟨S700000, .i1⟩
  | 55 => ⟨S_, .i32⟩
  | 56 => ⟨S700000, .i32⟩
  | 57 => ⟨S700000, .i32⟩
  | 58 => ⟨S700000, .i32⟩
  | 59 => ⟨S700000x1, .i32⟩
  | 60 => ⟨S700000x128, .f32⟩
  | 61 => ⟨S700000x1, .f32⟩
  | 62 => ⟨S700000x128, .f32⟩
  | 63 => ⟨S700000x128, .f32⟩
  | 64 => ⟨S_, .f32⟩
  | 65 => ⟨S100000x128, .f32⟩
  | 66 => ⟨S700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S700000, .i32⟩
  | 77 => ⟨S700000, .i1⟩
  | 78 => ⟨S_, .i32⟩
  | 79 => ⟨S700000, .i32⟩
  | 80 => ⟨S700000, .i32⟩
  | 81 => ⟨S700000, .i32⟩
  | 82 => ⟨S700000x1, .i32⟩
  | 83 => ⟨S700000x128, .f32⟩
  | 84 => ⟨S700000x1, .f32⟩
  | 85 => ⟨S700000x128, .f32⟩
  | 86 => ⟨S700000x128, .f32⟩
  | 87 => ⟨S_, .f32⟩
  | 88 => ⟨S100000x128, .f32⟩
  | 89 => ⟨S700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x40, .f32⟩
  | 98 => ⟨S_, .i32⟩
  | 99 => ⟨S700000, .i32⟩
  | 100 => ⟨S700000, .i1⟩
  | 101 => ⟨S_, .i32⟩
  | 102 => ⟨S700000, .i32⟩
  | 103 => ⟨S700000, .i32⟩
  | 104 => ⟨S700000, .i32⟩
  | 105 => ⟨S700000x1, .i32⟩
  | 106 => ⟨S700000x40, .f32⟩
  | 107 => ⟨S700000x1, .f32⟩
  | 108 => ⟨S700000x40, .f32⟩
  | 109 => ⟨S700000x40, .f32⟩
  | 110 => ⟨S_, .f32⟩
  | 111 => ⟨S100000x40, .f32⟩
  | 112 => ⟨S700000x1, .i32⟩
  | 113 => ⟨S100000x40, .f32⟩
  | 114 => ⟨S1x40, .f32⟩
  | 115 => ⟨S100000x40, .f32⟩
  | 116 => ⟨S100000x40, .f32⟩
  | 117 => ⟨S_, .f32⟩
  | 118 => ⟨S100000x40, .f32⟩
  | 119 => ⟨S100000x40, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x40, .f32⟩
  | 127 => ⟨S100000x40, .f32⟩
  | _ => ⟨S100000x128, .f32⟩

abbrev hbmTy0_1 (i : Nat) : BufTy := match i % 128 with
  | 0 => ⟨S100000x40, .f32⟩
  | 1 => ⟨S_, .f32⟩
  | 2 => ⟨S100000, .f32⟩
  | 3 => ⟨S100000x1, .f32⟩
  | 4 => ⟨S100000x1, .f32⟩
  | 5 => ⟨S100000x40, .f32⟩
  | 6 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩
abbrev main_call4_cst : Ref sig .tc := ⟨.hbm, 120, rfl⟩
abbrev main_call4_v0 : Ref sig .tc := ⟨.hbm, 121, rfl⟩
abbrev main_call4_cst_0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_v6 : Ref sig .tc := ⟨.hbm, 128, rfl⟩
abbrev main_call4_cst_1 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_v86 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x40_0_1 : S700000x1.BroadcastsInDim S700000x40 (![0, 1] : Fin 2 → Fin S700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x40_S100000x40_1_0_0_1_n_n_wf : DotDims.WF S100000x128 S128x40 S100000x40 [1] [0] [0] [1] [] []
  gather_S100000x40_S700000x1_S700000x40_1_0_n_n_0_1_140_wf : GatherDims.WF S100000x40 S700000x1 S700000x40 [1] [0] [] [0] [] 1 ![1, 40]
  scatter_S100000x40_S700000x1_S700000x40_1_0_0_1_wf : ScatterDims.WF S100000x40 S700000x1 S700000x40 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S700000x1_S700000x40_1_0_n_n_0_1_140 : GatherDims S100000x40 S700000x1 S700000x40 where
  offsetDims := [1]
  collapsedSliceDims := [0]
  operandBatchingDims := []
  startIndicesBatchingDims := []
  startIndexMap := [0]
  indexVectorDim := 1
  sliceSizes := ![1, 40]
  wf := gather_S100000x40_S700000x1_S700000x40_1_0_n_n_0_1_140_wf
def scatter_S100000x40_S700000x1_S700000x40_1_0_0_1 : ScatterDims S100000x40 S700000x1 S700000x40 where
  updateWindowDims := [1]
  insertedWindowDims := [0]
  scatterDimsToOperandDims := [0]
  indexVectorDim := 1
  wf := scatter_S100000x40_S700000x1_S700000x40_1_0_0_1_wf

class Facts : Prop extends Facts₀ where

variable [Facts]
-- ==== Proof.KernelRun.lean ====
/-
  The idealized kernel's run with its result named. From any memory with zero counters every weakly fair execution of
  @main terminates without a fault; the argument arrays end as launched, and the result array ends at the contents the
  last of the four regions leaves in its output array: the fold of the buffer contents through the host stretches and
  the four regions, read at the result's buffer.
-/
import proofs.«146913_j22153441312995_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the last thread state holds every unscoped buffer at the last boundary's contents; read against the final
    state it gives the result buffer at those contents and each argument at its launch contents. -/
theorem run_named : θ_run defs (onTc (τ := τ) (main (F := F))) ⟨m, fun _ => 0, ρ⟩ (fun r => ∀ c : Dev nD,
      r.2.mem ((c.tc : Thread nD τ).loc main_v54) = W10 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v54 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.GcnSpec.lean ====
/-
  The functions a three-layer degree-normalised graph convolution is made of, as whole-array functions at the ideal
  values. A node's factor is kept as a column S : [N, 1] and a bias as a row B : [1, C].

  * denseScale X W S: row n of the dense product X · W, scaled by the node's factor:
        (n, c) ↦ (Σ_k X (n, k) · W (k, c)) · S (n, 0).
  * act A S B: an aggregated row scaled by the node's factor, plus the bias, clipped below at zero:
        (n, c) ↦ max (A (n, c) · S (n, 0) + B (0, c)) 0.
  * logSoftmax X: every row shifted by its maximum M, minus the logarithm of the sum of the exponentials of the shifted
    row:  (n, c) ↦ (X (n, c) − M n) − log Σ_k exp (X (n, k) − M n).
-/
import Idealize.ShloMosaic.Lib.ValueIdx
import Idealize.ShloMosaic.PureOps.Ideal.Laws

noncomputable section

namespace Cert.Gcn

open Idealize.ShloMosaic Idealize.ShloMosaic.ValueIdx
open scoped BigOperators

/-- Row `n` of `X · W` times the node's factor `S (n, 0)`. -/
def denseScale {N K C : ℕ} (X : FVec Ideal ⟨2, ![N, K]⟩ .f32) (W : FVec Ideal ⟨2, ![K, C]⟩ .f32)
    (S : FVec Ideal ⟨2, ![N, 1]⟩ .f32) : FVec Ideal ⟨2, ![N, C]⟩ .f32 :=
  fun i => (∑ k : Fin K, X (ix2 (i 0 : Fin N) k) * W (ix2 k (i 1 : Fin C))) * S (ix2 (i 0 : Fin N) (0 : Fin 1))

/-- An aggregated row times the node's factor, plus the bias, clipped below at zero. -/
def act {N C : ℕ} (A : FVec Ideal ⟨2, ![N, C]⟩ .f32) (S : FVec Ideal ⟨2, ![N, 1]⟩ .f32)
    (B : FVec Ideal ⟨2, ![1, C]⟩ .f32) : FVec Ideal ⟨2, ![N, C]⟩ .f32 :=
  fun i => max (A i * S (ix2 (i 0 : Fin N) (0 : Fin 1)) + B (ix2 (0 : Fin 1) (i 1 : Fin C))) 0

/-- The maximum of a row of extended reals (−∞ for an empty row). -/
def rowMax {C : ℕ} (f : Fin C → EReal) : EReal := (Finset.univ : Finset (Fin C)).fold max ⊥ f

/-- The log-softmax of a row, at its entry `q`. -/
def lsmRow {C : ℕ} (f : Fin C → EReal) (q : Fin C) : EReal :=
  (f q - rowMax f) - Ideal.log (∑ k : Fin C, Ideal.exp (f k - rowMax f))

/-- Row-wise log-softmax of a matrix. -/
def logSoftmax {N C : ℕ} (X : FVec Ideal ⟨2, ![N, C]⟩ .f32) : FVec Ideal ⟨2, ![N, C]⟩ .f32 :=
  fun i => lsmRow (fun k => X (ix2 (i 0 : Fin N) k)) (i 1 : Fin C)

theorem denseScale_apply {N K C : ℕ} (X : FVec Ideal ⟨2, ![N, K]⟩ .f32) (W : FVec Ideal ⟨2, ![K, C]⟩ .f32)
    (S : FVec Ideal ⟨2, ![N, 1]⟩ .f32) (n : Fin N) (c : Fin C) :
    denseScale X W S (ix2 n c) = (∑ k : Fin K, X (ix2 n k) * W (ix2 k c)) * S (ix2 n (0 : Fin 1)) := rfl

theorem act_apply {N C : ℕ} (A : FVec Ideal ⟨2, ![N, C]⟩ .f32) (S : FVec Ideal ⟨2, ![N, 1]⟩ .f32)
    (B : FVec Ideal ⟨2, ![1, C]⟩ .f32) (n : Fin N) (c : Fin C) :
    act A S B (ix2 n c) = max (A (ix2 n c) * S (ix2 n (0 : Fin 1)) + B (ix2 (0 : Fin 1) c)) 0 := rfl

theorem logSoftmax_apply {N C : ℕ} (X : FVec Ideal ⟨2, ![N, C]⟩ .f32) (n : Fin N) (c : Fin C) :
    logSoftmax X (ix2 n c) = lsmRow (fun k => X (ix2 n k)) c := rfl

end Cert.Gcn

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Payloads.lean ====
/-
  The bodies of the three matrix-product kernels, read at a coordinate pair, at the ideal values.

  Each body stores one block. The first stores the dense product of its row block with the weights, every row
  scaled by the row's factor (kept as a column):  (p, q) ↦ (Σ_k x (p, k) · w (k, q)) · s (p, 0).  The second and third
  first rebuild the previous layer's activations from the aggregated rows — a (p, k) · s (p, 0) + b (0, k), clipped below at
  zero — and then do the same with those in place of x. A change of float format is the identity at the ideal values, so
  the narrowing of both matrix operands before the product does not appear.
-/
import proofs.«146913_j22153441312995_2_alg».proof.Proof.Gen.KernelIdeal.Skeleton
import proofs.«146913_j22153441312995_2_alg».proof.Proof.GcnSpec
import proofs.«146913_j22153441312995_2_alg».proof.Proof.LibDenseRows
import proofs.«146913_j22153441312995_2_alg».proof.Proof.LibColumnLayout
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx
open scoped BigOperators

/-! ## Two generic pieces -/

/-- A matrix product into a zero accumulator, every row scaled by a column's entry of that row. -/
theorem dense_scale_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (s : FVec Ideal ⟨2, ![M, 1]⟩ .f32)
    (hc : (⟨2, ![M, 1]⟩ : Shape).ShapeCasts ⟨2, ![M, 1]⟩) (hb : (⟨2, ![M, 1]⟩ : Shape).Broadcasts ⟨2, ![M, N]⟩)
    (p : Fin M) (q : Fin N) :
    mulf (matmul D none A W (constant (F := Ideal) ⟨2, ![M, N]⟩ .f32 0x00000000#32))
        (broadcastTo ⟨2, ![M, N]⟩ (shapeCast ⟨2, ![M, 1]⟩ s hc) hb) (ix2 p q)
      = (∑ k : Fin K, A (ix2 p k) * W (ix2 k q)) * s (ix2 p (0 : Fin 1)) := by
  rw [mulf_apply, Cert.DenseRows.matmul_zero_plain_apply D hl hr hrank hsize hl0 hr1 A W p q,
    Cert.ColumnLayout.broadcastTo_a1_ab_apply _ hb p q, shapeCast_self]

/-- A block scaled row by row by a column, plus a bias row, clipped below at zero. -/
theorem act_block_apply {M N : ℕ} (a : FVec Ideal ⟨2, ![M, N]⟩ .f32) (s : FVec Ideal ⟨2, ![M, 1]⟩ .f32)
    (b : FVec Ideal ⟨2, ![1, N]⟩ .f32)
    (hca : (⟨2, ![M, N]⟩ : Shape).ShapeCasts ⟨2, ![M, N]⟩) (hcs : (⟨2, ![M, 1]⟩ : Shape).ShapeCasts ⟨2, ![M, 1]⟩)
    (hbs : (⟨2, ![M, 1]⟩ : Shape).Broadcasts ⟨2, ![M, N]⟩) (hcb : (⟨2, ![1, N]⟩ : Shape).ShapeCasts ⟨2, ![1, N]⟩)
    (hbb : (⟨2, ![1, N]⟩ : Shape).Broadcasts ⟨2, ![M, N]⟩) (p : Fin M) (q : Fin N) :
    maximumf (addf (mulf (shapeCast ⟨2, ![M, N]⟩ a hca) (broadcastTo ⟨2, ![M, N]⟩ (shapeCast ⟨2, ![M, 1]⟩ s hcs) hbs))
          (broadcastTo ⟨2, ![M, N]⟩ (shapeCast ⟨2, ![1, N]⟩ b hcb) hbb))
        (broadcast ⟨2, ![M, N]⟩ (Scalar.ofBits (F := Ideal) .f32 0x00000000#32)) (ix2 p q)
      = max (a (ix2 p q) * s (ix2 p (0 : Fin 1)) + b (ix2 (0 : Fin 1) q)) 0 := by
  rw [maximumf_apply, addf_apply, mulf_apply, shapeCast_self, shapeCast_self, shapeCast_self,
    Cert.ColumnLayout.broadcastTo_a1_ab_apply _ hbs p q, broadcastTo_1b_ab_apply _ hbb p q, broadcast_apply]
  exact congrArg (max _) Ideal.ofBits_zero_f32

/-! ## The dimension numbers of the two products -/

theorem dot128_lhs0 (j : S5000x128.Idx) (k : dot_S5000x128_S128x128_S5000x128_1_0_0_1_n_n.contr.Idx) :
    (dot_S5000x128_S128x128_S5000x128_1_0_0_1_n_n.lhsIdx j k (0 : Fin 2)).val = (j (0 : Fin 2)).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem dot128_rhs1 (j : S5000x128.Idx) (k : dot_S5000x128_S128x128_S5000x128_1_0_0_1_n_n.contr.Idx) :
    (dot_S5000x128_S128x128_S5000x128_1_0_0_1_n_n.rhsIdx j k (1 : Fin 2)).val = (j (1 : Fin 2)).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem dot40_lhs0 (j : S5000x40.Idx) (k : dot_S5000x128_S128x40_S5000x40_1_0_0_1_n_n.contr.Idx) :
    (dot_S5000x128_S128x40_S5000x40_1_0_0_1_n_n.lhsIdx j k (0 : Fin 2)).val = (j (0 : Fin 2)).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

theorem dot40_rhs1 (j : S5000x40.Idx) (k : dot_S5000x128_S128x40_S5000x40_1_0_0_1_n_n.contr.Idx) :
    (dot_S5000x128_S128x40_S5000x40_1_0_0_1_n_n.rhsIdx j k (1 : Fin 2)).val = (j (1 : Fin 2)).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-! ## The three bodies -/

/-- The first layer's body: the row block's dense product, scaled by the rows' factors. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q)
      = (∑ k : Fin 128, x0 (ix2 p k) * x1 (ix2 k q)) * x2 (ix2 p (0 : Fin 1)) := by
  unfold k0_pay1
  exact dense_scale_apply dot_S5000x128_S128x128_S5000x128_1_0_0_1_n_n rfl rfl rfl rfl dot128_lhs0 dot128_rhs1
    _ _ x2 shapeCasts_S5000x1_S5000x1 broadcasts_S5000x1_S5000x128 p q

/-- The second layer's body: the previous layer's activations rebuilt from the aggregated rows, then the same. -/
theorem pay1_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 (F := Ideal) x0 x1 x2 x3 x4 (ix2 p q)
      = (∑ k : Fin 128, max (x0 (ix2 p k) * x1 (ix2 p (0 : Fin 1)) + x2 (ix2 (0 : Fin 1) k)) 0 * x3 (ix2 k q))
          * x4 (ix2 p (0 : Fin 1)) := by
  unfold k1_pay1
  refine (dense_scale_apply dot_S5000x128_S128x128_S5000x128_1_0_0_1_n_n rfl rfl rfl rfl dot128_lhs0 dot128_rhs1
    _ _ x4 shapeCasts_S5000x1_S5000x1 broadcasts_S5000x1_S5000x128 p q).trans ?_
  refine congrArg (· * x4 (ix2 p (0 : Fin 1))) (Finset.sum_congr rfl fun k _ => ?_)
  exact congrArg (· * x3 (ix2 k q)) (act_block_apply x0 x1 x2 shapeCasts_S5000x128_S5000x128 shapeCasts_S5000x1_S5000x1
    broadcasts_S5000x1_S5000x128 shapeCasts_S1x128_S1x128 broadcasts_S1x128_S5000x128 p k)

/-- The third layer's body: the same with 40 output columns. -/
theorem pay2_apply (x0 : Vec Ideal S5000x128 .f32) (x1 : Vec Ideal S5000x1 .f32) (x2 : Vec Ideal S1x128 .f32)
    (x3 : Vec Ideal S128x40 .f32) (x4 : Vec Ideal S5000x1 .f32) (p : Fin 5000) (q : Fin 40) :
    k2_pay1 (F := Ideal) x0 x1 x2 x3 x4 (ix2 p q)
      = (∑ k : Fin 128, max (x0 (ix2 p k) * x1 (ix2 p (0 : Fin 1)) + x2 (ix2 (0 : Fin 1) k)) 0 * x3 (ix2 k q))
          * x4 (ix2 p (0 : Fin 1)) := by
  unfold k2_pay1
  refine (dense_scale_apply dot_S5000x128_S128x40_S5000x40_1_0_0_1_n_n rfl rfl rfl rfl dot40_lhs0 dot40_rhs1
    _ _ x4 shapeCasts_S5000x1_S5000x1 broadcasts_S5000x1_S5000x40 p q).trans ?_
  refine congrArg (· * x4 (ix2 p (0 : Fin 1))) (Finset.sum_congr rfl fun k _ => ?_)
  exact congrArg (· * x3 (ix2 k q)) (act_block_apply x0 x1 x2 shapeCasts_S5000x128_S5000x128 shapeCasts_S5000x1_S5000x1
    broadcasts_S5000x1_S5000x128 shapeCasts_S1x128_S1x128 broadcasts_S1x128_S5000x128 p k)

end Cert.KernelIdeal.Payloads

end
-- ==== Proof.Region0.lean ====
/-
  The first layer's kernel as one function of its arrays. The grid has 20 points; point t stages rows
  5000·t … 5000·t + 4999 of the features and of the factor column, the whole weight matrix, and writes back the same rows
  of the output. What it writes is the block's dense product scaled by the rows' factors, which is those rows of
  Cert.Gcn.denseScale of the whole arrays; the 20 row blocks cover the output, so the output array ends at denseScale.
-/
import proofs.«146913_j22153441312995_2_alg».proof.Proof.Gen.KernelIdeal.Frame
import proofs.«146913_j22153441312995_2_alg».proof.Proof.Payloads
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- One grid point: a block whose rows are rows `r·5000 + p` of the arrays computes those rows of `denseScale`. -/
theorem point (A0 : FVec Ideal S100000x128 .f32) (A1 : FVec Ideal S128x128 .f32) (A2 : FVec Ideal S100000x1 .f32)
    (x0 : Vec Ideal S5000x128 .f32) (x1 : Vec Ideal S128x128 .f32) (x2 : Vec Ideal S5000x1 .f32) (r : ℕ)
    (i0 : Fin 5000 → Fin 100000) (hi : ∀ p, (i0 p).val = r * 5000 + p.val)
    (h0 : ∀ (p : Fin 5000) (k : Fin 128), x0 (ix2 p k) = A0 (ix2 (i0 p) k))
    (h1 : ∀ (k : Fin 128) (q : Fin 128), x1 (ix2 k q) = A1 (ix2 k q))
    (h2 : ∀ p : Fin 5000, x2 (ix2 p (0 : Fin 1)) = A2 (ix2 (i0 p) (0 : Fin 1)))
    (y : S5000x128.Idx) (i : S100000x128.Idx) (e0 : (i 0).val = r * 5000 + (y 0).val) (e1 : (i 1).val = (y 1).val) :
    k0_pay1 (F := Ideal) x0 x1 x2 y = Cert.Gcn.denseScale A0 A1 A2 i := by
  obtain ⟨p, q, rfl⟩ : ∃ (p : Fin 5000) (q : Fin 128), y = ix2 p q := ⟨y 0, y 1, eq_ix2 y⟩
  obtain ⟨n, c, rfl⟩ : ∃ (n : Fin 100000) (c : Fin 128), i = ix2 n c := ⟨i 0, i 1, eq_ix2 i⟩
  have hn : n = i0 p := Fin.ext (by rw [hi]; exact e0)
  have hc : c = q := Fin.ext e1
  subst hn hc
  rw [Payloads.pay0_apply, Cert.Gcn.denseScale_apply]
  simp only [h0, h1, h2]

/-- The printed index maps over the grid: the row blocks of the features, the factor column and the output move
    together, the weights stay. -/
theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) < 20 :=
  (by decide +kernel : ∀ t : Fin grid0.N, _)

/-- Every row block is some point's. -/
theorem idx_onto : ∀ q0 : Fin 20, ∃ t : Fin cfg0.N, win0_3.index t (0 : Fin 2) = q0.val :=
  (by decide +kernel : ∀ q0 : Fin 20, ∃ t : Fin grid0.N, win0_3.index t (0 : Fin 2) = q0.val)

/-- The arrays as the region finds them. -/
abbrev A0 (c : Dev nD) : FVec Ideal S100000x128 .f32 := V c (Pipeline.arrRef spec0 0)
abbrev A1 (c : Dev nD) : FVec Ideal S128x128 .f32 := V c (Pipeline.arrRef spec0 1)
abbrev A2 (c : Dev nD) : FVec Ideal S100000x1 .f32 := V c (Pipeline.arrRef spec0 2)

/-- What the output array ends holding. -/
def G (c : Dev nD) : FVec Ideal S100000x128 .f32 := Cert.Gcn.denseScale (A0 V c) (A1 V c) (A2 V c)

/-- What point `t` writes back is block `t` of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  have hrow : ∀ p : Fin 5000, win0_3.index t (0 : Fin 2) * 5000 + p.val < 100000 := fun p => by have := p.isLt; omega
  have h0 : ∀ (p : Fin 5000) (k : Fin 128), iblk0 V c 0 t (ix2 p k)
      = A0 V c (ix2 (⟨win0_3.index t (0 : Fin 2) * 5000 + p.val, hrow p⟩ : Fin 100000) k) := by
    intro p k
    show V c (Pipeline.arrRef spec0 0) (((cfg0.win 0).blk t).view.emb (ix2 p k)) = V c (Pipeline.arrRef spec0 0) (ix2 _ k)
    refine congrArg _ (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  have h1 : ∀ (k : Fin 128) (q : Fin 128), iblk0 V c 1 t (ix2 k q) = A1 V c (ix2 k q) := by
    intro k q
    show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have h2 : ∀ p : Fin 5000, iblk0 V c 2 t (ix2 p (0 : Fin 1))
      = A2 V c (ix2 (⟨win0_3.index t (0 : Fin 2) * 5000 + p.val, hrow p⟩ : Fin 100000) (0 : Fin 1)) := by
    intro p
    show V c (Pipeline.arrRef spec0 2) (((cfg0.win 2).blk t).view.emb (ix2 p (0 : Fin 1))) = V c (Pipeline.arrRef spec0 2) (ix2 _ (0 : Fin 1))
    refine congrArg _ (funext fun a => Fin.ext ?_)
    match a with
    | ⟨0, _⟩ => show win0_2.index t (0 : Fin 2) * 5000 + 1 * p.val = win0_3.index t (0 : Fin 2) * 5000 + p.val; omega
    | ⟨1, _⟩ => show win0_2.index t (1 : Fin 2) * 1 + 1 * 0 = 0; omega
  funext j
  show k0_pay1 (F := Ideal) (iblk0 V c 0 t) (iblk0 V c 1 t) (iblk0 V c 2 t) j = G V c (((cfg0.win 3).blk t).view.emb j)
  exact point (A0 V c) (A1 V c) (A2 V c) (iblk0 V c 0 t) (iblk0 V c 1 t) (iblk0 V c 2 t) (win0_3.index t (0 : Fin 2))
    (fun p => ⟨win0_3.index t (0 : Fin 2) * 5000 + p.val, hrow p⟩) (fun _ => rfl) h0 h1 h2 j (((cfg0.win 3).blk t).view.emb j)
    (show win0_3.index t (0 : Fin 2) * 5000 + 1 * (j 0).val = win0_3.index t (0 : Fin 2) * 5000 + (j 0).val by omega)
    (show win0_3.index t (1 : Fin 2) * 128 + 1 * (j 1).val = (j 1).val by omega)

/-- An index of the output array is in point `t`'s block iff its row is in the block's row range. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- The output array after the region. -/
theorem final (c : Dev nD) : (dat0 (F := Ideal) V c).arrAt 3 cfg0.N = G V c :=
  (dat0 V c).arrAt_eq_of_cover 3 (G V c) (fun t _ => flushed_eq V c t) fun i => by
    have hi0 : (i 0).val < 100000 := (i 0).isLt
    have hi1 : (i 1).val < 128 := (i 1).isLt
    obtain ⟨t, ht⟩ := idx_onto ⟨(i 0).val / 5000, by omega⟩
    obtain ⟨e0, e1, e2, e3, e4, e5, e6, e7⟩ := idx_facts t
    refine ⟨t, flush0_3 t, ?_⟩
    rw [mem_blk]
    intro a
    match a with
    | ⟨0, _⟩ => show win0_3.index t (0 : Fin 2) * 5000 ≤ (i 0).val ∧ (i 0).val < win0_3.index t (0 : Fin 2) * 5000 + 5000; rw [ht]; show (i 0).val / 5000 * 5000 ≤ (i 0).val ∧ (i 0).val < (i 0).val / 5000 * 5000 + 5000; omega
    | ⟨1, _⟩ => show win0_3.index t (1 : Fin 2) * 128 ≤ (i 1).val ∧ (i 1).val < win0_3.index t (1 : Fin 2) * 128 + 128; omega

end Cert.KernelIdeal.Region0

end
-- ==== Proof.Region1.lean ====
/-
  The second layer's kernel as one function of its arrays. The grid has 20 points; point t stages rows
  5000·t … 5000·t + 4999 of the aggregated rows and of the factor column, the whole bias row and weight matrix, and writes
  back the same rows of the output. What it writes is those rows of Cert.Gcn.denseScale of the rebuilt activations
  Cert.Gcn.act of the whole arrays; the 20 row blocks cover the output.
-/
import proofs.«146913_j22153441312995_2_alg».proof.Proof.Gen.KernelIdeal.Frame
import proofs.«146913_j22153441312995_2_alg».proof.Proof.Payloads
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- One grid point: a block whose rows are rows `r·5000 + p` of the arrays computes those rows of the layer. -/
theorem point (A0 : FVec Ideal S100000x128 .f32) (A1 : FVec Ideal S100000x1 .f32) (A2 : FVec Ideal S1x128 .f32)
    (A3 : FVec Ideal S128x128 .f32)
    (x0 : Vec Ideal S5000x128 .f32) (x1 : Vec Ideal S5000x1 .f32) (x2 : Vec Ideal S1x128 .f32) (x3 : Vec Ideal S128x128 .f32) (r : ℕ)
    (i0 : Fin 5000 → Fin 100000) (hi : ∀ p, (i0 p).val = r * 5000 + p.val)
    (h0 : ∀ (p : Fin 5000) (k : Fin 128), x0 (ix2 p k) = A0 (ix2 (i0 p) k))
    (h1 : ∀ p : Fin 5000, x1 (ix2 p (0 : Fin 1)) = A1 (ix2 (i0 p) (0 : Fin 1)))
    (h2 : ∀ k : Fin 128, x2 (ix2 (0 : Fin 1) k) = A2 (ix2 (0 : Fin 1) k))
    (h3 : ∀ (k : Fin 128) (q : Fin 128), x3 (ix2 k q) = A3 (ix2 k q))
    (y : S5000x128.Idx) (i : S100000x128.Idx) (e0 : (i 0).val = r * 5000 + (y 0).val) (e1 : (i 1).val = (y 1).val) :
    k1_pay1 (F := Ideal) x0 x1 x2 x3 x1 y = Cert.Gcn.denseScale (Cert.Gcn.act A0 A1 A2) A3 A1 i := by
  obtain ⟨p, q, rfl⟩ : ∃ (p : Fin 5000) (q : Fin 128), y = ix2 p q := ⟨y 0, y 1, eq_ix2 y⟩
  obtain ⟨n, c, rfl⟩ : ∃ (n : Fin 100000) (c : Fin 128), i = ix2 n c := ⟨i 0, i 1, eq_ix2 i⟩
  have hn : n = i0 p := Fin.ext (by rw [hi]; exact e0)
  have hc : c = q := Fin.ext e1
  subst hn hc
  rw [Payloads.pay1_apply, Cert.Gcn.denseScale_apply]
  simp only [Cert.Gcn.act_apply, h0, h1, h2, h3]

/-- The printed index maps over the grid: the row blocks of the aggregated rows, the factor column and the output
    move together, the bias row and the weights stay. -/
theorem idx_facts : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) < 20 :=
  (by decide +kernel : ∀ t : Fin grid1.N, _)

/-- Every row block is some point's. -/
theorem idx_onto : ∀ q0 : Fin 20, ∃ t : Fin cfg1.N, win1_4.index t (0 : Fin 2) = q0.val :=
  (by decide +kernel : ∀ q0 : Fin 20, ∃ t : Fin grid1.N, win1_4.index t (0 : Fin 2) = q0.val)

/-- The arrays as the region finds them. -/
abbrev A0 (c : Dev nD) : FVec Ideal S100000x128 .f32 := V c (Pipeline.arrRef spec1 0)
abbrev A1 (c : Dev nD) : FVec Ideal S100000x1 .f32 := V c (Pipeline.arrRef spec1 1)
abbrev A2 (c : Dev nD) : FVec Ideal S1x128 .f32 := V c (Pipeline.arrRef spec1 2)
abbrev A3 (c : Dev nD) : FVec Ideal S128x128 .f32 := V c (Pipeline.arrRef spec1 3)

/-- What the output array ends holding. -/
def G (c : Dev nD) : FVec Ideal S100000x128 .f32 :=
  Cert.Gcn.denseScale (Cert.Gcn.act (A0 V c) (A1 V c) (A2 V c)) (A3 V c) (A1 V c)

/-- What point `t` writes back is block `t` of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x128) hz]
  obtain ⟨e0, e1, e2, e3, e4, e5, e6, e7, e8, e9⟩ := idx_facts t
  have hrow : ∀ p : Fin 5000, win1_4.index t (0 : Fin 2) * 5000 + p.val < 100000 := fun p => by have := p.isLt; omega
  have h0 : ∀ (p : Fin 5000) (k : Fin 128), iblk1 V c 0 t (ix2 p k)
      = A0 V c (ix2 (⟨win1_4.index t (0 : Fin 2) * 5000 + p.val, hrow p⟩ : Fin 100000) k) := by
    intro p k
    show V c (Pipeline.arrRef spec1 0) (((cfg1.win 0).blk t).view.emb (ix2 p k)) = V c (Pipeline.arrRef spec1 0) (ix2 _ k)
    refine congrArg _ (funext fun a => Fin.ext ?_)
    match a with
    | ⟨0, _⟩ => show win1_0.index t (0 : Fin 2) * 5000 + 1 * p.val = win1_4.index t (0 : Fin 2) * 5000 + p.val; omega
    | ⟨1, _⟩ => show win1_0.index t (1 : Fin 2) * 128 + 1 * k.val = k.val; omega
  have h1 : ∀ p : Fin 5000, iblk1 V c 1 t (ix2 p (0 : Fin 1))
      = A1 V c (ix2 (⟨win1_4.index t (0 : Fin 2) * 5000 + p.val, hrow p⟩ : Fin 100000) (0 : Fin 1)) := by
    intro p
    show V c (Pipeline.arrRef spec1 1) (((cfg1.win 1).blk t).view.emb (ix2 p (0 : Fin 1))) = V c (Pipeline.arrRef spec1 1) (ix2 _ (0 : Fin 1))
    refine congrArg _ (funext fun a => Fin.ext ?_)
    match a with
    | ⟨0, _⟩ => show win1_1.index t (0 : Fin 2) * 5000 + 1 * p.val = win1_4.index t (0 : Fin 2) * 5000 + p.val; omega
    | ⟨1, _⟩ => show win1_1.index t (1 : Fin 2) * 1 + 1 * 0 = 0; omega
  have h2 : ∀ k : Fin 128, iblk1 V c 2 t (ix2 (0 : Fin 1) k) = A2 V c (ix2 (0 : Fin 1) k) := by
    intro k
    show V c (Pipeline.arrRef spec1 2) (((cfg1.win 2).blk t).view.emb (ix2 (0 : Fin 1) k)) = V c (Pipeline.arrRef spec1 2) (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have h3 : ∀ (k : Fin 128) (q : Fin 128), iblk1 V c 3 t (ix2 k q) = A3 V c (ix2 k q) := by
    intro k q
    show V c (Pipeline.arrRef spec1 3) (((cfg1.win 3).blk t).view.emb (ix2 k q)) = V c (Pipeline.arrRef spec1 3) (ix2 k q)
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  funext j
  show k1_pay1 (F := Ideal) (iblk1 V c 0 t) (iblk1 V c 1 t) (iblk1 V c 2 t) (iblk1 V c 3 t) (iblk1 V c 1 t) j
    = G V c (((cfg1.win 4).blk t).view.emb j)
  exact point (A0 V c) (A1 V c) (A2 V c) (A3 V c) (iblk1 V c 0 t) (iblk1 V c 1 t) (iblk1 V c 2 t) (iblk1 V c 3 t)
    (win1_4.index t (0 : Fin 2))
    (fun p => ⟨win1_4.index t (0 : Fin 2) * 5000 + p.val, hrow p⟩) (fun _ => rfl) h0 h1 h2 h3 j (((cfg1.win 4).blk t).view.emb j)
    (show win1_4.index t (0 : Fin 2) * 5000 + 1 * (j 0).val = win1_4.index t (0 : Fin 2) * 5000 + (j 0).val by omega)
    (show win1_4.index t (1 : Fin 2) * 128 + 1 * (j 1).val = (j 1).val by omega)

/-- An index of the output array is in point `t`'s block iff its row is in the block's row range. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v30).slice (win1_4.rect t)).set ↔ _
  rw [View.set_slice_whole, Rect.mem_set_unit]
  exact Iff.rfl

/-- The output array after the region. -/
theorem final (c : Dev nD) : (dat1 (F := Ideal) V c).arrAt 4 cfg1.N = G V c :=
  (dat1 V c).arrAt_eq_of_cover 4 (G V c) (fun t _ => flushed_eq V c t) fun i => by
    have hi0 : (i 0).val < 100000 := (i 0).isLt
    have hi1 : (i 1).val < 128 := (i 1).isLt
    obtain ⟨t, ht⟩ := idx_onto ⟨(i 0).val / 5000, by omega⟩
    obtain ⟨e0, e1, e2, e3, e4, e5, e6, e7, e8, e9⟩ := idx_facts t
    refine ⟨t, flush1_4 t, ?_⟩
    rw [mem_blk]
    intro a
    match a with
    | ⟨0, _⟩ => show win1_4.index t (0 : Fin 2) * 5000 ≤ (i 0).val ∧ (i 0).val < win1_4.index t (0 : Fin 2) * 5000 + 5000; rw [ht]; show (i 0).val / 5000 * 5000 ≤ (i 0).val ∧ (i 0).val < (i 0).val / 5000 * 5000 + 5000; omega
    | ⟨1, _⟩ => show win1_4.index t (1 : Fin 2) * 128 ≤ (i 1).val ∧ (i 1).val < win1_4.index t (1 : Fin 2) * 128 + 128; omega

end Cert.KernelIdeal.Region1

end
-- ==== Proof.Region2.lean ====
/-
  The third layer's kernel as one function of its arrays. The grid has 20 points; point t stages rows
  5000·t … 5000·t + 4999 of the aggregated rows and of the factor column, the whole bias row and weight matrix, and writes
  back the same rows of the output. What it writes is those rows of Cert.Gcn.denseScale of the rebuilt activations
  Cert.Gcn.act of the whole arrays; the 20 row blocks cover the output.
-/
import proofs.«146913_j22153441312995_2_alg».proof.Proof.Gen.KernelIdeal.Frame
import proofs.«146913_j22153441312995_2_alg».proof.Proof.Payloads
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- One grid point: a block whose rows are rows `r·5000 + p` of the arrays computes those rows of the layer. -/
theorem point (A0 : FVec Ideal S100000x128 .f32) (A1 : FVec Ideal S100000x1 .f32) (A2 : FVec Ideal S1x128 .f32)
    (A3 : FVec Ideal S128x40 .f32)
    (x0 : Vec Ideal S5000x128 .f32) (x1 : Vec Ideal S5000x1 .f32) (x2 : Vec Ideal S1x128 .f32) (x3 : Vec Ideal S128x40 .f32) (r : ℕ)
    (i0 : Fin 5000 → Fin 100000) (hi : ∀ p, (i0 p).val = r * 5000 + p.val)
    (h0 : ∀ (p : Fin 5000) (k : Fin 128), x0 (ix2 p k) = A0 (ix2 (i0 p) k))
    (h1 : ∀ p : Fin 5000, x1 (ix2 p (0 : Fin 1)) = A1 (ix2 (i0 p) (0 : Fin 1)))
    (h2 : ∀ k : Fin 128, x2 (ix2 (0 : Fin 1) k) = A2 (ix2 (0 : Fin 1) k))
    (h3 : ∀ (k : Fin 128) (q : Fin 40), x3 (ix2 k q) = A3 (ix2 k q))
    (y : S5000x40.Idx) (i : S100000x40.Idx) (e0 : (i 0).val = r * 5000 + (y 0).val) (e1 : (i 1).val = (y 1).val) :
    k2_pay1 (F := Ideal) x0 x1 x2 x3 x1 y = Cert.Gcn.denseScale (Cert.Gcn.act A0 A1 A2) A3 A1 i := by
  obtain ⟨p, q, rfl⟩ : ∃ (p : Fin 5000) (q : Fin 40), y = ix2 p q := ⟨y 0, y 1, eq_ix2 y⟩
  obtain ⟨n, c, rfl⟩ : ∃ (n : Fin 100000) (c : Fin 40), i = ix2 n c := ⟨i 0, i 1, eq_ix2 i⟩
  have hn : n = i0 p := Fin.ext (by rw [hi]; exact e0)
  have hc : c = q := Fin.ext e1
  subst hn hc
  rw [Payloads.pay2_apply, Cert.Gcn.denseScale_apply]
  simp only [Cert.Gcn.act_apply, h0, h1, h2, h3]

/-- The printed index maps over the grid: the row blocks of the aggregated rows, the factor column and the output
    move together, the bias row and the weights stay. -/
theorem idx_facts : ∀ t : Fin cfg2.N, win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) < 20 :=
  (by decide +kernel : ∀ t : Fin grid2.N, _)

/-- Every row block is some point's. -/
theorem idx_onto : ∀ q0 : Fin 20, ∃ t : Fin cfg2.N, win2_4.index t (0 : Fin 2) = q0.val :=
  (by decide +kernel : ∀ q0 : Fin 20, ∃ t : Fin grid2.N, win2_4.index t (0 : Fin 2) = q0.val)

/-- The arrays as the region finds them. -/
abbrev A0 (c : Dev nD) : FVec Ideal S100000x128 .f32 := V c (Pipeline.arrRef spec2 0)
abbrev A1 (c : Dev nD) : FVec Ideal S100000x1 .f32 := V c (Pipeline.arrRef spec2 1)
abbrev A2 (c : Dev nD) : FVec Ideal S1x128 .f32 := V c (Pipeline.arrRef spec2 2)
abbrev A3 (c : Dev nD) : FVec Ideal S128x40 .f32 := V c (Pipeline.arrRef spec2 3)

/-- What the output array ends holding. -/
def G (c : Dev nD) : FVec Ideal S100000x40 .f32 :=
  Cert.Gcn.denseScale (Cert.Gcn.act (A0 V c) (A1 V c) (A2 V c)) (A3 V c) (A1 V c)

/-- What point `t` writes back is block `t` of `G`. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S1x128) hz,
    View.ld_unit_zero (S := S128x40) hz]
  obtain ⟨e0, e1, e2, e3, e4, e5, e6, e7, e8, e9⟩ := idx_facts t
  have hrow : ∀ p : Fin 5000, win2_4.index t (0 : Fin 2) * 5000 + p.val < 100000 := fun p => by have := p.isLt; omega
  have h0 : ∀ (p : Fin 5000) (k : Fin 128), iblk2 V c 0 t (ix2 p k)
      = A0 V c (ix2 (⟨win2_4.index t (0 : Fin 2) * 5000 + p.val, hrow p⟩ : Fin 100000) k) := by
    intro p k
    show V c (Pipeline.arrRef spec2 0) (((cfg2.win 0).blk t).view.emb (ix2 p k)) = V c (Pipeline.arrRef spec2 0) (ix2 _ k)
    refine congrArg _ (funext fun a => Fin.ext ?_)
    match a with
    | ⟨0, _⟩ => show win2_0.index t (0 : Fin 2) * 5000 + 1 * p.val = win2_4.index t (0 : Fin 2) * 5000 + p.val; omega
    | ⟨1, _⟩ => show win2_0.index t (1 : Fin 2) * 128 + 1 * k.val = k.val; omega
  have h1 : ∀ p : Fin 5000, iblk2 V c 1 t (ix2 p (0 : Fin 1))
      = A1 V c (ix2 (⟨win2_4.index t (0 : Fin 2) * 5000 + p.val, hrow p⟩ : Fin 100000) (0 : Fin 1)) := by
    intro p
    show V c (Pipeline.arrRef spec2 1) (((cfg2.win 1).blk t).view.emb (ix2 p (0 : Fin 1))) = V c (Pipeline.arrRef spec2 1) (ix2 _ (0 : Fin 1))
    refine congrArg _ (funext fun a => Fin.ext ?_)
    match a with
    | ⟨0, _⟩ => show win2_1.index t (0 : Fin 2) * 5000 + 1 * p.val = win2_4.index t (0 : Fin 2) * 5000 + p.val; omega
    | ⟨1, _⟩ => show win2_1.index t (1 : Fin 2) * 1 + 1 * 0 = 0; omega
  have h2 : ∀ k : Fin 128, iblk2 V c 2 t (ix2 (0 : Fin 1) k) = A2 V c (ix2 (0 : Fin 1) k) := by
    intro k
    show V c (Pipeline.arrRef spec2 2) (((cfg2.win 2).blk t).view.emb (ix2 (0 : Fin 1) k)) = V c (Pipeline.arrRef spec2 2) (ix2 (0 : Fin 1) k)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * k.val = k.val; omega
  have h3 : ∀ (k : Fin 128) (q : Fin 40), iblk2 V c 3 t (ix2 k q) = A3 V c (ix2 k q) := by
    intro k q
    show V c (Pipeline.arrRef spec2 3) (((cfg2.win 3).blk t).view.emb (ix2 k q)) = V c (Pipeline.arrRef spec2 3) (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 40 + 1 * q.val = q.val; omega
  funext j
  show k2_pay1 (F := Ideal) (iblk2 V c 0 t) (iblk2 V c 1 t) (iblk2 V c 2 t) (iblk2 V c 3 t) (iblk2 V c 1 t) j
    = G V c (((cfg2.win 4).blk t).view.emb j)
  exact point (A0 V c) (A1 V c) (A2 V c) (A3 V c) (iblk2 V c 0 t) (iblk2 V c 1 t) (iblk2 V c 2 t) (iblk2 V c 3 t)
    (win2_4.index t (0 : Fin 2))
    (fun p => ⟨win2_4.index t (0 : Fin 2) * 5000 + p.val, hrow p⟩) (fun _ => rfl) h0 h1 h2 h3 j (((cfg2.win 4).blk t).view.emb j)
    (show win2_4.index t (0 : Fin 2) * 5000 + 1 * (j 0).val = win2_4.index t (0 : Fin 2) * 5000 + (j 0).val by omega)
    (show win2_4.index t (1 : Fin 2) * 40 + 1 * (j 1).val = (j 1).val by omega)

/-- An index of the output array is in point `t`'s block iff its row is in the block's row range. -/
theorem mem_blk (t : Fin cfg2.N) (i : S100000x40.Idx) :
    i ∈ ((cfg2.win 4).blk t).view.set ↔ ∀ a : Fin 2, win2_4.index t a * S5000x40.size a ≤ (i a).val ∧ (i a).val < win2_4.index t a * S5000x40.size a + S5000x40.size a := by
  show i ∈ ((View.whole main_v42).slice (win2_4.rect t)).set ↔ _
  rw [View.set_slice_whole, Rect.mem_set_unit]
  exact Iff.rfl

/-- The output array after the region. -/
theorem final (c : Dev nD) : (dat2 (F := Ideal) V c).arrAt 4 cfg2.N = G V c :=
  (dat2 V c).arrAt_eq_of_cover 4 (G V c) (fun t _ => flushed_eq V c t) fun i => by
    have hi0 : (i 0).val < 100000 := (i 0).isLt
    have hi1 : (i 1).val < 40 := (i 1).isLt
    obtain ⟨t, ht⟩ := idx_onto ⟨(i 0).val / 5000, by omega⟩
    obtain ⟨e0, e1, e2, e3, e4, e5, e6, e7, e8, e9⟩ := idx_facts t
    refine ⟨t, flush2_4 t, ?_⟩
    rw [mem_blk]
    intro a
    match a with
    | ⟨0, _⟩ => show win2_4.index t (0 : Fin 2) * 5000 ≤ (i 0).val ∧ (i 0).val < win2_4.index t (0 : Fin 2) * 5000 + 5000; rw [ht]; show (i 0).val / 5000 * 5000 ≤ (i 0).val ∧ (i 0).val < (i 0).val / 5000 * 5000 + 5000; omega
    | ⟨1, _⟩ => show win2_4.index t (1 : Fin 2) * 40 ≤ (i 1).val ∧ (i 1).val < win2_4.index t (1 : Fin 2) * 40 + 40; omega

end Cert.KernelIdeal.Region2

end
-- ==== Proof.SoftmaxRows.lean ====
/-
  The row-wise log-softmax read at an index, on both sides, as one function of the row: `Cert.Gcn.lsmRow`.

  A row's maximum is taken by a reduction over the second axis from −∞, its sum of exponentials by one from 0; each result
  is placed as a column and copied back along the row. At `(p, q)` the composite is
      (V (p, q) − M p) − log Σ_k exp (V (p, k) − M p),     M p = max_k V (p, k),
  which is `lsmRow` of row `p` of `V` at `q`.
-/
import proofs.«146913_j22153441312995_2_alg».proof.Proof.GcnSpec
import proofs.«146913_j22153441312995_2_alg».proof.Proof.RefRead
import proofs.«146913_j22153441312995_2_alg».proof.Proof.Gen.KernelIdeal.Skeleton
import proofs.«146913_j22153441312995_2_alg».proof.Proof.LibColumnLayout
import Idealize.ShloMosaic.Lib.Pipeline.Value
import Idealize.ShloMosaic.Lib.ValueIdx
import Idealize.ShloMosaic.PureOps.Ideal.Laws

noncomputable section

namespace Cert.SoftmaxRows

open Idealize.ShloMosaic Idealize.ShloMosaic.ValueIdx
open scoped BigOperators

/-- The f32 word 0xFF800000 denotes −∞, the bottom of the extended reals. -/
theorem ofBits_negInf_f32 : FloatOps.ofBits (F := Ideal) .f32 0xFF800000#32 = ⊥ := by
  show Ideal.ofBits .f32 0xFF800000#32 = ⊥
  simp [Ideal.ofBits, Ideal.ieee]

/-- A row index `p` of an `[n, d]` array with the column `k` put back is `(p, k)`. -/
theorem lift_row {n d : ℕ} (h : (⟨2, ![n, d]⟩ : Shape).Reduces [1] (⟨1, ![n]⟩ : Shape)) (p : Fin n) (k : Fin d) :
    h.lift (ix1 p) k = ix2 p k := by
  funext c; apply Fin.ext
  fin_cases c <;> rfl

/-- A row `[1, d]` broadcast along the rows of `[n, d]` reads, at `(p, c)`, the row's entry at `c`. -/
theorem broadcastTo_row_apply {α : Type} {n d : ℕ} (v : (⟨2, ![1, d]⟩ : Shape).Idx → α)
    (h : (⟨2, ![1, d]⟩ : Shape).Broadcasts ⟨2, ![n, d]⟩) (p : Fin n) (c : Fin d) :
    broadcastTo ⟨2, ![n, d]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if d = 1 then 0 else c.val
    split
    · have := c.isLt; omega
    · rfl

/-- The maximum over one row taken by a reduction over the second axis from −∞. -/
theorem rowMax_multiReduction {n d : ℕ} (V : FVec Ideal ⟨2, ![n, d]⟩ .f32)
    (h : (⟨2, ![n, d]⟩ : Shape).Reduces [1] (⟨1, ![n]⟩ : Shape)) (hφ : FKind.Formats .f32)
    (hacc : (0xFF800000#32 : BitVec 32) = FKind.maximumf.neutral .f32 hφ) (p : Fin n) :
    multiReduction .maximumf [1] ⟨1, ![n]⟩ V 0xFF800000#32 h hφ hacc (ix1 p) = Cert.Gcn.rowMax (fun k : Fin d => V (ix2 p k)) := by
  rw [Ideal.multiReduction_maximumf_single, ofBits_negInf_f32]
  unfold Cert.Gcn.rowMax
  exact congrArg (fun f => Finset.fold max ⊥ f (Finset.univ : Finset (Fin d))) (funext fun k => congrArg V (lift_row h p k))

/-- The sum over one row taken by a reduction over the second axis from 0. -/
theorem rowSum_multiReduction {n d : ℕ} (V : FVec Ideal ⟨2, ![n, d]⟩ .f32)
    (h : (⟨2, ![n, d]⟩ : Shape).Reduces [1] (⟨1, ![n]⟩ : Shape)) (hφ : FKind.Formats .f32)
    (hacc : (0x00000000#32 : BitVec 32) = FKind.add.neutral .f32 hφ) (p : Fin n) :
    multiReduction .add [1] ⟨1, ![n]⟩ V 0x00000000#32 h hφ hacc (ix1 p) = ∑ k : Fin d, V (ix2 p k) := by
  rw [Ideal.multiReduction_add_single]
  exact Finset.sum_congr rfl fun k _ => congrArg V (lift_row h p k)

/-- The row maximum of a block, placed as a column and broadcast back along the row, read at `(p, q)`. -/
theorem rowMaxBlock_apply {n d : ℕ} (V : FVec Ideal ⟨2, ![n, d]⟩ .f32)
    (h : (⟨2, ![n, d]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, d]⟩)
    (p : Fin n) (q : Fin d) :
    broadcastTo ⟨2, ![n, d]⟩ (shapeCast ⟨2, ![n, 1]⟩ (multiReduction .maximumf [1] ⟨1, ![n]⟩ V 0xFF800000#32 h hφ hacc) hc) hb (ix2 p q)
      = Cert.Gcn.rowMax (fun k : Fin d => V (ix2 p k)) := by
  rw [Cert.ColumnLayout.broadcastTo_a1_ab_apply, Cert.ColumnLayout.shapeCast_a_a1_apply, rowMax_multiReduction]

/-- A block `V` minus a block `M` that holds, along row `p`, the row's maximum; minus the logarithm of the row sum of the
    exponentials of that difference (the sum taken by a reduction over the second axis, placed as a column and broadcast
    back): at `(p, q)` this is the log-softmax of row `p` of `V` at `q`. -/
theorem lsmBlock_apply {n d : ℕ} (V M : FVec Ideal ⟨2, ![n, d]⟩ .f32) (p : Fin n)
    (hM : ∀ k : Fin d, M (ix2 p k) = Cert.Gcn.rowMax (fun k : Fin d => V (ix2 p k)))
    (h : (⟨2, ![n, d]⟩ : Shape).Reduces [1] (⟨1, ![n]⟩ : Shape)) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, d]⟩) (q : Fin d) :
    subf (subf V M) (broadcastTo ⟨2, ![n, d]⟩ (log (shapeCast ⟨2, ![n, 1]⟩
        (multiReduction .add [1] ⟨1, ![n]⟩ (exp (subf V M)) 0x00000000#32 h hφ hacc) hc)) hb) (ix2 p q)
      = Cert.Gcn.lsmRow (fun k : Fin d => V (ix2 p k)) q := by
  have hS : ∀ k : Fin d, (subf V M) (ix2 p k) = V (ix2 p k) - Cert.Gcn.rowMax (fun k : Fin d => V (ix2 p k)) := fun k => by
    rw [subf_apply, hM k]
  rw [subf_apply, hS q, Cert.ColumnLayout.broadcastTo_a1_ab_apply]
  show _ - FloatOps.log (shapeCast ⟨2, ![n, 1]⟩ _ hc (ix2 p (0 : Fin 1))) = _
  rw [Cert.ColumnLayout.shapeCast_a_a1_apply, rowSum_multiReduction]
  unfold Cert.Gcn.lsmRow
  refine congrArg (fun s => _ - Ideal.log s) (Finset.sum_congr rfl fun k _ => ?_)
  show Ideal.exp ((subf V M) (ix2 p k)) = _
  rw [hS k]

/-- The kernel's last block at `(p, q)`: the log-softmax of row `p` of the clipped block. -/
theorem pay3_apply (x0 : Vec Ideal Cert.KernelIdeal.S5000x40 .f32) (x1 : Vec Ideal Cert.KernelIdeal.S5000x1 .f32)
    (x2 : Vec Ideal Cert.KernelIdeal.S1x40 .f32) (p : Fin 5000) (q : Fin 40) :
    Cert.KernelIdeal.Gen.k3_pay1 (F := Ideal) x0 x1 x2 (ix2 p q)
      = Cert.Gcn.lsmRow (fun k : Fin 40 => max (x0 (ix2 p k) * x1 (ix2 p (0 : Fin 1)) + x2 (ix2 (0 : Fin 1) k)) 0) q := by
  unfold Cert.KernelIdeal.Gen.k3_pay1
  refine (lsmBlock_apply _ _ p (fun k => rowMaxBlock_apply _ _ _ _ _ _ p k) _ _ _ _ _ q).trans ?_
  refine congrArg (fun f => Cert.Gcn.lsmRow f q) (funext fun k => ?_)
  rw [maximumf_apply, addf_apply, mulf_apply, shapeCast_self, shapeCast_self, shapeCast_self,
    Cert.ColumnLayout.broadcastTo_a1_ab_apply, broadcastTo_row_apply, broadcast_apply]
  show max _ (Ideal.ofBits .f32 0x00000000#32) = _
  rw [Ideal.ofBits_zero_f32]

section Reference

open Cert.ReferenceIdeal Cert.ReferenceIdeal.Gen Cert.ReferenceIdeal.ReadP

/-- The maximum over one row taken by the host's reduction over the second axis from an initial value −∞. -/
theorem rowMax_hostReduce {n d : ℕ} (Y : FVec Ideal ⟨2, ![n, d]⟩ .f32) (c : FVec Ideal ⟨0, ![]⟩ .f32)
    (h' : (⟨2, ![n, d]⟩ : Shape).ReducesTo [1] (⟨1, ![n]⟩ : Shape))
    (h : (⟨2, ![n, d]⟩ : Shape).Reduces [1] (⟨1, ![n]⟩ : Shape))
    (hu : 0 < (⟨0, ![]⟩ : Shape).numel) (hc : c (Shape.Idx.first hu) = ⊥) (p : Fin n) :
    Host.reduce FloatOps.maximumf Y c h' hu (ix1 p) = Cert.Gcn.rowMax (fun k : Fin d => Y (ix2 p k)) := by
  have hfold := Host.reduce_eq_fold_single (FloatOps.maximumf (F := Ideal) (φ := .f32)) Y c h' h hu (ix1 p)
  rw [hc] at hfold
  refine hfold.trans ?_
  unfold Cert.Gcn.rowMax
  exact congrArg (fun f => Finset.fold max ⊥ f (Finset.univ : Finset (Fin d))) (funext fun k => congrArg Y (lift_row h p k))

/-- The reference's fold of the maximum over row `n` of the clipped last layer, from −∞, is the row's maximum. -/
theorem ref_v0_apply (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (n : Fin 100000) :
    val_main_call4_v0 (F := Ideal) x0 x1 x2 x3 x4 x5 x6 x7 (ix1 n)
      = Cert.Gcn.rowMax (fun k : Fin 40 => val_main_v85 (F := Ideal) x0 x1 x2 x3 x4 x5 x6 x7 (ix2 n k)) :=
  rowMax_hostReduce (val_main_v85 (F := Ideal) x0 x1 x2 x3 x4 x5 x6 x7) (val_main_call4_cst (F := Ideal))
    reducesTo_S100000x40_S100000_d1 (by decide) h_S_ ofBits_negInf_f32 n

/-- The reference's row maximum: the maximum of −∞ and that fold. -/
theorem ref_rowMax_apply (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (n : Fin 100000) :
    val_main_call4_v2 (F := Ideal) x0 x1 x2 x3 x4 x5 x6 x7 (ix1 n)
      = Cert.Gcn.rowMax (fun k : Fin 40 => val_main_v85 (F := Ideal) x0 x1 x2 x3 x4 x5 x6 x7 (ix2 n k)) := by
  rw [val_main_call4_v2_apply, val_main_call4_v1_apply, val_main_call4_cst_0_apply, ofBits_negInf_f32, ref_v0_apply]
  exact max_bot_left _

/-- A row `f`, its shift `s k = f k − max f`, the exponentials `g k = exp (s k)`: the shifted entry minus the logarithm of
    zero plus the sum of the exponentials is the log-softmax of the row. -/
theorem lsmRow_of_host {d : ℕ} (f s g : Fin d → Ideal .f32) (q : Fin d)
    (hs : ∀ k, s k = f k - Cert.Gcn.rowMax f) (hg : ∀ k, g k = FloatOps.hostUnary .exp (s k)) :
    FloatOps.subf (s q) (FloatOps.hostUnary .log (FloatOps.ofBits (F := Ideal) .f32 0x00000000#32 + ∑ k : Fin d, g k))
      = Cert.Gcn.lsmRow f q := by
  rw [Ideal.subf_def, Ideal.hostUnary_log_def, Ideal.ofBits_def, Ideal.ofBits_zero_f32, zero_add, hs q]
  unfold Cert.Gcn.lsmRow
  refine congrArg (fun t => _ - Ideal.log t) (Finset.sum_congr rfl fun k _ => ?_)
  rw [hg k, hs k, Ideal.hostUnary_exp_def]

/-- The reference's row maximum copied along row `n`. -/
theorem ref_v4_apply (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (n : Fin 100000) (k : Fin 40) :
    val_main_call4_v4 (F := Ideal) x0 x1 x2 x3 x4 x5 x6 x7 (ix2 n k)
      = Cert.Gcn.rowMax (fun k : Fin 40 => val_main_v85 (F := Ideal) x0 x1 x2 x3 x4 x5 x6 x7 (ix2 n k)) := by
  have e : idx_main_call4_v3 (idx_main_call4_v4 (ix2 n k)) = ix1 n :=
    funext fun a => by match a with | ⟨0, _⟩ => rfl
  rw [val_main_call4_v4_apply, val_main_call4_v3_apply, e]
  exact ref_rowMax_apply x0 x1 x2 x3 x4 x5 x6 x7 n

/-- The reference's shifted row: an entry minus its row's maximum. -/
theorem ref_v5_apply (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (n : Fin 100000) (k : Fin 40) :
    val_main_call4_v5 (F := Ideal) x0 x1 x2 x3 x4 x5 x6 x7 (ix2 n k)
      = val_main_v85 (F := Ideal) x0 x1 x2 x3 x4 x5 x6 x7 (ix2 n k)
        - Cert.Gcn.rowMax (fun k : Fin 40 => val_main_v85 (F := Ideal) x0 x1 x2 x3 x4 x5 x6 x7 (ix2 n k)) := by
  rw [val_main_call4_v5_apply, ref_v4_apply, Ideal.subf_def]

/-- The reference's log-softmax at `(n, q)`: the log-softmax of row `n` of the clipped last layer. -/
theorem ref_lsm_apply (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (n : Fin 100000) (q : Fin 40) :
    val_main_v86 (F := Ideal) x0 x1 x2 x3 x4 x5 x6 x7 (ix2 n q)
      = Cert.Gcn.lsmRow (fun k : Fin 40 => val_main_v85 (F := Ideal) x0 x1 x2 x3 x4 x5 x6 x7 (ix2 n k)) q := by
  have e : ∀ k : Fin 40, idx_main_call4_v7 (idx_main_call4_v8 (idx_main_call4_v10 (ix2 n q))) k = ix2 n k := fun k =>
    funext fun a => by match a with | ⟨0, _⟩ => rfl | ⟨1, _⟩ => rfl
  rw [val_main_v86_apply, val_main_call4_v10_apply, val_main_call4_v9_apply, val_main_call4_v8_apply,
    val_main_call4_v7_apply, val_main_call4_cst_1_apply]
  exact lsmRow_of_host (fun k : Fin 40 => val_main_v85 (F := Ideal) x0 x1 x2 x3 x4 x5 x6 x7 (ix2 n k))
    (fun k : Fin 40 => val_main_call4_v5 (F := Ideal) x0 x1 x2 x3 x4 x5 x6 x7 (ix2 n k))
    (fun k : Fin 40 => val_main_call4_v6 (F := Ideal) x0 x1 x2 x3 x4 x5 x6 x7
      (idx_main_call4_v7 (idx_main_call4_v8 (idx_main_call4_v10 (ix2 n q))) k)) q
    (fun k => ref_v5_apply x0 x1 x2 x3 x4 x5 x6 x7 n k)
    (fun k => (congrArg (val_main_call4_v6 (F := Ideal) x0 x1 x2 x3 x4 x5 x6 x7) (e k)).trans
      (val_main_call4_v6_apply x0 x1 x2 x3 x4 x5 x6 x7 (ix2 n k)))

end Reference

end Cert.SoftmaxRows

end
-- ==== Proof.Region3.lean ====
/-
  The last kernel as one function of its arrays. The grid has 20 points; point t stages rows 5000·t … 5000·t + 4999 of the
  aggregated rows and of the factor column and the whole bias row, and writes back the same rows of the output: the
  row-wise log-softmax of the rebuilt activations. A row's log-softmax depends on that row alone, so what a point writes
  is those rows of Cert.Gcn.logSoftmax of Cert.Gcn.act of the whole arrays; the 20 row blocks cover the output.
-/
import proofs.«146913_j22153441312995_2_alg».proof.Proof.Gen.KernelIdeal.Frame
import proofs.«146913_j22153441312995_2_alg».proof.Proof.SoftmaxRows
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- One grid point: a block whose rows are rows `r·5000 + p` of the arrays computes those rows of the log-softmax. -/
theorem point (A0 : FVec Ideal S100000x40 .f32) (A1 : FVec Ideal S100000x1 .f32) (A2 : FVec Ideal S1x40 .f32)
    (x0 : Vec Ideal S5000x40 .f32) (x1 : Vec Ideal S5000x1 .f32) (x2 : Vec Ideal S1x40 .f32) (r : ℕ)
    (i0 : Fin 5000 → Fin 100000) (hi : ∀ p, (i0 p).val = r * 5000 + p.val)
    (h0 : ∀ (p : Fin 5000) (k : Fin 40), x0 (ix2 p k) = A0 (ix2 (i0 p) k))
    (h1 : ∀ p : Fin 5000, x1 (ix2 p (0 : Fin 1)) = A1 (ix2 (i0 p) (0 : Fin 1)))
    (h2 : ∀ k : Fin 40, x2 (ix2 (0 : Fin 1) k) = A2 (ix2 (0 : Fin 1) k))
    (y : S5000x40.Idx) (i : S100000x40.Idx) (e0 : (i 0).val = r * 5000 + (y 0).val) (e1 : (i 1).val = (y 1).val) :
    k3_pay1 (F := Ideal) x0 x1 x2 y = Cert.Gcn.logSoftmax (Cert.Gcn.act A0 A1 A2) i := by
  obtain ⟨p, q, rfl⟩ : ∃ (p : Fin 5000) (q : Fin 40), y = ix2 p q := ⟨y 0, y 1, eq_ix2 y⟩
  obtain ⟨n, c, rfl⟩ : ∃ (n : Fin 100000) (c : Fin 40), i = ix2 n c := ⟨i 0, i 1, eq_ix2 i⟩
  have hn : n = i0 p := Fin.ext (by rw [hi]; exact e0)
  have hc : c = q := Fin.ext e1
  subst hn hc
  rw [Cert.SoftmaxRows.pay3_apply, Cert.Gcn.logSoftmax_apply]
  simp only [Cert.Gcn.act_apply, h0, h1, h2]

/-- The printed index maps over the grid: the row blocks of the aggregated rows, the factor column and the output
    move together, the bias row stays. -/
theorem idx_facts : ∀ t : Fin cfg3.N, win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (1 : Fin 2) = 0 ∧ win3_3.index t (0 : Fin 2) < 20 :=
  (by decide +kernel : ∀ t : Fin grid3.N, _)

/-- Every row block is some point's. -/
theorem idx_onto : ∀ q0 : Fin 20, ∃ t : Fin cfg3.N, win3_3.index t (0 : Fin 2) = q0.val :=
  (by decide +kernel : ∀ q0 : Fin 20, ∃ t : Fin grid3.N, win3_3.index t (0 : Fin 2) = q0.val)

/-- The arrays as the region finds them. -/
abbrev A0 (c : Dev nD) : FVec Ideal S100000x40 .f32 := V c (Pipeline.arrRef spec3 0)
abbrev A1 (c : Dev nD) : FVec Ideal S100000x1 .f32 := V c (Pipeline.arrRef spec3 1)
abbrev A2 (c : Dev nD) : FVec Ideal S1x40 .f32 := V c (Pipeline.arrRef spec3 2)

/-- What the output array ends holding. -/
def G (c : Dev nD) : FVec Ideal S100000x40 .f32 := Cert.Gcn.logSoftmax (Cert.Gcn.act (A0 V c) (A1 V c) (A2 V c))

/-- What point `t` writes back is block `t` of `G`. -/
theorem flushed_eq (c : Dev nD) (t : Fin cfg3.N) :
    (dat3 (F := Ideal) V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x40) hz, View.ld_unit_zero (S := S5000x1) hz, View.ld_unit_zero (S := S1x40) hz]
  obtain ⟨e0, e1, e2, e3, e4, e5, e6, e7⟩ := idx_facts t
  have hrow : ∀ p : Fin 5000, win3_3.index t (0 : Fin 2) * 5000 + p.val < 100000 := fun p => by have := p.isLt; omega
  have h0 : ∀ (p : Fin 5000) (k : Fin 40), iblk3 V c 0 t (ix2 p k)
      = A0 V c (ix2 (⟨win3_3.index t (0 : Fin 2) * 5000 + p.val, hrow p⟩ : Fin 100000) k) := by
    intro p k
    show V c (Pipeline.arrRef spec3 0) (((cfg3.win 0).blk t).view.emb (ix2 p k)) = V c (Pipeline.arrRef spec3 0) (ix2 _ k)
    refine congrArg _ (funext fun a => Fin.ext ?_)
    match a with
    | ⟨0, _⟩ => show win3_0.index t (0 : Fin 2) * 5000 + 1 * p.val = win3_3.index t (0 : Fin 2) * 5000 + p.val; omega
    | ⟨1, _⟩ => show win3_0.index t (1 : Fin 2) * 40 + 1 * k.val = k.val; omega
  have h1 : ∀ p : Fin 5000, iblk3 V c 1 t (ix2 p (0 : Fin 1))
      = A1 V c (ix2 (⟨win3_3.index t (0 : Fin 2) * 5000 + p.val, hrow p⟩ : Fin 100000) (0 : Fin 1)) := by
    intro p
    show V c (Pipeline.arrRef spec3 1) (((cfg3.win 1).blk t).view.emb (ix2 p (0 : Fin 1))) = V c (Pipeline.arrRef spec3 1) (ix2 _ (0 : Fin 1))
    refine congrArg _ (funext fun a => Fin.ext ?_)
    match a with
    | ⟨0, _⟩ => show win3_1.index t (0 : Fin 2) * 5000 + 1 * p.val = win3_3.index t (0 : Fin 2) * 5000 + p.val; omega
    | ⟨1, _⟩ => show win3_1.index t (1 : Fin 2) * 1 + 1 * 0 = 0; omega
  have h2 : ∀ k : Fin 40, iblk3 V c 2 t (ix2 (0 : Fin 1) k) = A2 V c (ix2 (0 : Fin 1) k) := by
    intro k
    show V c (Pipeline.arrRef spec3 2) (((cfg3.win 2).blk t).view.emb (ix2 (0 : Fin 1) k)) = V c (Pipeline.arrRef spec3 2) (ix2 (0 : Fin 1) k)
    refine congrArg _ (funext fun a => Fin.ext ?_)
    match a with
    | ⟨0, _⟩ => show win3_2.index t (0 : Fin 2) * 1 + 1 * 0 = 0; omega
    | ⟨1, _⟩ => show win3_2.index t (1 : Fin 2) * 40 + 1 * k.val = k.val; omega
  funext j
  show k3_pay1 (F := Ideal) (iblk3 V c 0 t) (iblk3 V c 1 t) (iblk3 V c 2 t) j = G V c (((cfg3.win 3).blk t).view.emb j)
  exact point (A0 V c) (A1 V c) (A2 V c) (iblk3 V c 0 t) (iblk3 V c 1 t) (iblk3 V c 2 t) (win3_3.index t (0 : Fin 2))
    (fun p => ⟨win3_3.index t (0 : Fin 2) * 5000 + p.val, hrow p⟩) (fun _ => rfl) h0 h1 h2 j (((cfg3.win 3).blk t).view.emb j)
    (show win3_3.index t (0 : Fin 2) * 5000 + 1 * (j 0).val = win3_3.index t (0 : Fin 2) * 5000 + (j 0).val by omega)
    (show win3_3.index t (1 : Fin 2) * 40 + 1 * (j 1).val = (j 1).val by omega)

/-- An index of the output array is in point `t`'s block iff its row is in the block's row range. -/
theorem mem_blk (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v54).slice (win3_3.rect t)).set ↔ _
  rw [View.set_slice_whole, Rect.mem_set_unit]
  exact Iff.rfl

/-- The output array after the region. -/
theorem final (c : Dev nD) : (dat3 (F := Ideal) V c).arrAt 3 cfg3.N = G V c :=
  (dat3 V c).arrAt_eq_of_cover 3 (G V c) (fun t _ => flushed_eq V c t) fun i => by
    have hi0 : (i 0).val < 100000 := (i 0).isLt
    have hi1 : (i 1).val < 40 := (i 1).isLt
    obtain ⟨t, ht⟩ := idx_onto ⟨(i 0).val / 5000, by omega⟩
    obtain ⟨e0, e1, e2, e3, e4, e5, e6, e7⟩ := idx_facts t
    refine ⟨t, flush3_3 t, ?_⟩
    rw [mem_blk]
    intro a
    match a with
    | ⟨0, _⟩ => show win3_3.index t (0 : Fin 2) * 5000 ≤ (i 0).val ∧ (i 0).val < win3_3.index t (0 : Fin 2) * 5000 + 5000; rw [ht]; show (i 0).val / 5000 * 5000 ≤ (i 0).val ∧ (i 0).val < (i 0).val / 5000 * 5000 + 5000; omega
    | ⟨1, _⟩ => show win3_3.index t (1 : Fin 2) * 40 ≤ (i 1).val ∧ (i 1).val < win3_3.index t (1 : Fin 2) * 40 + 40; omega

end Cert.KernelIdeal.Region3

end
-- ==== Proof.Chain.lean ====
/-
  The idealized kernel's result as one composed term of its arguments. @main is four kernels among stretches of host
  operations; the buffer contents at each boundary are a fold from the launch memory. Read at the buffers that matter,
  that fold is: the two columns of row numbers and the node factor (computed once, before the first kernel, and never
  written again), the bias rows, and, layer by layer, a kernel's output array (the region's whole-array function of
  its input arrays) and the aggregate the host computes from it (gather at the source numbers, scatter-add at the
  destination numbers).
-/
import proofs.«146913_j22153441312995_2_alg».proof.Proof.Gen.KernelIdeal.Frame
import proofs.«146913_j22153441312995_2_alg».proof.Proof.Region0
import proofs.«146913_j22153441312995_2_alg».proof.Proof.Region1
import proofs.«146913_j22153441312995_2_alg».proof.Proof.Region2
import proofs.«146913_j22153441312995_2_alg».proof.Proof.Region3
import proofs.«146913_j22153441312995_2_alg».proof.Proof.RefRead
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo
open Cert.ReferenceIdeal.ReadP (val_main_v3 val_main_v6 val_main_v12 val_main_v15 val_main_v16 val_main_cst_3)

/-! ## The terms -/

/-- The node factor kept as a column. -/
def colS (x1 : IVec S2x600000 32) : FVec Ideal S100000x1 .f32 :=
  shapeCast S100000x1 (val_main_v16 (F := Ideal) x1) shapeCasts_S100000_S100000x1

/-- The column of source numbers a gather reads: a negative number moved up by the node count. -/
def srcCol (x1 : IVec S2x600000 32) : IVec S700000x1 32 :=
  broadcastInDim S700000x1 ![0] bcast_S700000_S700000x1_0
    (select (cmpi .slt (val_main_v3 (F := Ideal) x1) (broadcastInDim S700000 ![] bcast_S_S700000 (constantI S_ 32 0#32)))
      (addi (val_main_v3 (F := Ideal) x1) (broadcastInDim S700000 ![] bcast_S_S700000 (constantI S_ 32 100000#32)))
      (val_main_v3 (F := Ideal) x1))

/-- The column of destination numbers the scatter reads. -/
def dstCol (x1 : IVec S2x600000 32) : IVec S700000x1 32 :=
  broadcastInDim S700000x1 ![0] bcast_S700000_S700000x1_0 (val_main_v6 (F := Ideal) x1)

/-- Rows gathered at the source numbers and added up at the destination numbers, 128 columns. -/
def agg128 (x1 : IVec S2x600000 32) (X : FVec Ideal S100000x128 .f32) : FVec Ideal S100000x128 .f32 :=
  Host.scatterAdd scatter_S100000x128_S700000x1_S700000x128_1_0_0_1
    (broadcastInDim S100000x128 ![] bcast_S_S100000x128 (constant (F := Ideal) S_ .f32 0x00000000#32)) (dstCol x1)
    (Host.gather gather_S100000x128_S700000x1_S700000x128_1_0_n_n_0_1_1128 X (srcCol x1))

/-- The same with 40 columns. -/
def agg40 (x1 : IVec S2x600000 32) (X : FVec Ideal S100000x40 .f32) : FVec Ideal S100000x40 .f32 :=
  Host.scatterAdd scatter_S100000x40_S700000x1_S700000x40_1_0_0_1
    (broadcastInDim S100000x40 ![] bcast_S_S100000x40 (constant (F := Ideal) S_ .f32 0x00000000#32)) (dstCol x1)
    (Host.gather gather_S100000x40_S700000x1_S700000x40_1_0_n_n_0_1_140 X (srcCol x1))

/-- A bias vector kept as a row. -/
def row128 (b : FVec Ideal S128 .f32) : FVec Ideal S1x128 .f32 := shapeCast S1x128 b shapeCasts_S128_S1x128
def row40 (b : FVec Ideal S40 .f32) : FVec Ideal S1x40 .f32 := shapeCast S1x40 b shapeCasts_S40_S1x40

variable (m : (ℓ : Loc nD τ sig) → Buf (Elt Ideal) ℓ) (ρ : Dev nD → PrngReg) (c : Dev nD)

abbrev a0 : FVec Ideal S100000x128 .f32 := m ((c : Thread nD τ).loc main_arg0)
abbrev a1 : IVec S2x600000 32 := m ((c : Thread nD τ).loc main_arg1)
abbrev a2 : FVec Ideal S128x128 .f32 := m ((c : Thread nD τ).loc main_arg2)
abbrev a3 : FVec Ideal S128 .f32 := m ((c : Thread nD τ).loc main_arg3)
abbrev a4 : FVec Ideal S128x128 .f32 := m ((c : Thread nD τ).loc main_arg4)
abbrev a5 : FVec Ideal S128 .f32 := m ((c : Thread nD τ).loc main_arg5)
abbrev a6 : FVec Ideal S128x40 .f32 := m ((c : Thread nD τ).loc main_arg6)
abbrev a7 : FVec Ideal S40 .f32 := m ((c : Thread nD τ).loc main_arg7)

/-- The four kernels' outputs, layer by layer. -/
def k1 : FVec Ideal S100000x128 .f32 :=
  Cert.Gcn.denseScale (N := 100000) (K := 128) (C := 128) (a0 m c) (a2 m c) (colS (a1 m c))
def k2 : FVec Ideal S100000x128 .f32 :=
  Cert.Gcn.denseScale (N := 100000) (K := 128) (C := 128)
    (Cert.Gcn.act (N := 100000) (C := 128) (agg128 (a1 m c) (k1 m c)) (colS (a1 m c)) (row128 (a3 m c))) (a4 m c) (colS (a1 m c))
def k3 : FVec Ideal S100000x40 .f32 :=
  Cert.Gcn.denseScale (N := 100000) (K := 128) (C := 40)
    (Cert.Gcn.act (N := 100000) (C := 128) (agg128 (a1 m c) (k2 m c)) (colS (a1 m c)) (row128 (a5 m c))) (a6 m c) (colS (a1 m c))
def k4 : FVec Ideal S100000x40 .f32 :=
  Cert.Gcn.logSoftmax (N := 100000) (C := 40)
    (Cert.Gcn.act (N := 100000) (C := 40) (agg40 (a1 m c) (k3 m c)) (colS (a1 m c)) (row40 (a7 m c)))

/-! ## Before the first kernel -/

set_option maxHeartbeats 4000000 in
theorem w1_v3 : W1 (F := Ideal) m ρ c (Proc.devRef .tc main_v3) = val_main_v3 (F := Ideal) (a1 m c) := by
  show StableHlo.after hostOps0 (W0 m ρ c) (Proc.devRef .tc main_v3) = _
  after_results
  all_goals rfl
set_option maxHeartbeats 4000000 in
theorem w1_v6 : W1 (F := Ideal) m ρ c (Proc.devRef .tc main_v6) = val_main_v6 (F := Ideal) (a1 m c) := by
  show StableHlo.after hostOps0 (W0 m ρ c) (Proc.devRef .tc main_v6) = _
  after_results
  all_goals rfl
set_option maxHeartbeats 4000000 in
theorem w1_v12 : W1 (F := Ideal) m ρ c (Proc.devRef .tc main_v12) = val_main_v12 (F := Ideal) (a1 m c) := by
  show StableHlo.after hostOps0 (W0 m ρ c) (Proc.devRef .tc main_v12) = _
  after_results
  all_goals rfl
set_option maxHeartbeats 4000000 in
theorem w1_v15 : W1 (F := Ideal) m ρ c (Proc.devRef .tc main_v15) = val_main_v15 (F := Ideal) (a1 m c) := by
  show StableHlo.after hostOps0 (W0 m ρ c) (Proc.devRef .tc main_v15) = _
  after_results
  all_goals rfl
set_option maxHeartbeats 4000000 in
theorem w1_cst3 : W1 (F := Ideal) m ρ c (Proc.devRef .tc main_cst_3) = val_main_cst_3 (F := Ideal) := by
  show StableHlo.after hostOps0 (W0 m ρ c) (Proc.devRef .tc main_cst_3) = _
  after_results
  all_goals rfl
theorem w1_arg0 : W1 (F := Ideal) m ρ c (Proc.devRef .tc main_arg0) = a0 m c := by
  show StableHlo.after hostOps0 (W0 m ρ c) (Proc.devRef .tc main_arg0) = _
  after_results
  all_goals rfl
theorem w1_arg2 : W1 (F := Ideal) m ρ c (Proc.devRef .tc main_arg2) = a2 m c := by
  show StableHlo.after hostOps0 (W0 m ρ c) (Proc.devRef .tc main_arg2) = _
  after_results
  all_goals rfl
theorem w1_arg3 : W1 (F := Ideal) m ρ c (Proc.devRef .tc main_arg3) = a3 m c := by
  show StableHlo.after hostOps0 (W0 m ρ c) (Proc.devRef .tc main_arg3) = _
  after_results
  all_goals rfl
theorem w1_arg4 : W1 (F := Ideal) m ρ c (Proc.devRef .tc main_arg4) = a4 m c := by
  show StableHlo.after hostOps0 (W0 m ρ c) (Proc.devRef .tc main_arg4) = _
  after_results
  all_goals rfl
theorem w1_arg5 : W1 (F := Ideal) m ρ c (Proc.devRef .tc main_arg5) = a5 m c := by
  show StableHlo.after hostOps0 (W0 m ρ c) (Proc.devRef .tc main_arg5) = _
  after_results
  all_goals rfl
theorem w1_arg6 : W1 (F := Ideal) m ρ c (Proc.devRef .tc main_arg6) = a6 m c := by
  show StableHlo.after hostOps0 (W0 m ρ c) (Proc.devRef .tc main_arg6) = _
  after_results
  all_goals rfl
theorem w1_arg7 : W1 (F := Ideal) m ρ c (Proc.devRef .tc main_arg7) = a7 m c := by
  show StableHlo.after hostOps0 (W0 m ρ c) (Proc.devRef .tc main_arg7) = _
  after_results
  all_goals rfl
/-- The selection of the factor, over any contents of the buffers it reads. -/
theorem where_result (V : Valuation τ sig (Elt Ideal)) :
    StableHlo.after hostOps0_1 V (Proc.devRef .tc main_v16)
      = select (V (Proc.devRef .tc main_v12)) (V (Proc.devRef .tc main_v15))
          (broadcastInDim S100000 ![] bcast_S_S100000 (V (Proc.devRef .tc main_cst_3))) := by
  after_results
  all_goals rfl
theorem w2_v16 : W2 (F := Ideal) m ρ c (Proc.devRef .tc main_v16) = val_main_v16 (F := Ideal) (a1 m c) := by
  refine (where_result (W1 m ρ c)).trans ?_
  rw [w1_v12, w1_v15, w1_cst3]
  rfl
theorem w2_v3 : W2 (F := Ideal) m ρ c (Proc.devRef .tc main_v3) = val_main_v3 (F := Ideal) (a1 m c) := by
  refine Eq.trans ?_ (w1_v3 m ρ c)
  show StableHlo.after hostOps0_1 (W1 m ρ c) (Proc.devRef .tc main_v3) = W1 m ρ c (Proc.devRef .tc main_v3)
  after_results
  all_goals rfl
theorem w2_v6 : W2 (F := Ideal) m ρ c (Proc.devRef .tc main_v6) = val_main_v6 (F := Ideal) (a1 m c) := by
  refine Eq.trans ?_ (w1_v6 m ρ c)
  show StableHlo.after hostOps0_1 (W1 m ρ c) (Proc.devRef .tc main_v6) = W1 m ρ c (Proc.devRef .tc main_v6)
  after_results
  all_goals rfl
theorem w2_arg0 : W2 (F := Ideal) m ρ c (Proc.devRef .tc main_arg0) = a0 m c := by
  refine Eq.trans ?_ (w1_arg0 m ρ c)
  show StableHlo.after hostOps0_1 (W1 m ρ c) (Proc.devRef .tc main_arg0) = W1 m ρ c (Proc.devRef .tc main_arg0)
  after_results
  all_goals rfl
theorem w2_arg2 : W2 (F := Ideal) m ρ c (Proc.devRef .tc main_arg2) = a2 m c := by
  refine Eq.trans ?_ (w1_arg2 m ρ c)
  show StableHlo.after hostOps0_1 (W1 m ρ c) (Proc.devRef .tc main_arg2) = W1 m ρ c (Proc.devRef .tc main_arg2)
  after_results
  all_goals rfl
theorem w2_arg3 : W2 (F := Ideal) m ρ c (Proc.devRef .tc main_arg3) = a3 m c := by
  refine Eq.trans ?_ (w1_arg3 m ρ c)
  show StableHlo.after hostOps0_1 (W1 m ρ c) (Proc.devRef .tc main_arg3) = W1 m ρ c (Proc.devRef .tc main_arg3)
  after_results
  all_goals rfl
theorem w2_arg4 : W2 (F := Ideal) m ρ c (Proc.devRef .tc main_arg4) = a4 m c := by
  refine Eq.trans ?_ (w1_arg4 m ρ c)
  show StableHlo.after hostOps0_1 (W1 m ρ c) (Proc.devRef .tc main_arg4) = W1 m ρ c (Proc.devRef .tc main_arg4)
  after_results
  all_goals rfl
theorem w2_arg5 : W2 (F := Ideal) m ρ c (Proc.devRef .tc main_arg5) = a5 m c := by
  refine Eq.trans ?_ (w1_arg5 m ρ c)
  show StableHlo.after hostOps0_1 (W1 m ρ c) (Proc.devRef .tc main_arg5) = W1 m ρ c (Proc.devRef .tc main_arg5)
  after_results
  all_goals rfl
theorem w2_arg6 : W2 (F := Ideal) m ρ c (Proc.devRef .tc main_arg6) = a6 m c := by
  refine Eq.trans ?_ (w1_arg6 m ρ c)
  show StableHlo.after hostOps0_1 (W1 m ρ c) (Proc.devRef .tc main_arg6) = W1 m ρ c (Proc.devRef .tc main_arg6)
  after_results
  all_goals rfl
theorem w2_arg7 : W2 (F := Ideal) m ρ c (Proc.devRef .tc main_arg7) = a7 m c := by
  refine Eq.trans ?_ (w1_arg7 m ρ c)
  show StableHlo.after hostOps0_1 (W1 m ρ c) (Proc.devRef .tc main_arg7) = W1 m ρ c (Proc.devRef .tc main_arg7)
  after_results
  all_goals rfl
/-- The factor laid out as a column, over any contents of the buffer it reads. -/
theorem col_result (V : Valuation τ sig (Elt Ideal)) :
    StableHlo.after hostOps0_2 V (Proc.devRef .tc main_v17)
      = shapeCast S100000x1 (V (Proc.devRef .tc main_v16)) shapeCasts_S100000_S100000x1 := by
  after_results
  all_goals rfl
theorem w3_v17 : W3 (F := Ideal) m ρ c (Proc.devRef .tc main_v17) = colS (a1 m c) := by
  refine (col_result (W2 m ρ c)).trans ?_
  rw [w2_v16]
  rfl
theorem w3_v3 : W3 (F := Ideal) m ρ c (Proc.devRef .tc main_v3) = val_main_v3 (F := Ideal) (a1 m c) := by
  refine Eq.trans ?_ (w2_v3 m ρ c)
  show StableHlo.after hostOps0_2 (W2 m ρ c) (Proc.devRef .tc main_v3) = W2 m ρ c (Proc.devRef .tc main_v3)
  after_results
  all_goals rfl
theorem w3_v6 : W3 (F := Ideal) m ρ c (Proc.devRef .tc main_v6) = val_main_v6 (F := Ideal) (a1 m c) := by
  refine Eq.trans ?_ (w2_v6 m ρ c)
  show StableHlo.after hostOps0_2 (W2 m ρ c) (Proc.devRef .tc main_v6) = W2 m ρ c (Proc.devRef .tc main_v6)
  after_results
  all_goals rfl
theorem w3_arg0 : W3 (F := Ideal) m ρ c (Proc.devRef .tc main_arg0) = a0 m c := by
  refine Eq.trans ?_ (w2_arg0 m ρ c)
  show StableHlo.after hostOps0_2 (W2 m ρ c) (Proc.devRef .tc main_arg0) = W2 m ρ c (Proc.devRef .tc main_arg0)
  after_results
  all_goals rfl
theorem w3_arg2 : W3 (F := Ideal) m ρ c (Proc.devRef .tc main_arg2) = a2 m c := by
  refine Eq.trans ?_ (w2_arg2 m ρ c)
  show StableHlo.after hostOps0_2 (W2 m ρ c) (Proc.devRef .tc main_arg2) = W2 m ρ c (Proc.devRef .tc main_arg2)
  after_results
  all_goals rfl
theorem w3_arg3 : W3 (F := Ideal) m ρ c (Proc.devRef .tc main_arg3) = a3 m c := by
  refine Eq.trans ?_ (w2_arg3 m ρ c)
  show StableHlo.after hostOps0_2 (W2 m ρ c) (Proc.devRef .tc main_arg3) = W2 m ρ c (Proc.devRef .tc main_arg3)
  after_results
  all_goals rfl
theorem w3_arg4 : W3 (F := Ideal) m ρ c (Proc.devRef .tc main_arg4) = a4 m c := by
  refine Eq.trans ?_ (w2_arg4 m ρ c)
  show StableHlo.after hostOps0_2 (W2 m ρ c) (Proc.devRef .tc main_arg4) = W2 m ρ c (Proc.devRef .tc main_arg4)
  after_results
  all_goals rfl
theorem w3_arg5 : W3 (F := Ideal) m ρ c (Proc.devRef .tc main_arg5) = a5 m c := by
  refine Eq.trans ?_ (w2_arg5 m ρ c)
  show StableHlo.after hostOps0_2 (W2 m ρ c) (Proc.devRef .tc main_arg5) = W2 m ρ c (Proc.devRef .tc main_arg5)
  after_results
  all_goals rfl
theorem w3_arg6 : W3 (F := Ideal) m ρ c (Proc.devRef .tc main_arg6) = a6 m c := by
  refine Eq.trans ?_ (w2_arg6 m ρ c)
  show StableHlo.after hostOps0_2 (W2 m ρ c) (Proc.devRef .tc main_arg6) = W2 m ρ c (Proc.devRef .tc main_arg6)
  after_results
  all_goals rfl
theorem w3_arg7 : W3 (F := Ideal) m ρ c (Proc.devRef .tc main_arg7) = a7 m c := by
  refine Eq.trans ?_ (w2_arg7 m ρ c)
  show StableHlo.after hostOps0_2 (W2 m ρ c) (Proc.devRef .tc main_arg7) = W2 m ρ c (Proc.devRef .tc main_arg7)
  after_results
  all_goals rfl

/-! ## The first kernel -/

theorem w4_v18 : W4 (F := Ideal) m ρ c (Proc.devRef .tc main_v18) = k1 m c := by
  refine (W4_arr m ρ c 3).trans ((Region0.final (V3 m ρ) c).trans ?_)
  show Cert.Gcn.denseScale (N := 100000) (K := 128) (C := 128) (W3 m ρ c (Proc.devRef .tc main_arg0)) (W3 m ρ c (Proc.devRef .tc main_arg2)) (W3 m ρ c (Proc.devRef .tc main_v17)) = _
  rw [w3_arg0, w3_arg2, w3_v17]
  rfl
theorem w4_v17 : W4 (F := Ideal) m ρ c (Proc.devRef .tc main_v17) = colS (a1 m c) :=
  (W4_arr m ρ c 2).trans (((dat0 (V3 m ρ) c).arrAt_in 2 rfl _).trans ((A_eq0 (V3 m ρ) c 2).trans (w3_v17 m ρ c)))
theorem w4_v3 : W4 (F := Ideal) m ρ c (Proc.devRef .tc main_v3) = val_main_v3 (F := Ideal) (a1 m c) :=
  (W4_of_ne m ρ c main_v3 (by decide)).trans (w3_v3 m ρ c)
theorem w4_v6 : W4 (F := Ideal) m ρ c (Proc.devRef .tc main_v6) = val_main_v6 (F := Ideal) (a1 m c) :=
  (W4_of_ne m ρ c main_v6 (by decide)).trans (w3_v6 m ρ c)
theorem w4_arg3 : W4 (F := Ideal) m ρ c (Proc.devRef .tc main_arg3) = a3 m c :=
  (W4_of_ne m ρ c main_arg3 (by decide)).trans (w3_arg3 m ρ c)
theorem w4_arg4 : W4 (F := Ideal) m ρ c (Proc.devRef .tc main_arg4) = a4 m c :=
  (W4_of_ne m ρ c main_arg4 (by decide)).trans (w3_arg4 m ρ c)
theorem w4_arg5 : W4 (F := Ideal) m ρ c (Proc.devRef .tc main_arg5) = a5 m c :=
  (W4_of_ne m ρ c main_arg5 (by decide)).trans (w3_arg5 m ρ c)
theorem w4_arg6 : W4 (F := Ideal) m ρ c (Proc.devRef .tc main_arg6) = a6 m c :=
  (W4_of_ne m ρ c main_arg6 (by decide)).trans (w3_arg6 m ρ c)
theorem w4_arg7 : W4 (F := Ideal) m ρ c (Proc.devRef .tc main_arg7) = a7 m c :=
  (W4_of_ne m ρ c main_arg7 (by decide)).trans (w3_arg7 m ρ c)

/-! ## Between the first and the second kernel -/

theorem w5_v28 : W5 (F := Ideal) m ρ c (Proc.devRef .tc main_v28) = agg128 (a1 m c) (k1 m c) := by
  show StableHlo.after hostOps1 (W4 m ρ c) (Proc.devRef .tc main_v28) = _
  after_results
  rw [w4_v6, w4_v3, w4_v18]
  rfl
theorem w5_v29 : W5 (F := Ideal) m ρ c (Proc.devRef .tc main_v29) = row128 (a3 m c) := by
  show StableHlo.after hostOps1 (W4 m ρ c) (Proc.devRef .tc main_v29) = _
  after_results
  rw [w4_arg3]
  rfl
theorem w5_v17 : W5 (F := Ideal) m ρ c (Proc.devRef .tc main_v17) = colS (a1 m c) := by
  refine Eq.trans ?_ (w4_v17 m ρ c)
  show StableHlo.after hostOps1 (W4 m ρ c) (Proc.devRef .tc main_v17) = W4 m ρ c (Proc.devRef .tc main_v17)
  after_results
  all_goals rfl
theorem w5_v3 : W5 (F := Ideal) m ρ c (Proc.devRef .tc main_v3) = val_main_v3 (F := Ideal) (a1 m c) := by
  refine Eq.trans ?_ (w4_v3 m ρ c)
  show StableHlo.after hostOps1 (W4 m ρ c) (Proc.devRef .tc main_v3) = W4 m ρ c (Proc.devRef .tc main_v3)
  after_results
  all_goals rfl
theorem w5_v6 : W5 (F := Ideal) m ρ c (Proc.devRef .tc main_v6) = val_main_v6 (F := Ideal) (a1 m c) := by
  refine Eq.trans ?_ (w4_v6 m ρ c)
  show StableHlo.after hostOps1 (W4 m ρ c) (Proc.devRef .tc main_v6) = W4 m ρ c (Proc.devRef .tc main_v6)
  after_results
  all_goals rfl
theorem w5_arg4 : W5 (F := Ideal) m ρ c (Proc.devRef .tc main_arg4) = a4 m c := by
  refine Eq.trans ?_ (w4_arg4 m ρ c)
  show StableHlo.after hostOps1 (W4 m ρ c) (Proc.devRef .tc main_arg4) = W4 m ρ c (Proc.devRef .tc main_arg4)
  after_results
  all_goals rfl
theorem w5_arg5 : W5 (F := Ideal) m ρ c (Proc.devRef .tc main_arg5) = a5 m c := by
  refine Eq.trans ?_ (w4_arg5 m ρ c)
  show StableHlo.after hostOps1 (W4 m ρ c) (Proc.devRef .tc main_arg5) = W4 m ρ c (Proc.devRef .tc main_arg5)
  after_results
  all_goals rfl
theorem w5_arg6 : W5 (F := Ideal) m ρ c (Proc.devRef .tc main_arg6) = a6 m c := by
  refine Eq.trans ?_ (w4_arg6 m ρ c)
  show StableHlo.after hostOps1 (W4 m ρ c) (Proc.devRef .tc main_arg6) = W4 m ρ c (Proc.devRef .tc main_arg6)
  after_results
  all_goals rfl
theorem w5_arg7 : W5 (F := Ideal) m ρ c (Proc.devRef .tc main_arg7) = a7 m c := by
  refine Eq.trans ?_ (w4_arg7 m ρ c)
  show StableHlo.after hostOps1 (W4 m ρ c) (Proc.devRef .tc main_arg7) = W4 m ρ c (Proc.devRef .tc main_arg7)
  after_results
  all_goals rfl

/-! ## The second kernel -/

theorem w6_v30 : W6 (F := Ideal) m ρ c (Proc.devRef .tc main_v30) = k2 m c := by
  refine (W6_arr m ρ c 4).trans ((Region1.final (V5 m ρ) c).trans ?_)
  show Cert.Gcn.denseScale (N := 100000) (K := 128) (C := 128)
    (Cert.Gcn.act (N := 100000) (C := 128) (W5 m ρ c (Proc.devRef .tc main_v28)) (W5 m ρ c (Proc.devRef .tc main_v17)) (W5 m ρ c (Proc.devRef .tc main_v29)))
    (W5 m ρ c (Proc.devRef .tc main_arg4)) (W5 m ρ c (Proc.devRef .tc main_v17)) = _
  rw [w5_v28, w5_v17, w5_v29, w5_arg4]
  rfl
theorem w6_v17 : W6 (F := Ideal) m ρ c (Proc.devRef .tc main_v17) = colS (a1 m c) :=
  (W6_arr m ρ c 1).trans (((dat1 (V5 m ρ) c).arrAt_in 1 rfl _).trans ((A_eq1 (V5 m ρ) c 1).trans (w5_v17 m ρ c)))
theorem w6_v3 : W6 (F := Ideal) m ρ c (Proc.devRef .tc main_v3) = val_main_v3 (F := Ideal) (a1 m c) :=
  (W6_of_ne m ρ c main_v3 (by decide)).trans (w5_v3 m ρ c)
theorem w6_v6 : W6 (F := Ideal) m ρ c (Proc.devRef .tc main_v6) = val_main_v6 (F := Ideal) (a1 m c) :=
  (W6_of_ne m ρ c main_v6 (by decide)).trans (w5_v6 m ρ c)
theorem w6_arg5 : W6 (F := Ideal) m ρ c (Proc.devRef .tc main_arg5) = a5 m c :=
  (W6_of_ne m ρ c main_arg5 (by decide)).trans (w5_arg5 m ρ c)
theorem w6_arg6 : W6 (F := Ideal) m ρ c (Proc.devRef .tc main_arg6) = a6 m c :=
  (W6_of_ne m ρ c main_arg6 (by decide)).trans (w5_arg6 m ρ c)
theorem w6_arg7 : W6 (F := Ideal) m ρ c (Proc.devRef .tc main_arg7) = a7 m c :=
  (W6_of_ne m ρ c main_arg7 (by decide)).trans (w5_arg7 m ρ c)

/-! ## Between the second and the third kernel -/

theorem w7_v40 : W7 (F := Ideal) m ρ c (Proc.devRef .tc main_v40) = agg128 (a1 m c) (k2 m c) := by
  show StableHlo.after hostOps2 (W6 m ρ c) (Proc.devRef .tc main_v40) = _
  after_results
  rw [w6_v6, w6_v3, w6_v30]
  rfl
theorem w7_v41 : W7 (F := Ideal) m ρ c (Proc.devRef .tc main_v41) = row128 (a5 m c) := by
  show StableHlo.after hostOps2 (W6 m ρ c) (Proc.devRef .tc main_v41) = _
  after_results
  rw [w6_arg5]
  rfl
theorem w7_v17 : W7 (F := Ideal) m ρ c (Proc.devRef .tc main_v17) = colS (a1 m c) := by
  refine Eq.trans ?_ (w6_v17 m ρ c)
  show StableHlo.after hostOps2 (W6 m ρ c) (Proc.devRef .tc main_v17) = W6 m ρ c (Proc.devRef .tc main_v17)
  after_results
  all_goals rfl
theorem w7_v3 : W7 (F := Ideal) m ρ c (Proc.devRef .tc main_v3) = val_main_v3 (F := Ideal) (a1 m c) := by
  refine Eq.trans ?_ (w6_v3 m ρ c)
  show StableHlo.after hostOps2 (W6 m ρ c) (Proc.devRef .tc main_v3) = W6 m ρ c (Proc.devRef .tc main_v3)
  after_results
  all_goals rfl
theorem w7_v6 : W7 (F := Ideal) m ρ c (Proc.devRef .tc main_v6) = val_main_v6 (F := Ideal) (a1 m c) := by
  refine Eq.trans ?_ (w6_v6 m ρ c)
  show StableHlo.after hostOps2 (W6 m ρ c) (Proc.devRef .tc main_v6) = W6 m ρ c (Proc.devRef .tc main_v6)
  after_results
  all_goals rfl
theorem w7_arg6 : W7 (F := Ideal) m ρ c (Proc.devRef .tc main_arg6) = a6 m c := by
  refine Eq.trans ?_ (w6_arg6 m ρ c)
  show StableHlo.after hostOps2 (W6 m ρ c) (Proc.devRef .tc main_arg6) = W6 m ρ c (Proc.devRef .tc main_arg6)
  after_results
  all_goals rfl
theorem w7_arg7 : W7 (F := Ideal) m ρ c (Proc.devRef .tc main_arg7) = a7 m c := by
  refine Eq.trans ?_ (w6_arg7 m ρ c)
  show StableHlo.after hostOps2 (W6 m ρ c) (Proc.devRef .tc main_arg7) = W6 m ρ c (Proc.devRef .tc main_arg7)
  after_results
  all_goals rfl

/-! ## The third kernel -/

theorem w8_v42 : W8 (F := Ideal) m ρ c (Proc.devRef .tc main_v42) = k3 m c := by
  refine (W8_arr m ρ c 4).trans ((Region2.final (V7 m ρ) c).trans ?_)
  show Cert.Gcn.denseScale (N := 100000) (K := 128) (C := 40)
    (Cert.Gcn.act (N := 100000) (C := 128) (W7 m ρ c (Proc.devRef .tc main_v40)) (W7 m ρ c (Proc.devRef .tc main_v17)) (W7 m ρ c (Proc.devRef .tc main_v41)))
    (W7 m ρ c (Proc.devRef .tc main_arg6)) (W7 m ρ c (Proc.devRef .tc main_v17)) = _
  rw [w7_v40, w7_v17, w7_v41, w7_arg6]
  rfl
theorem w8_v17 : W8 (F := Ideal) m ρ c (Proc.devRef .tc main_v17) = colS (a1 m c) :=
  (W8_arr m ρ c 1).trans (((dat2 (V7 m ρ) c).arrAt_in 1 rfl _).trans ((A_eq2 (V7 m ρ) c 1).trans (w7_v17 m ρ c)))
theorem w8_v3 : W8 (F := Ideal) m ρ c (Proc.devRef .tc main_v3) = val_main_v3 (F := Ideal) (a1 m c) :=
  (W8_of_ne m ρ c main_v3 (by decide)).trans (w7_v3 m ρ c)
theorem w8_v6 : W8 (F := Ideal) m ρ c (Proc.devRef .tc main_v6) = val_main_v6 (F := Ideal) (a1 m c) :=
  (W8_of_ne m ρ c main_v6 (by decide)).trans (w7_v6 m ρ c)
theorem w8_arg7 : W8 (F := Ideal) m ρ c (Proc.devRef .tc main_arg7) = a7 m c :=
  (W8_of_ne m ρ c main_arg7 (by decide)).trans (w7_arg7 m ρ c)

/-! ## Between the third and the last kernel -/

theorem w9_v52 : W9 (F := Ideal) m ρ c (Proc.devRef .tc main_v52) = agg40 (a1 m c) (k3 m c) := by
  show StableHlo.after hostOps3 (W8 m ρ c) (Proc.devRef .tc main_v52) = _
  after_results
  rw [w8_v6, w8_v3, w8_v42]
  rfl
theorem w9_v53 : W9 (F := Ideal) m ρ c (Proc.devRef .tc main_v53) = row40 (a7 m c) := by
  show StableHlo.after hostOps3 (W8 m ρ c) (Proc.devRef .tc main_v53) = _
  after_results
  rw [w8_arg7]
  rfl
theorem w9_v17 : W9 (F := Ideal) m ρ c (Proc.devRef .tc main_v17) = colS (a1 m c) := by
  refine Eq.trans ?_ (w8_v17 m ρ c)
  show StableHlo.after hostOps3 (W8 m ρ c) (Proc.devRef .tc main_v17) = W8 m ρ c (Proc.devRef .tc main_v17)
  after_results
  all_goals rfl

/-! ## The last kernel: the result -/

theorem w10_v54 : W10 (F := Ideal) m ρ c (Proc.devRef .tc main_v54) = k4 m c := by
  refine (W10_arr m ρ c 3).trans ((Region3.final (V9 m ρ) c).trans ?_)
  show Cert.Gcn.logSoftmax (N := 100000) (C := 40)
    (Cert.Gcn.act (N := 100000) (C := 40) (W9 m ρ c (Proc.devRef .tc main_v52)) (W9 m ρ c (Proc.devRef .tc main_v17)) (W9 m ρ c (Proc.devRef .tc main_v53))) = _
  rw [w9_v52, w9_v17, w9_v53]
  rfl

end Cert.KernelIdeal.Chain

end
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.LibNonnegDistrib.lean ====
/-
  Multiplication by a nonnegative finite extended real distributes over every finite sum of extended reals, whatever
  the summands are: on the extended reals a product distributes over a sum as soon as the factor is nonnegative and is
  not +∞ (the one sum that is not a sum of reals, +∞ + −∞ = −∞, is kept by such a factor: a positive one keeps both
  infinities, and zero sends every term and the sum to zero). Nothing is asked of the summands, so no finiteness of the
  arrays that supply them is needed.

  From it, the row law of a degree-normalised neighbourhood sum: scaling the neighbours before they are added up and
  the total afterwards, or scaling each neighbour by both factors before adding, give the same row.
-/
import Idealize.ShloMosaic.PureOps.Ideal.Laws

noncomputable section

namespace Cert.NonnegDistrib

open scoped BigOperators

/-- A nonnegative factor that is not +∞ goes inside a finite sum of arbitrary extended reals. -/
theorem mul_sum {ι : Type*} (t : Finset ι) (a : EReal) (ha : 0 ≤ a) (ha' : a ≠ ⊤) (f : ι → EReal) :
    a * ∑ i ∈ t, f i = ∑ i ∈ t, a * f i := by
  classical
  refine Finset.induction_on t ?_ ?_
  · simp
  · intro i t hi ih
    rw [Finset.sum_insert hi, Finset.sum_insert hi, EReal.left_distrib_of_nonneg_of_ne_top ha ha', ih]

/-- THE ROW LAW. For one row with normalising factor `σ` (nonnegative, not +∞), neighbours `e ∈ t` contributing the
    value `g e` with the neighbour's own factor `k e`, and the row's own value `v`:
    `σ · ((0 + Σ g e · k e) + v · σ) = (0 + Σ g e · (k e · σ)) + v · (σ · σ)`. -/
theorem row_law {ι : Type*} (t : Finset ι) (σ : EReal) (hσ : 0 ≤ σ) (hσ' : σ ≠ ⊤) (g k : ι → EReal) (v : EReal) :
    σ * ((0 + ∑ e ∈ t, g e * k e) + v * σ) = (0 + ∑ e ∈ t, g e * (k e * σ)) + v * (σ * σ) := by
  rw [EReal.left_distrib_of_nonneg_of_ne_top hσ hσ', zero_add, zero_add, mul_sum t σ hσ hσ']
  congr 1
  · refine Finset.sum_congr rfl fun e _ => ?_
    rw [mul_left_comm, mul_comm σ (k e)]
  · rw [mul_left_comm]

end Cert.NonnegDistrib
-- ==== Proof.LibEdgeLayer.lean ====
/-
  One layer of a degree-normalised graph convolution whose self loops are ordinary edges, generic in the number of
  nodes N, of channels C and of edges E. H : [N, C] is the dense product, s : [N] a factor per node (S : [N, 1] the
  same factor kept as a column), and Sx, Dx, D : [E, 1] are columns of row numbers: the source rows, the destination
  rows as the second factor's gather reads them, and the destination rows as the accumulating scatter reads them.

  Two ways to compute the layer are shown to give the same element at every node n and channel c.
  * Scale first, scale last: every row of H is multiplied by its own node's factor, the rows at Sx are gathered and
    added up at D, the total at node n is multiplied by the factor of n, and the bias row B : [1, C] is added.
  * Scale each edge: the rows of H at Sx are gathered, edge i is multiplied by the product of the factor gathered at
    Sx and the factor gathered at Dx, the edges are added up at D, and the bias b : [C] is added.
  An edge that lands at node n (its D number read signed is n) reads node n through Dx, so in the sum of the edges that
  land at n the second factor is s n throughout; and s n moves across that sum because it is nonnegative and not +∞
  (multiplication by such a factor distributes over any finite sum of extended reals), whatever the elements of H are:
  (Σ g·k)·σ = σ·Σ g·k = Σ σ·(g·k) = Σ g·(k·σ).
-/
import proofs.«146913_j22153441312995_2_alg».proof.Proof.LibSegmentSum
import proofs.«146913_j22153441312995_2_alg».proof.Proof.LibSegmentDims
import proofs.«146913_j22153441312995_2_alg».proof.Proof.LibGatherRows
import proofs.«146913_j22153441312995_2_alg».proof.Proof.LibDenseRows
import proofs.«146913_j22153441312995_2_alg».proof.Proof.LibNonnegDistrib

noncomputable section

namespace Cert.EdgeLayer

open Idealize.ShloMosaic Idealize.ShloMosaic.ValueIdx
open scoped BigOperators

/-- SCALE FIRST. The accumulating scatter, into a zero operand, of the rows of `H` scaled by their own node's factor and
    gathered at `Sx`, read at `(n, c)`: the sum over the edges `i` that land at node `n` of row `Sx[i]` (signed, clamped)
    of `H` at column `c` times that row's factor. -/
theorem scaled_first_apply {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (H : FVec Ideal ⟨2, ![N, C]⟩ .f32) (s : FVec Ideal ⟨1, ![N]⟩ .f32) (S : FVec Ideal ⟨2, ![N, 1]⟩ .f32)
    (Sx D : IVec ⟨2, ![E, 1]⟩ 32) (z : FVec Ideal ⟨2, ![N, C]⟩ .f32)
    (hS : ∀ n : Fin N, S (ix2 n (0 : Fin 1)) = s (ix1 n)) (hz : ∀ j, z j = 0) (n : Fin N) (c : Fin C) :
    Host.scatterAdd (Cert.SegmentDims.rowsDims N C E wfs) z D
        (Host.gather (Cert.GatherRows.rowDims N C E wg2) (fun j => H j * S (ix2 (j 0 : Fin N) (0 : Fin 1))) Sx) (ix2 n c)
      = 0 + ∑ i ∈ Finset.univ.filter (fun i : Fin E => (D (ix2 i (0 : Fin 1))).toInt = (n.val : Int)),
          H (ix2 (Cert.GatherRows.clampRow N hN (Sx (ix2 i (0 : Fin 1)))) c)
            * s (ix1 (Cert.GatherRows.clampRow N hN (Sx (ix2 i (0 : Fin 1))))) := by
  refine (Cert.SegmentSum.scatterAdd_rows_apply (Cert.SegmentDims.rowsDims N C E wfs)
    (fun i b idx => Cert.SegmentDims.rows_start0 wfs i b idx) (fun i b idx => Cert.SegmentDims.rows_start1 wfs i b idx)
    (Cert.SegmentDims.rows_window0 wfs) (Cert.SegmentDims.rows_window1 wfs) z D _ n c).trans ?_
  rw [hz]
  refine congrArg (fun t : EReal => 0 + t) (Finset.sum_congr rfl fun i _ => ?_)
  rw [Cert.GatherRows.gather_rows_apply hN wg2 _ Sx i c]
  exact congrArg (fun t : EReal => H (ix2 (Cert.GatherRows.clampRow N hN (Sx (ix2 i (0 : Fin 1)))) c) * t) (hS _)

/-- SCALE EACH EDGE. The accumulating scatter, into a zero operand, of the rows of `H` gathered at `Sx`, each times the
    product of the factor gathered at `Sx` and the factor gathered at `Dx` (laid along the row), read at `(n, c)`: the sum
    over the edges `i` that land at node `n` of row `Sx[i]` of `H` at column `c` times the two gathered factors. -/
theorem scaled_each_apply {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (wg1 : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0])
    (hEC : (⟨2, ![E, 1]⟩ : Shape).BroadcastsInDim ⟨2, ![E, C]⟩ ![0, 1])
    (H : FVec Ideal ⟨2, ![N, C]⟩ .f32) (s : FVec Ideal ⟨1, ![N]⟩ .f32)
    (Sx Dx D : IVec ⟨2, ![E, 1]⟩ 32) (z : FVec Ideal ⟨2, ![N, C]⟩ .f32) (hz : ∀ j, z j = 0) (n : Fin N) (c : Fin C) :
    Host.scatterAdd (Cert.SegmentDims.rowsDims N C E wfs) z D
        (mulf (Host.gather (Cert.GatherRows.rowDims N C E wg2) H Sx)
          (broadcastInDim ⟨2, ![E, C]⟩ ![0, 1] hEC (broadcastInDim ⟨2, ![E, 1]⟩ ![0] hE1
            (mulf (Host.gather (Cert.GatherRows.vecDims N E wg1) s Sx) (Host.gather (Cert.GatherRows.vecDims N E wg1) s Dx)))))
        (ix2 n c)
      = 0 + ∑ i ∈ Finset.univ.filter (fun i : Fin E => (D (ix2 i (0 : Fin 1))).toInt = (n.val : Int)),
          H (ix2 (Cert.GatherRows.clampRow N hN (Sx (ix2 i (0 : Fin 1)))) c)
            * (s (ix1 (Cert.GatherRows.clampRow N hN (Sx (ix2 i (0 : Fin 1)))))
                * s (ix1 (Cert.GatherRows.clampRow N hN (Dx (ix2 i (0 : Fin 1)))))) := by
  refine (Cert.SegmentSum.scatterAdd_rows_apply (Cert.SegmentDims.rowsDims N C E wfs)
    (fun i b idx => Cert.SegmentDims.rows_start0 wfs i b idx) (fun i b idx => Cert.SegmentDims.rows_start1 wfs i b idx)
    (Cert.SegmentDims.rows_window0 wfs) (Cert.SegmentDims.rows_window1 wfs) z D _ n c).trans ?_
  rw [hz]
  refine congrArg (fun t : EReal => 0 + t) (Finset.sum_congr rfl fun i _ => ?_)
  rw [mulf_apply, Cert.GatherRows.gather_rows_apply hN wg2 H Sx i c,
    Cert.DenseRows.broadcastInDim_a1_ab_apply _ hEC i c, Cert.DenseRows.broadcastInDim_a_a1_apply _ hE1 i (0 : Fin 1),
    mulf_apply, Cert.GatherRows.gather_vec_apply hN wg1 s Sx i, Cert.GatherRows.gather_vec_apply hN wg1 s Dx i]

/-- THE LAYER LAW: scaling first and last, or scaling each edge by both factors, give the same element. -/
theorem layer_law {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (wg1 : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0])
    (hEC : (⟨2, ![E, 1]⟩ : Shape).BroadcastsInDim ⟨2, ![E, C]⟩ ![0, 1])
    (hC1 : (⟨1, ![C]⟩ : Shape).BroadcastsInDim ⟨2, ![1, C]⟩ ![1])
    (h1C : (⟨2, ![1, C]⟩ : Shape).BroadcastsInDim ⟨2, ![N, C]⟩ ![0, 1])
    (H : FVec Ideal ⟨2, ![N, C]⟩ .f32) (s : FVec Ideal ⟨1, ![N]⟩ .f32) (S : FVec Ideal ⟨2, ![N, 1]⟩ .f32)
    (Sx Dx D : IVec ⟨2, ![E, 1]⟩ 32)
    (z : FVec Ideal ⟨2, ![N, C]⟩ .f32) (b : FVec Ideal ⟨1, ![C]⟩ .f32) (B : FVec Ideal ⟨2, ![1, C]⟩ .f32)
    (hgood : ∀ n : Fin N, 0 ≤ s (ix1 n) ∧ s (ix1 n) ≠ ⊤) (hS : ∀ n : Fin N, S (ix2 n (0 : Fin 1)) = s (ix1 n))
    (hB : ∀ c : Fin C, B (ix2 (0 : Fin 1) c) = b (ix1 c)) (hz : ∀ j, z j = 0)
    (hDx : ∀ (i : Fin E) (n : Fin N), (D (ix2 i (0 : Fin 1))).toInt = (n.val : Int) →
      Cert.GatherRows.clampRow N hN (Dx (ix2 i (0 : Fin 1))) = n)
    (n : Fin N) (c : Fin C) :
    Host.scatterAdd (Cert.SegmentDims.rowsDims N C E wfs) z D
        (Host.gather (Cert.GatherRows.rowDims N C E wg2) (fun j => H j * S (ix2 (j 0 : Fin N) (0 : Fin 1))) Sx) (ix2 n c)
        * S (ix2 n (0 : Fin 1)) + B (ix2 (0 : Fin 1) c)
      = addf (Host.scatterAdd (Cert.SegmentDims.rowsDims N C E wfs) z D
          (mulf (Host.gather (Cert.GatherRows.rowDims N C E wg2) H Sx)
            (broadcastInDim ⟨2, ![E, C]⟩ ![0, 1] hEC (broadcastInDim ⟨2, ![E, 1]⟩ ![0] hE1
              (mulf (Host.gather (Cert.GatherRows.vecDims N E wg1) s Sx)
                (Host.gather (Cert.GatherRows.vecDims N E wg1) s Dx))))))
        (broadcastInDim ⟨2, ![N, C]⟩ ![0, 1] h1C (broadcastInDim ⟨2, ![1, C]⟩ ![1] hC1 b)) (ix2 n c) := by
  rw [addf_apply, Cert.DenseRows.rowBias_inDim_apply b hC1 h1C n c,
    scaled_first_apply hN wfs wg2 H s S Sx D z hS hz n c,
    scaled_each_apply hN wfs wg2 wg1 hE1 hEC H s Sx Dx D z hz n c, hS n, hB c, zero_add, zero_add]
  refine congrArg (fun t : EReal => t + b (ix1 c)) ?_
  rw [mul_comm, Cert.NonnegDistrib.mul_sum _ _ (hgood n).1 (hgood n).2]
  refine Finset.sum_congr rfl fun i hi => ?_
  rw [hDx i n (Finset.mem_filter.mp hi).2, mul_comm, mul_assoc]

end Cert.EdgeLayer

end
-- ==== Proof.LibDegreeFactor.lean ====
/-
  Two facts about a graph given by row numbers, used to normalise a neighbourhood sum by degrees.

  The factor of a node is the reciprocal square root of one plus the number of edges arriving at it. One plus a count
  is a positive real, so at the ideal values the factor is a nonnegative real: in particular it is not +∞, which is
  what lets it be moved across sums of arbitrary extended reals.

  A row number read as a signed word names the node n exactly when its signed value is n. Such a word is not negative,
  so the usual adjustment of negative row numbers (add the node count to a negative number, keep the others) leaves it
  alone, and clamping it into the nodes gives n back. So an edge counted at node n by its destination number also reads
  node n when that number is used, adjusted and clamped, to look a value up.
-/
import Idealize.ShloMosaic.PureOps.Ideal.Laws
import Idealize.ShloMosaic.Lib.ValueIdx

noncomputable section

namespace Cert.DegreeFactor

open Idealize.ShloMosaic
open scoped BigOperators

/-- The reciprocal square root of one plus a count is a nonnegative extended real other than +∞. -/
theorem rsqrt_succ_count {ι : Type*} (t : Finset ι) :
    0 ≤ Ideal.rsqrt ((0 + ∑ _i ∈ t, (1 : EReal)) + 1) ∧ Ideal.rsqrt ((0 + ∑ _i ∈ t, (1 : EReal)) + 1) ≠ ⊤ := by
  have hsum : ((0 : EReal) + ∑ _i ∈ t, (1 : EReal)) + 1 = (((t.card : ℝ) + 1 : ℝ) : EReal) := by
    rw [zero_add, Finset.sum_const, nsmul_one, EReal.coe_add, EReal.coe_one, EReal.coe_natCast]
  have hpos : (0 : ℝ) < (t.card : ℝ) + 1 := by positivity
  rw [hsum, Ideal.rsqrt_coe, if_neg (not_lt.mpr hpos.le), if_neg hpos.ne']
  exact ⟨EReal.coe_nonneg.mpr (inv_nonneg.mpr (Real.sqrt_nonneg _)), EReal.coe_ne_top _⟩

/-- A negative row number moved up by `K`, the others kept. -/
def wrapWord (K w : BitVec 32) : BitVec 32 :=
  Scalar.select (IntOp.cmpi .slt w 0#32) (IntOp.addi w K) w

/-- A row number that is not negative is kept. -/
theorem wrapWord_of_nonneg (K w : BitVec 32) (h : 0 ≤ w.toInt) : wrapWord K w = w := by
  unfold wrapWord
  have hs : IntOp.cmpi .slt w 0#32 = 0#1 := by
    unfold IntOp.cmpi
    have : w.slt 0#32 = false := by
      rw [BitVec.slt]
      simp only [BitVec.toInt_zero, decide_eq_false_iff_not, not_lt]
      exact h
    simp only [this]
    rfl
  rw [hs]
  exact ValueIdx.select_zero _ _

end Cert.DegreeFactor
-- ==== Proof.DegreeFacts.lean ====
/-
  Two facts about this reference's degree factor and destination numbers, stated over the reference's operations read
  one at a time.

  (a) The factor of a node is `select (deg > 0) (rsqrt (max deg 1)) 0` for the node's degree `deg`. Whatever extended
      real `deg` is, `max deg 1` is at least one, so its reciprocal square root is a nonnegative real (or zero, at +∞); the
      other branch is zero. So the factor is nonnegative and is not +∞, with nothing asked of the degree.

  (b) The column of destination numbers the accumulating scatter reads and the column the second factor's gather reads
      come from the same vector of destination numbers: the first is that vector as a column, the second is the vector
      with every negative number moved up by the node count, as a column. An edge whose destination number read signed is
      the node n has a number that is not negative, so the adjustment keeps it, and clamping it into the nodes gives n.
-/
import proofs.«146913_j22153441312995_2_alg».proof.Proof.RefRead
import proofs.«146913_j22153441312995_2_alg».proof.Proof.LibGatherRows
import proofs.«146913_j22153441312995_2_alg».proof.Proof.LibDegreeFactor
import Idealize.ShloMosaic.Lib.IdealHost

noncomputable section

namespace Cert.DegreeFacts

open Cert.ReferenceIdeal Cert.ReferenceIdeal.Gen Idealize.ShloMosaic Idealize.ShloMosaic.ValueIdx

/-! ## (b) An edge counted at node n reads node n -/

/-- The column of adjusted destination numbers at edge `i`: the destination number of edge `i`, moved up by the node
    count if it is negative. -/
theorem adjusted_dst_apply (x1 : (⟨S2x600000, .i32⟩ : BufTy).Contents (Elt Ideal)) (i : Fin 700000) :
    ReadP.val_main_v29 (F := Ideal) x1 (ix2 i (0 : Fin 1))
      = Cert.DegreeFactor.wrapWord 100000#32 (ReadP.val_main_v6 (F := Ideal) x1 (ix1 i)) := by
  have e : ReadP.idx_main_v29 (ix2 i (0 : Fin 1)) = ix1 i := by
    funext a; match a with | ⟨0, _⟩ => rfl
  rw [ReadP.val_main_v29_apply, e, ReadP.val_main_v28_apply, ReadP.val_main_v25_apply, ReadP.val_main_v27_apply,
    ReadP.val_main_v24_apply, ReadP.val_main_v26_apply, ReadP.val_main_c_5_apply, ReadP.val_main_c_6_apply]
  rfl

/-- The column of destination numbers the scatter reads, at edge `i`: the destination number of edge `i`. -/
theorem scatter_dst_apply (x1 : (⟨S2x600000, .i32⟩ : BufTy).Contents (Elt Ideal)) (i : Fin 700000) :
    ReadP.val_main_v44 (F := Ideal) x1 (ix2 i (0 : Fin 1)) = ReadP.val_main_v6 (F := Ideal) x1 (ix1 i) := by
  have e : ReadP.idx_main_v44 (ix2 i (0 : Fin 1)) = ix1 i := by
    funext a; match a with | ⟨0, _⟩ => rfl
  rw [ReadP.val_main_v44_apply, e]

/-- An edge whose destination number, read signed, is the node `n` reads node `n` through the adjusted and clamped
    number. -/
theorem dst_reads_self (x1 : (⟨S2x600000, .i32⟩ : BufTy).Contents (Elt Ideal)) (i : Fin 700000) (n : Fin 100000)
    (h : (ReadP.val_main_v44 (F := Ideal) x1 (ix2 i (0 : Fin 1))).toInt = (n.val : Int)) :
    Cert.GatherRows.clampRow 100000 (by decide) (ReadP.val_main_v29 (F := Ideal) x1 (ix2 i (0 : Fin 1))) = n := by
  rw [scatter_dst_apply] at h
  rw [adjusted_dst_apply, Cert.DegreeFactor.wrapWord_of_nonneg _ _ (by rw [h]; exact Int.natCast_nonneg _)]
  exact Cert.GatherRows.clampRow_of_toInt (by decide) _ n h

/-! ## (a) The node factor is nonnegative and not +∞ -/

/-- The reciprocal square root of an extended real that is at least one is nonnegative and is not +∞: of a real at least
    one it is a nonnegative real, of +∞ it is zero. -/
theorem rsqrt_good_of_one_le (m : EReal) (h1 : 1 ≤ m) : 0 ≤ Ideal.rsqrt m ∧ Ideal.rsqrt m ≠ ⊤ := by
  induction m with
  | bot => exact absurd h1 (not_le.mpr (EReal.bot_lt_coe 1))
  | coe r =>
    have hr : (1 : ℝ) ≤ r := by exact_mod_cast h1
    rw [Ideal.rsqrt_coe, if_neg (by linarith), if_neg (by linarith)]
    exact ⟨EReal.coe_nonneg.mpr (inv_nonneg.mpr (Real.sqrt_nonneg _)), EReal.coe_ne_top _⟩
  | top => rw [Ideal.rsqrt_top]; exact ⟨le_rfl, EReal.zero_ne_top⟩

/-- The factor of node `n`, whatever the degree is. -/
theorem factor_good (x1 : (⟨S2x600000, .i32⟩ : BufTy).Contents (Elt Ideal)) (n : Fin 100000) :
    0 ≤ ReadP.val_main_v16 (F := Ideal) x1 (ix1 n) ∧ ReadP.val_main_v16 (F := Ideal) x1 (ix1 n) ≠ ⊤ := by
  have key : ReadP.val_main_v16 (F := Ideal) x1 (ix1 n)
      = Scalar.select (ReadP.val_main_v12 (F := Ideal) x1 (ix1 n))
          (Ideal.rsqrt (max (ReadP.val_main_v10 (F := Ideal) x1 (ix1 n)) 1)) 0 := by
    rw [ReadP.val_main_v16_apply, ReadP.val_main_v15_apply, ReadP.val_main_v14_apply, ReadP.val_main_v13_apply,
      ReadP.val_main_cst_2_apply, ReadP.val_main_call0_v1_apply, ReadP.val_main_call0_v0_apply,
      ReadP.val_main_cst_3_apply, Ideal.ofBits_def, Ideal.ofBits_def, Ideal.ofBits_zero_f32, Ideal.ofBits_one_f32,
      Ideal.hostUnary_rsqrt_def, Ideal.maximumf_def]
  rw [key]
  unfold Scalar.select
  split
  · exact rsqrt_good_of_one_le _ (le_max_right _ _)
  · exact ⟨le_rfl, EReal.zero_ne_top⟩

end Cert.DegreeFacts

end
-- ==== Proof.Bridge.lean ====
/-
  The idealized kernel's result is the reference's, as arrays. Both are three degree-normalised graph-convolution layers
  and a row-wise log-softmax over the same columns of row numbers and the same node factor. They differ in where a
  layer's factors are applied: the kernel scales each node's row of the dense product by the node's factor before the
  rows are gathered and added up, and scales the sum again afterwards; the reference scales each gathered row by both
  ends' factors. The factor is a nonnegative real (or zero), so it moves across the sum whatever the rows hold, and the
  clipped layers agree; the dense products, the relu and the log-softmax are then the same functions of the same arrays.
-/
import proofs.«146913_j22153441312995_2_alg».proof.Proof.Chain
import proofs.«146913_j22153441312995_2_alg».proof.Proof.LibEdgeLayer
import proofs.«146913_j22153441312995_2_alg».proof.Proof.DegreeFacts
import proofs.«146913_j22153441312995_2_alg».proof.Proof.SoftmaxRows
import proofs.«146913_j22153441312995_2_alg».proof.Proof.LibDenseRows
import proofs.«146913_j22153441312995_2_alg».proof.Proof.LibColumnLayout
import Idealize.ShloMosaic.Lib.ValueLayout

set_option maxRecDepth 16384

noncomputable section

namespace Cert.Bridge

open Cert.ReferenceIdeal Cert.ReferenceIdeal.ReadP Idealize.ShloMosaic Idealize.ShloMosaic.ValueIdx
open Cert.ReferenceIdeal.Facts₀ Cert.ReferenceIdeal.Facts
open Cert.KernelIdeal.Chain (colS srcCol dstCol agg128 agg40 row128 row40)
open scoped BigOperators

/-- The scatter's accumulator starts at zero. -/
theorem zeros_apply {s : Shape} (h : (⟨0, ![]⟩ : Shape).BroadcastsInDim s ![]) (j : s.Idx) :
    broadcastInDim s ![] h (constant (F := Ideal) ⟨0, ![]⟩ .f32 0x00000000#32) j = 0 := by
  show Ideal.ofBits .f32 0x00000000#32 = 0
  exact Ideal.ofBits_zero_f32

/-- ONE LAYER, for any number `C` of output columns: the kernel's clipped layer over the scaled dense product is the
    reference's clipped layer over the plain one. -/
theorem layer {C : ℕ} (x1 : IVec S2x600000 32)
    (wfs : ScatterDims.WF ⟨2, ![100000, C]⟩ ⟨2, ![700000, 1]⟩ ⟨2, ![700000, C]⟩ [1] [0] [0] 1)
    (wg2 : GatherDims.WF ⟨2, ![100000, C]⟩ ⟨2, ![700000, 1]⟩ ⟨2, ![700000, C]⟩ [1] [0] [] [0] [] 1 ![1, C])
    (wg1 : GatherDims.WF ⟨1, ![100000]⟩ ⟨2, ![700000, 1]⟩ ⟨1, ![700000]⟩ [] [0] [] [0] [] 1 ![1])
    (hE1 : (⟨1, ![700000]⟩ : Shape).BroadcastsInDim ⟨2, ![700000, 1]⟩ ![0])
    (hEC : (⟨2, ![700000, 1]⟩ : Shape).BroadcastsInDim ⟨2, ![700000, C]⟩ ![0, 1])
    (hC1 : (⟨1, ![C]⟩ : Shape).BroadcastsInDim ⟨2, ![1, C]⟩ ![1])
    (h1C : (⟨2, ![1, C]⟩ : Shape).BroadcastsInDim ⟨2, ![100000, C]⟩ ![0, 1])
    (hbz : (⟨0, ![]⟩ : Shape).BroadcastsInDim ⟨2, ![100000, C]⟩ ![])
    (hcb : (⟨1, ![C]⟩ : Shape).ShapeCasts ⟨2, ![1, C]⟩)
    (D : DotDims ⟨2, ![100000, 128]⟩ ⟨2, ![128, C]⟩ ⟨2, ![100000, C]⟩)
    (hl : D.lhsContracting = [(1 : Fin 2)]) (hr : D.rhsContracting = [(0 : Fin 2)])
    (hrank : D.contr.rank = 1) (hsize : D.contr.size ⟨0, by omega⟩ = 128)
    (hl0 : ∀ j k, (D.lhsIdx j k (0 : Fin 2)).val = (j (0 : Fin 2)).val)
    (hr1 : ∀ j k, (D.rhsIdx j k (1 : Fin 2)).val = (j (1 : Fin 2)).val)
    (X : FVec Ideal ⟨2, ![100000, 128]⟩ .f32) (Wt : FVec Ideal ⟨2, ![128, C]⟩ .f32) (b : FVec Ideal ⟨1, ![C]⟩ .f32) :
    Cert.Gcn.act (N := 100000) (C := C)
        (Host.scatterAdd (Cert.SegmentDims.rowsDims 100000 C 700000 wfs)
          (broadcastInDim ⟨2, ![100000, C]⟩ ![] hbz (constant (F := Ideal) ⟨0, ![]⟩ .f32 0x00000000#32)) (dstCol x1)
          (Host.gather (Cert.GatherRows.rowDims 100000 C 700000 wg2) (Cert.Gcn.denseScale (N := 100000) (K := 128) (C := C) X Wt (colS x1)) (srcCol x1)))
        (colS x1) (shapeCast ⟨2, ![1, C]⟩ b hcb)
      = maximumf
          (addf
            (Host.scatterAdd (Cert.SegmentDims.rowsDims 100000 C 700000 wfs)
              (broadcastInDim ⟨2, ![100000, C]⟩ ![] hbz (constant (F := Ideal) ⟨0, ![]⟩ .f32 0x00000000#32)) (dstCol x1)
              (mulf (Host.gather (Cert.GatherRows.rowDims 100000 C 700000 wg2) (Host.dotGeneral D none X Wt) (srcCol x1))
                (broadcastInDim ⟨2, ![700000, C]⟩ ![0, 1] hEC (broadcastInDim ⟨2, ![700000, 1]⟩ ![0] hE1
                  (mulf (Host.gather (Cert.GatherRows.vecDims 100000 700000 wg1) (val_main_v16 (F := Ideal) x1) (srcCol x1))
                    (Host.gather (Cert.GatherRows.vecDims 100000 700000 wg1) (val_main_v16 (F := Ideal) x1) (val_main_v29 (F := Ideal) x1)))))))
            (broadcastInDim ⟨2, ![100000, C]⟩ ![0, 1] h1C (broadcastInDim ⟨2, ![1, C]⟩ ![1] hC1 b)))
          (broadcastInDim ⟨2, ![100000, C]⟩ ![] hbz (constant (F := Ideal) ⟨0, ![]⟩ .f32 0x00000000#32)) := by
  funext i
  obtain ⟨n, c, rfl⟩ : ∃ (n : Fin 100000) (c : Fin C), i = ix2 n c := ⟨i 0, i 1, eq_ix2 i⟩
  rw [Cert.Gcn.act_apply, maximumf_apply, zeros_apply]
  refine congrArg (fun t => max t 0) ?_
  have hK : Cert.Gcn.denseScale (N := 100000) (K := 128) (C := C) X Wt (colS x1)
      = fun j => Host.dotGeneral D none X Wt j * colS x1 (ix2 (j 0 : Fin 100000) (0 : Fin 1)) := by
    funext j
    obtain ⟨p, q, rfl⟩ : ∃ (p : Fin 100000) (q : Fin C), j = ix2 p q := ⟨j 0, j 1, eq_ix2 j⟩
    rw [Cert.Gcn.denseScale_apply, Cert.DenseRows.dotGeneral_plain_apply D hl hr hrank hsize hl0 hr1 X Wt p q]
    rfl
  rw [hK]
  exact Cert.EdgeLayer.layer_law (N := 100000) (C := C) (E := 700000) (by decide) wfs wg2 wg1 hE1 hEC hC1 h1C
    (Host.dotGeneral D none X Wt) (val_main_v16 (F := Ideal) x1) (colS x1) (srcCol x1) (val_main_v29 (F := Ideal) x1) (dstCol x1)
    (broadcastInDim ⟨2, ![100000, C]⟩ ![] hbz (constant (F := Ideal) ⟨0, ![]⟩ .f32 0x00000000#32)) b (shapeCast ⟨2, ![1, C]⟩ b hcb)
    (fun n => Cert.DegreeFacts.factor_good x1 n)
    (fun n => Cert.ColumnLayout.shapeCast_a_a1_apply _ _ n (0 : Fin 1))
    (fun c => shapeCast_a_1a_apply b hcb (0 : Fin 1) c)
    (fun j => zeros_apply hbz j)
    (fun i n h => Cert.DegreeFacts.dst_reads_self x1 i n h)
    n c

/-! ## The dimension numbers of the reference's two products -/

theorem dot128_lhs0 (j : S100000x128.Idx) (k : dot_S100000x128_S128x128_S100000x128_1_0_0_1_n_n.contr.Idx) :
    (dot_S100000x128_S128x128_S100000x128_1_0_0_1_n_n.lhsIdx j k (0 : Fin 2)).val = (j (0 : Fin 2)).val := lhs_main_v32_0 j k
theorem dot128_rhs1 (j : S100000x128.Idx) (k : dot_S100000x128_S128x128_S100000x128_1_0_0_1_n_n.contr.Idx) :
    (dot_S100000x128_S128x128_S100000x128_1_0_0_1_n_n.rhsIdx j k (1 : Fin 2)).val = (j (1 : Fin 2)).val := rhs_main_v32_1 j k
theorem dot40_lhs0 (j : S100000x40.Idx) (k : dot_S100000x128_S128x40_S100000x40_1_0_0_1_n_n.contr.Idx) :
    (dot_S100000x128_S128x40_S100000x40_1_0_0_1_n_n.lhsIdx j k (0 : Fin 2)).val = (j (0 : Fin 2)).val := lhs_main_v68_0 j k
theorem dot40_rhs1 (j : S100000x40.Idx) (k : dot_S100000x128_S128x40_S100000x40_1_0_0_1_n_n.contr.Idx) :
    (dot_S100000x128_S128x40_S100000x40_1_0_0_1_n_n.rhsIdx j k (1 : Fin 2)).val = (j (1 : Fin 2)).val := rhs_main_v68_1 j k

/-! ## The three layers and the log-softmax -/

section Layers

variable (x0 : FVec Ideal S100000x128 .f32) (x1 : IVec S2x600000 32) (x2 : FVec Ideal S128x128 .f32) (x3 : FVec Ideal S128 .f32)
  (x4 : FVec Ideal S128x128 .f32) (x5 : FVec Ideal S128 .f32) (x6 : FVec Ideal S128x40 .f32) (x7 : FVec Ideal S40 .f32)

/-- A 128-column layer over any input `X`: the kernel's form against the reference's stage term. -/
theorem layer128 (X : FVec Ideal S100000x128 .f32) (Wt : FVec Ideal S128x128 .f32) (b : FVec Ideal S128 .f32) :
    Cert.Gcn.act (N := 100000) (C := 128) (agg128 x1 (Cert.Gcn.denseScale (N := 100000) (K := 128) (C := 128) X Wt (colS x1))) (colS x1) (row128 b)
      = maximumf
          (addf
            (Host.scatterAdd scatter_S100000x128_S700000x1_S700000x128_1_0_0_1 (val_main_v43 (F := Ideal)) (val_main_v44 (F := Ideal) x1)
              (mulf (Host.gather gather_S100000x128_S700000x1_S700000x128_1_0_n_n_0_1_1128
                  (Host.dotGeneral dot_S100000x128_S128x128_S100000x128_1_0_0_1_n_n none X Wt) (val_main_v38 (F := Ideal) x1))
                (val_main_v41 (F := Ideal) x1)))
            (broadcastInDim S100000x128 ![0, 1] bcast_S1x128_S100000x128_0_1 (broadcastInDim S1x128 ![1] bcast_S128_S1x128_1 b)))
          (val_main_call1_v0 (F := Ideal)) :=
  layer (C := 128) x1 scatter_S100000x128_S700000x1_S700000x128_1_0_0_1_wf gather_S100000x128_S700000x1_S700000x128_1_0_n_n_0_1_1128_wf
    gather_S100000_S700000x1_S700000_n_0_n_n_0_1_1_wf bcast_S700000_S700000x1_0 bcast_S700000x1_S700000x128_0_1 bcast_S128_S1x128_1
    bcast_S1x128_S100000x128_0_1 bcast_S_S100000x128 Cert.KernelIdeal.Facts₀.shapeCasts_S128_S1x128
    dot_S100000x128_S128x128_S100000x128_1_0_0_1_n_n rfl rfl rfl rfl dot128_lhs0 dot128_rhs1 X Wt b

/-- The 40-column layer. -/
theorem layer40 (X : FVec Ideal S100000x128 .f32) (Wt : FVec Ideal S128x40 .f32) (b : FVec Ideal S40 .f32) :
    Cert.Gcn.act (N := 100000) (C := 40) (agg40 x1 (Cert.Gcn.denseScale (N := 100000) (K := 128) (C := 40) X Wt (colS x1))) (colS x1) (row40 b)
      = maximumf
          (addf
            (Host.scatterAdd scatter_S100000x40_S700000x1_S700000x40_1_0_0_1 (val_main_v79 (F := Ideal)) (val_main_v80 (F := Ideal) x1)
              (mulf (Host.gather gather_S100000x40_S700000x1_S700000x40_1_0_n_n_0_1_140
                  (Host.dotGeneral dot_S100000x128_S128x40_S100000x40_1_0_0_1_n_n none X Wt) (val_main_v74 (F := Ideal) x1))
                (val_main_v77 (F := Ideal) x1)))
            (broadcastInDim S100000x40 ![0, 1] bcast_S1x40_S100000x40_0_1 (broadcastInDim S1x40 ![1] bcast_S40_S1x40_1 b)))
          (val_main_call3_v0 (F := Ideal)) :=
  layer (C := 40) x1 scatter_S100000x40_S700000x1_S700000x40_1_0_0_1_wf gather_S100000x40_S700000x1_S700000x40_1_0_n_n_0_1_140_wf
    gather_S100000_S700000x1_S700000_n_0_n_n_0_1_1_wf bcast_S700000_S700000x1_0 bcast_S700000x1_S700000x40_0_1 bcast_S40_S1x40_1
    bcast_S1x40_S100000x40_0_1 bcast_S_S100000x40 Cert.KernelIdeal.Facts₀.shapeCasts_S40_S1x40
    dot_S100000x128_S128x40_S100000x40_1_0_0_1_n_n rfl rfl rfl rfl dot40_lhs0 dot40_rhs1 X Wt b

/-- The first layer's activations. -/
theorem act1 : Cert.Gcn.act (N := 100000) (C := 128) (agg128 x1 (Cert.Gcn.denseScale (N := 100000) (K := 128) (C := 128) x0 x2 (colS x1))) (colS x1) (row128 x3)
    = val_main_v49 (F := Ideal) x0 x1 x2 x3 :=
  (layer128 x1 x0 x2 x3).trans rfl

/-- The second layer's. -/
theorem act2 : Cert.Gcn.act (N := 100000) (C := 128)
      (agg128 x1 (Cert.Gcn.denseScale (N := 100000) (K := 128) (C := 128) (val_main_v49 (F := Ideal) x0 x1 x2 x3) x4 (colS x1))) (colS x1) (row128 x5)
    = val_main_v67 (F := Ideal) x0 x1 x2 x3 x4 x5 :=
  (layer128 x1 (val_main_v49 (F := Ideal) x0 x1 x2 x3) x4 x5).trans rfl

/-- The third layer's. -/
theorem act3 : Cert.Gcn.act (N := 100000) (C := 40)
      (agg40 x1 (Cert.Gcn.denseScale (N := 100000) (K := 128) (C := 40) (val_main_v67 (F := Ideal) x0 x1 x2 x3 x4 x5) x6 (colS x1))) (colS x1) (row40 x7)
    = val_main_v85 (F := Ideal) x0 x1 x2 x3 x4 x5 x6 x7 :=
  (layer40 x1 (val_main_v67 (F := Ideal) x0 x1 x2 x3 x4 x5) x6 x7).trans rfl

/-- The reference's result is the row-wise log-softmax of its last activations. -/
theorem ref_result : val_main_v86 (F := Ideal) x0 x1 x2 x3 x4 x5 x6 x7
    = Cert.Gcn.logSoftmax (N := 100000) (C := 40) (val_main_v85 (F := Ideal) x0 x1 x2 x3 x4 x5 x6 x7) := by
  funext i
  obtain ⟨n, q, rfl⟩ : ∃ (n : Fin 100000) (q : Fin 40), i = ix2 n q := ⟨i 0, i 1, eq_ix2 i⟩
  rw [Cert.SoftmaxRows.ref_lsm_apply, Cert.Gcn.logSoftmax_apply]

end Layers

/-- THE BRIDGE: the kernel's composed term is the reference's result stage of the same arguments. -/
theorem kernel_eq_ref (m : (ℓ : Loc Cert.KernelIdeal.nD Cert.KernelIdeal.τ Cert.KernelIdeal.sig) → Buf (Elt Ideal) ℓ)
    (c : Dev Cert.KernelIdeal.nD) :
    Cert.KernelIdeal.Chain.k4 m c
      = val_main_v86 (F := Ideal) (Cert.KernelIdeal.Chain.a0 m c) (Cert.KernelIdeal.Chain.a1 m c) (Cert.KernelIdeal.Chain.a2 m c)
          (Cert.KernelIdeal.Chain.a3 m c) (Cert.KernelIdeal.Chain.a4 m c) (Cert.KernelIdeal.Chain.a5 m c)
          (Cert.KernelIdeal.Chain.a6 m c) (Cert.KernelIdeal.Chain.a7 m c) := by
  unfold Cert.KernelIdeal.Chain.k4 Cert.KernelIdeal.Chain.k3 Cert.KernelIdeal.Chain.k2 Cert.KernelIdeal.Chain.k1
  rw [act1 (Cert.KernelIdeal.Chain.a0 m c) (Cert.KernelIdeal.Chain.a1 m c) (Cert.KernelIdeal.Chain.a2 m c) (Cert.KernelIdeal.Chain.a3 m c),
    act2 (Cert.KernelIdeal.Chain.a0 m c) (Cert.KernelIdeal.Chain.a1 m c) (Cert.KernelIdeal.Chain.a2 m c) (Cert.KernelIdeal.Chain.a3 m c)
      (Cert.KernelIdeal.Chain.a4 m c) (Cert.KernelIdeal.Chain.a5 m c),
    act3 (Cert.KernelIdeal.Chain.a0 m c) (Cert.KernelIdeal.Chain.a1 m c) (Cert.KernelIdeal.Chain.a2 m c) (Cert.KernelIdeal.Chain.a3 m c)
      (Cert.KernelIdeal.Chain.a4 m c) (Cert.KernelIdeal.Chain.a5 m c) (Cert.KernelIdeal.Chain.a6 m c) (Cert.KernelIdeal.Chain.a7 m c),
    ref_result]

end Cert.Bridge

end
-- ==== Proof.RefRunStages.lean ====
/-
  The reference's run, window by window. The reference's @main is a straight line of 127 host operations. It is cut into nine
  windows — the edge lists and the node factor; the factor of each edge; the three layers; the row-wise log-softmax in four
  pieces (the row maximum, the rows minus it, the row sums of the exponentials, the rows minus the logarithm of the sum) — and
  the buffer contents after each window are read off from the contents before it: a buffer the window writes holds the
  operation's function of its operands' contents, a buffer it does not write keeps its contents. The few buffers a later
  window still reads (the two edge lists with the self loops, the node factor, the edge factor, each layer's output) are named
  by the reference's operations read one at a time, as functions of the arguments alone, so each window's equation is between
  short terms. Joined, the nine windows give the whole line: on every device every weakly fair execution of @main ends with
  the result buffer at the last operation's value as a function of the arguments, and the arguments unchanged.
-/
import proofs.«146913_j22153441312995_2_alg».proof.Proof.RefRead
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Two pieces joined along an axis, the pieces as plain arguments: the joined list is an argument that the shape fact's type
    depends on, so a rewriting pass does not enter it; as plain arguments the pieces are rewritten where they stand. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h
theorem concat_pair_eq {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = concat2 t a s₁ s₂ h x y := rfl

/-! ## The windows -/

/-- Window 1 (operations 1 … 24): the two edge lists with the self loops appended, and the node factor. -/
abbrev opsA : List (HloOp τ sig (Elt F)) :=
  [ nullary main_v0 (iotaInDim S100000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v7 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S700000x1 ![0] bcast_S700000_S700000x1_0 : (⟨S700000, .i32⟩ : BufTy).Contents (Elt F) → (⟨S700000x1, .i32⟩ : BufTy).Contents (Elt F)),
    ternary main_v8 main_v9 main_v7 main_v10 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- Window 2 (operations 25 … 43): the factor of each edge, the product of the node factors gathered at its two ends. -/
abbrev opsB : List (HloOp τ sig (Elt F)) :=
  [ nullary main_c (constantI S_ 32 0#32),
    unary main_c main_v17 (broadcastInDim S700000 ![] bcast_S_S700000 : (⟨S_, .i32⟩ : BufTy).Contents (Elt F) → (⟨S700000, .i32⟩ : BufTy).Contents (Elt F)),
    binary main_v3 main_v17 main_v18 (cmpi .slt : (⟨S700000, .i32⟩ : BufTy).Contents (Elt F) → (⟨S700000, .i32⟩ : BufTy).Contents (Elt F) → (⟨S700000, .i1⟩ : BufTy).Contents (Elt F)),
    nullary main_c_4 (constantI S_ 32 100000#32),
    unary main_c_4 main_v19 (broadcastInDim S700000 ![] bcast_S_S700000 : (⟨S_, .i32⟩ : BufTy).Contents (Elt F) → (⟨S700000, .i32⟩ : BufTy).Contents (Elt F)),
    binary main_v3 main_v19 main_v20 (addi : (⟨S700000, .i32⟩ : BufTy).Contents (Elt F) → (⟨S700000, .i32⟩ : BufTy).Contents (Elt F) → (⟨S700000, .i32⟩ : BufTy).Contents (Elt F)),
    ternary main_v18 main_v20 main_v3 main_v21 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v21 main_v22 (broadcastInDim S700000x1 ![0] bcast_S700000_S700000x1_0 : (⟨S700000, .i32⟩ : BufTy).Contents (Elt F) → (⟨S700000x1, .i32⟩ : BufTy).Contents (Elt F)),
    binary main_v16 main_v22 main_v23 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    nullary main_c_5 (constantI S_ 32 0#32),
    unary main_c_5 main_v24 (broadcastInDim S700000 ![] bcast_S_S700000 : (⟨S_, .i32⟩ : BufTy).Contents (Elt F) → (⟨S700000, .i32⟩ : BufTy).Contents (Elt F)),
    binary main_v6 main_v24 main_v25 (cmpi .slt : (⟨S700000, .i32⟩ : BufTy).Contents (Elt F) → (⟨S700000, .i32⟩ : BufTy).Contents (Elt F) → (⟨S700000, .i1⟩ : BufTy).Contents (Elt F)),
    nullary main_c_6 (constantI S_ 32 100000#32),
    unary main_c_6 main_v26 (broadcastInDim S700000 ![] bcast_S_S700000 : (⟨S_, .i32⟩ : BufTy).Contents (Elt F) → (⟨S700000, .i32⟩ : BufTy).Contents (Elt F)),
    binary main_v6 main_v26 main_v27 (addi : (⟨S700000, .i32⟩ : BufTy).Contents (Elt F) → (⟨S700000, .i32⟩ : BufTy).Contents (Elt F) → (⟨S700000, .i32⟩ : BufTy).Contents (Elt F)),
    ternary main_v25 main_v27 main_v6 main_v28 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v28 main_v29 (broadcastInDim S700000x1 ![0] bcast_S700000_S700000x1_0 : (⟨S700000, .i32⟩ : BufTy).Contents (Elt F) → (⟨S700000x1, .i32⟩ : BufTy).Contents (Elt F)),
    binary main_v16 main_v29 main_v30 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v23 main_v30 main_v31 (mulf : (⟨S700000, .f32⟩ : BufTy).Contents (Elt F) → (⟨S700000, .f32⟩ : BufTy).Contents (Elt F) → (⟨S700000, .f32⟩ : BufTy).Contents (Elt F)) ]

/-- Window 3 (operations 44 … 66): the first layer. -/
abbrev opsC : List (HloOp τ sig (Elt F)) :=
  [ binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v33 (broadcastInDim S700000 ![] bcast_S_S700000 : (⟨S_, .i32⟩ : BufTy).Contents (Elt F) → (⟨S700000, .i32⟩ : BufTy).Contents (Elt F)),
    binary main_v3 main_v33 main_v34 (cmpi .slt : (⟨S700000, .i32⟩ : BufTy).Contents (Elt F) → (⟨S700000, .i32⟩ : BufTy).Contents (Elt F) → (⟨S700000, .i1⟩ : BufTy).Contents (Elt F)),
    nullary main_c_8 (constantI S_ 32 100000#32),
    unary main_c_8 main_v35 (broadcastInDim S700000 ![] bcast_S_S700000 : (⟨S_, .i32⟩ : BufTy).Contents (Elt F) → (⟨S700000, .i32⟩ : BufTy).Contents (Elt F)),
    binary main_v3 main_v35 main_v36 (addi : (⟨S700000, .i32⟩ : BufTy).Contents (Elt F) → (⟨S700000, .i32⟩ : BufTy).Contents (Elt F) → (⟨S700000, .i32⟩ : BufTy).Contents (Elt F)),
    ternary main_v34 main_v36 main_v3 main_v37 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v37 main_v38 (broadcastInDim S700000x1 ![0] bcast_S700000_S700000x1_0 : (⟨S700000, .i32⟩ : BufTy).Contents (Elt F) → (⟨S700000x1, .i32⟩ : BufTy).Contents (Elt F)),
    binary main_v32 main_v38 main_v39 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v31 main_v40 (broadcastInDim S700000x1 ![0] bcast_S700000_S700000x1_0 : (⟨S700000, .f32⟩ : BufTy).Contents (Elt F) → (⟨S700000x1, .f32⟩ : BufTy).Contents (Elt F)),
    unary main_v40 main_v41 (broadcastInDim S700000x128 ![0, 1] bcast_S700000x1_S700000x128_0_1 : (⟨S700000x1, .f32⟩ : BufTy).Contents (Elt F) → (⟨S700000x128, .f32⟩ : BufTy).Contents (Elt F)),
    binary main_v39 main_v41 main_v42 (mulf : (⟨S700000x128, .f32⟩ : BufTy).Contents (Elt F) → (⟨S700000x128, .f32⟩ : BufTy).Contents (Elt F) → (⟨S700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S700000x1 ![0] bcast_S700000_S700000x1_0 : (⟨S700000, .i32⟩ : BufTy).Contents (Elt F) → (⟨S700000x1, .i32⟩ : BufTy).Contents (Elt F)),
    ternary main_v43 main_v44 main_v42 main_v45 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- Window 4 (operations 67 … 89): the second layer. -/
abbrev opsD : List (HloOp τ sig (Elt F)) :=
  [ binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S700000 ![] bcast_S_S700000 : (⟨S_, .i32⟩ : BufTy).Contents (Elt F) → (⟨S700000, .i32⟩ : BufTy).Contents (Elt F)),
    binary main_v3 main_v51 main_v52 (cmpi .slt : (⟨S700000, .i32⟩ : BufTy).Contents (Elt F) → (⟨S700000, .i32⟩ : BufTy).Contents (Elt F) → (⟨S700000, .i1⟩ : BufTy).Contents (Elt F)),
    nullary main_c_11 (constantI S_ 32 100000#32),
    unary main_c_11 main_v53 (broadcastInDim S700000 ![] bcast_S_S700000 : (⟨S_, .i32⟩ : BufTy).Contents (Elt F) → (⟨S700000, .i32⟩ : BufTy).Contents (Elt F)),
    binary main_v3 main_v53 main_v54 (addi : (⟨S700000, .i32⟩ : BufTy).Contents (Elt F) → (⟨S700000, .i32⟩ : BufTy).Contents (Elt F) → (⟨S700000, .i32⟩ : BufTy).Contents (Elt F)),
    ternary main_v52 main_v54 main_v3 main_v55 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v55 main_v56 (broadcastInDim S700000x1 ![0] bcast_S700000_S700000x1_0 : (⟨S700000, .i32⟩ : BufTy).Contents (Elt F) → (⟨S700000x1, .i32⟩ : BufTy).Contents (Elt F)),
    binary main_v50 main_v56 main_v57 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v31 main_v58 (broadcastInDim S700000x1 ![0] bcast_S700000_S700000x1_0 : (⟨S700000, .f32⟩ : BufTy).Contents (Elt F) → (⟨S700000x1, .f32⟩ : BufTy).Contents (Elt F)),
    unary main_v58 main_v59 (broadcastInDim S700000x128 ![0, 1] bcast_S700000x1_S700000x128_0_1 : (⟨S700000x1, .f32⟩ : BufTy).Contents (Elt F) → (⟨S700000x128, .f32⟩ : BufTy).Contents (Elt F)),
    binary main_v57 main_v59 main_v60 (mulf : (⟨S700000x128, .f32⟩ : BufTy).Contents (Elt F) → (⟨S700000x128, .f32⟩ : BufTy).Contents (Elt F) → (⟨S700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S700000x1 ![0] bcast_S700000_S700000x1_0 : (⟨S700000, .i32⟩ : BufTy).Contents (Elt F) → (⟨S700000x1, .i32⟩ : BufTy).Contents (Elt F)),
    ternary main_v61 main_v62 main_v60 main_v63 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf ]

/-- Window 5 (operations 90 … 112): the third layer. -/
abbrev opsE : List (HloOp τ sig (Elt F)) :=
  [ binary main_v67 main_arg6 main_v68 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_13 (constantI S_ 32 0#32),
    unary main_c_13 main_v69 (broadcastInDim S700000 ![] bcast_S_S700000 : (⟨S_, .i32⟩ : BufTy).Contents (Elt F) → (⟨S700000, .i32⟩ : BufTy).Contents (Elt F)),
    binary main_v3 main_v69 main_v70 (cmpi .slt : (⟨S700000, .i32⟩ : BufTy).Contents (Elt F) → (⟨S700000, .i32⟩ : BufTy).Contents (Elt F) → (⟨S700000, .i1⟩ : BufTy).Contents (Elt F)),
    nullary main_c_14 (constantI S_ 32 100000#32),
    unary main_c_14 main_v71 (broadcastInDim S700000 ![] bcast_S_S700000 : (⟨S_, .i32⟩ : BufTy).Contents (Elt F) → (⟨S700000, .i32⟩ : BufTy).Contents (Elt F)),
    binary main_v3 main_v71 main_v72 (addi : (⟨S700000, .i32⟩ : BufTy).Contents (Elt F) → (⟨S700000, .i32⟩ : BufTy).Contents (Elt F) → (⟨S700000, .i32⟩ : BufTy).Contents (Elt F)),
    ternary main_v70 main_v72 main_v3 main_v73 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v73 main_v74 (broadcastInDim S700000x1 ![0] bcast_S700000_S700000x1_0 : (⟨S700000, .i32⟩ : BufTy).Contents (Elt F) → (⟨S700000x1, .i32⟩ : BufTy).Contents (Elt F)),
    binary main_v68 main_v74 main_v75 ((fun x i => Host.gather gather_S100000x40_S700000x1_S700000x40_1_0_n_n_0_1_140 x i) : (⟨S100000x40, .f32⟩ : BufTy).Contents (Elt F) → (⟨S700000x1, .i32⟩ : BufTy).Contents (Elt F) → (⟨S700000x40, .f32⟩ : BufTy).Contents (Elt F)),
    unary main_v31 main_v76 (broadcastInDim S700000x1 ![0] bcast_S700000_S700000x1_0 : (⟨S700000, .f32⟩ : BufTy).Contents (Elt F) → (⟨S700000x1, .f32⟩ : BufTy).Contents (Elt F)),
    unary main_v76 main_v77 (broadcastInDim S700000x40 ![0, 1] bcast_S700000x1_S700000x40_0_1 : (⟨S700000x1, .f32⟩ : BufTy).Contents (Elt F) → (⟨S700000x40, .f32⟩ : BufTy).Contents (Elt F)),
    binary main_v75 main_v77 main_v78 (mulf : (⟨S700000x40, .f32⟩ : BufTy).Contents (Elt F) → (⟨S700000x40, .f32⟩ : BufTy).Contents (Elt F) → (⟨S700000x40, .f32⟩ : BufTy).Contents (Elt F)),
    nullary main_cst_15 (constant S_ .f32 0x00000000#32),
    unary main_cst_15 main_v79 (broadcastInDim S100000x40 ![] bcast_S_S100000x40 : (⟨S_, .f32⟩ : BufTy).Contents (Elt F) → (⟨S100000x40, .f32⟩ : BufTy).Contents (Elt F)),
    unary main_v6 main_v80 (broadcastInDim S700000x1 ![0] bcast_S700000_S700000x1_0 : (⟨S700000, .i32⟩ : BufTy).Contents (Elt F) → (⟨S700000x1, .i32⟩ : BufTy).Contents (Elt F)),
    ternary main_v79 main_v80 main_v78 main_v81 ((fun x i u => Host.scatterAdd scatter_S100000x40_S700000x1_S700000x40_1_0_0_1 x i u) : (⟨S100000x40, .f32⟩ : BufTy).Contents (Elt F) → (⟨S700000x1, .i32⟩ : BufTy).Contents (Elt F) → (⟨S700000x40, .f32⟩ : BufTy).Contents (Elt F) → (⟨S100000x40, .f32⟩ : BufTy).Contents (Elt F)),
    unary main_arg7 main_v82 (broadcastInDim S1x40 ![1] bcast_S40_S1x40_1 : (⟨S40, .f32⟩ : BufTy).Contents (Elt F) → (⟨S1x40, .f32⟩ : BufTy).Contents (Elt F)),
    unary main_v82 main_v83 (broadcastInDim S100000x40 ![0, 1] bcast_S1x40_S100000x40_0_1 : (⟨S1x40, .f32⟩ : BufTy).Contents (Elt F) → (⟨S100000x40, .f32⟩ : BufTy).Contents (Elt F)),
    binary main_v81 main_v83 main_v84 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x40, .f32⟩) main_call3_v0) (broadcastInDim S100000x40 ![] bcast_S_S100000x40),
    TRef.binary (TRef.of (T := ⟨S100000x40, .f32⟩) main_v84) (TRef.of (T := ⟨S100000x40, .f32⟩) main_call3_v0) (TRef.of (T := ⟨S100000x40, .f32⟩) main_v85) maximumf ]

/-- Window 6 (operations 113 … 117): the log-softmax's row maximum. -/
abbrev opsF : List (HloOp τ sig (Elt F)) :=
  [ TRef.nullary (TRef.of (T := ⟨S_, .f32⟩) main_call4_cst) (constant S_ .f32 0xFF800000#32),
    TRef.binary (TRef.of (T := ⟨S100000x40, .f32⟩) main_v85) (TRef.of (T := ⟨S_, .f32⟩) main_call4_cst) (TRef.of (T := ⟨S100000, .f32⟩) main_call4_v0) (fun x v => Host.reduce FloatOps.maximumf x v reducesTo_S100000x40_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf ]

/-- Window 7 (operations 118 … 120): the rows minus their maximum. -/
abbrev opsG : List (HloOp τ sig (Elt F)) :=
  [ TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x40, .f32⟩) main_call4_v4) (broadcastInDim S100000x40 ![0, 1] bcast_S100000x1_S100000x40_0_1),
    TRef.binary (TRef.of (T := ⟨S100000x40, .f32⟩) main_v85) (TRef.of (T := ⟨S100000x40, .f32⟩) main_call4_v4) (TRef.of (T := ⟨S100000x40, .f32⟩) main_call4_v5) subf ]

/-- Window 8 (operations 121 … 123): the row sums of the exponentials. -/
abbrev opsH : List (HloOp τ sig (Elt F)) :=
  [ TRef.unary (TRef.of (T := ⟨S100000x40, .f32⟩) main_call4_v5) (TRef.of (T := ⟨S100000x40, .f32⟩) main_call4_v6) Host.exp,
    TRef.nullary (TRef.of (T := ⟨S_, .f32⟩) main_call4_cst_1) (constant S_ .f32 0x00000000#32),
    TRef.binary (TRef.of (T := ⟨S100000x40, .f32⟩) main_call4_v6) (TRef.of (T := ⟨S_, .f32⟩) main_call4_cst_1) (TRef.of (T := ⟨S100000, .f32⟩) main_call4_v7) (fun x v => Host.reduceAdd x v reducesTo_S100000x40_S100000_d1 h_S_) ]

/-- Window 9 (operations 124 … 127): the rows minus the logarithm of their sum. -/
abbrev opsI : List (HloOp τ sig (Elt F)) :=
  [ TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x40, .f32⟩) main_call4_v10) (broadcastInDim S100000x40 ![0, 1] bcast_S100000x1_S100000x40_0_1),
    TRef.binary (TRef.of (T := ⟨S100000x40, .f32⟩) main_call4_v5) (TRef.of (T := ⟨S100000x40, .f32⟩) main_call4_v10) (TRef.of (T := ⟨S100000x40, .f32⟩) main_v86) subf ]

set_option maxRecDepth 8192 in
/-- The line is its windows, one after the other. -/
theorem ops_split : (ValueP.ops (F := F)) = opsA ++ (opsB ++ (opsC ++ (opsD ++ (opsE ++ (opsF ++ (opsG ++ (opsH ++ (opsI)))))))) := rfl

/-! ## The contents after each window

A called function's operations carry their operands' contents to the value's type and back along the equation between the
buffer's type and the value's type. Before the two sides of a window's equation are compared these transports are removed:
the outer one by passing to a heterogeneous equation between terms whose types agree by computation, and each inner pair,
there and back, because it is the identity. What is left is the operations' functions applied to the earlier buffers' values,
which is the later buffer's value as the reference's operations read one at a time define it. -/

variable (V0 : Valuation τ sig (Elt F))

/-- The buffer contents after the first 1 window. -/
def val1 : Valuation τ sig (Elt F) := after opsA V0
/-- The buffers window 1 writes. -/
abbrev opsA_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16]
theorem opsA_writes : (opsA : List (HloOp τ sig (Elt F))).Forall fun op => op.writes ⊆ (opsA_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer window 1 does not write keeps its contents through it. -/
theorem val1_keep (r : Ref sig .tc) (h : r ∉ opsA_W) : val1 V0 (Proc.devRef .tc r) = V0 (Proc.devRef .tc r) :=
  after_of_writes_sub opsA _ opsA_writes h

theorem val1_arg0 : val1 V0 (no_index (Proc.devRef .tc main_arg0)) = V0 (Proc.devRef .tc main_arg0) :=
  val1_keep V0 main_arg0 (by decide)
theorem val1_arg1 : val1 V0 (no_index (Proc.devRef .tc main_arg1)) = V0 (Proc.devRef .tc main_arg1) :=
  val1_keep V0 main_arg1 (by decide)
theorem val1_arg2 : val1 V0 (no_index (Proc.devRef .tc main_arg2)) = V0 (Proc.devRef .tc main_arg2) :=
  val1_keep V0 main_arg2 (by decide)
theorem val1_arg3 : val1 V0 (no_index (Proc.devRef .tc main_arg3)) = V0 (Proc.devRef .tc main_arg3) :=
  val1_keep V0 main_arg3 (by decide)
theorem val1_arg4 : val1 V0 (no_index (Proc.devRef .tc main_arg4)) = V0 (Proc.devRef .tc main_arg4) :=
  val1_keep V0 main_arg4 (by decide)
theorem val1_arg5 : val1 V0 (no_index (Proc.devRef .tc main_arg5)) = V0 (Proc.devRef .tc main_arg5) :=
  val1_keep V0 main_arg5 (by decide)
theorem val1_arg6 : val1 V0 (no_index (Proc.devRef .tc main_arg6)) = V0 (Proc.devRef .tc main_arg6) :=
  val1_keep V0 main_arg6 (by decide)
theorem val1_arg7 : val1 V0 (no_index (Proc.devRef .tc main_arg7)) = V0 (Proc.devRef .tc main_arg7) :=
  val1_keep V0 main_arg7 (by decide)
set_option maxRecDepth 8192 in
set_option maxHeartbeats 2000000 in
theorem val1_v3 : val1 V0 (no_index (Proc.devRef .tc main_v3)) = ReadP.val_main_v3 (F := F) (V0 (Proc.devRef .tc main_arg1)) := by
  unfold val1
  simp only [opsA]
  after_results_simp
  simp only [concat_pair_eq]
  after_results_simp
  simp only [concat2]
  try simp only [cast_cast, cast_eq]
  rfl
set_option maxRecDepth 8192 in
set_option maxHeartbeats 2000000 in
theorem val1_v6 : val1 V0 (no_index (Proc.devRef .tc main_v6)) = ReadP.val_main_v6 (F := F) (V0 (Proc.devRef .tc main_arg1)) := by
  unfold val1
  simp only [opsA]
  after_results_simp
  simp only [concat_pair_eq]
  after_results_simp
  simp only [concat2]
  try simp only [cast_cast, cast_eq]
  rfl
set_option maxRecDepth 8192 in
set_option maxHeartbeats 2000000 in
theorem val1_v16 : val1 V0 (no_index (Proc.devRef .tc main_v16)) = ReadP.val_main_v16 (F := F) (V0 (Proc.devRef .tc main_arg1)) := by
  unfold val1
  simp only [opsA]
  after_results_simp
  refine (cast_eq_iff_heq).mpr (heq_of_eq ?_)
  try simp only [cast_cast, cast_eq]
  rfl

/-- The buffer contents after the first 2 windows. -/
def val2 : Valuation τ sig (Elt F) := after opsB (val1 V0)
/-- The buffers window 2 writes. -/
abbrev opsB_W : List (Ref sig .tc) := [main_c, main_v17, main_v18, main_c_4, main_v19, main_v20, main_v21, main_v22, main_v23, main_c_5, main_v24, main_v25, main_c_6, main_v26, main_v27, main_v28, main_v29, main_v30, main_v31]
theorem opsB_writes : (opsB : List (HloOp τ sig (Elt F))).Forall fun op => op.writes ⊆ (opsB_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer window 2 does not write keeps its contents through it. -/
theorem val2_keep (r : Ref sig .tc) (h : r ∉ opsB_W) : val2 V0 (Proc.devRef .tc r) = val1 V0 (Proc.devRef .tc r) :=
  after_of_writes_sub opsB _ opsB_writes h

theorem val2_arg0 : val2 V0 (no_index (Proc.devRef .tc main_arg0)) = V0 (Proc.devRef .tc main_arg0) :=
  (val2_keep V0 main_arg0 (by decide)).trans (val1_arg0 V0)
theorem val2_arg1 : val2 V0 (no_index (Proc.devRef .tc main_arg1)) = V0 (Proc.devRef .tc main_arg1) :=
  (val2_keep V0 main_arg1 (by decide)).trans (val1_arg1 V0)
theorem val2_arg2 : val2 V0 (no_index (Proc.devRef .tc main_arg2)) = V0 (Proc.devRef .tc main_arg2) :=
  (val2_keep V0 main_arg2 (by decide)).trans (val1_arg2 V0)
theorem val2_arg3 : val2 V0 (no_index (Proc.devRef .tc main_arg3)) = V0 (Proc.devRef .tc main_arg3) :=
  (val2_keep V0 main_arg3 (by decide)).trans (val1_arg3 V0)
theorem val2_arg4 : val2 V0 (no_index (Proc.devRef .tc main_arg4)) = V0 (Proc.devRef .tc main_arg4) :=
  (val2_keep V0 main_arg4 (by decide)).trans (val1_arg4 V0)
theorem val2_arg5 : val2 V0 (no_index (Proc.devRef .tc main_arg5)) = V0 (Proc.devRef .tc main_arg5) :=
  (val2_keep V0 main_arg5 (by decide)).trans (val1_arg5 V0)
theorem val2_arg6 : val2 V0 (no_index (Proc.devRef .tc main_arg6)) = V0 (Proc.devRef .tc main_arg6) :=
  (val2_keep V0 main_arg6 (by decide)).trans (val1_arg6 V0)
theorem val2_arg7 : val2 V0 (no_index (Proc.devRef .tc main_arg7)) = V0 (Proc.devRef .tc main_arg7) :=
  (val2_keep V0 main_arg7 (by decide)).trans (val1_arg7 V0)
theorem val2_v3 : val2 V0 (no_index (Proc.devRef .tc main_v3)) = ReadP.val_main_v3 (F := F) (V0 (Proc.devRef .tc main_arg1)) :=
  (val2_keep V0 main_v3 (by decide)).trans (val1_v3 V0)
theorem val2_v6 : val2 V0 (no_index (Proc.devRef .tc main_v6)) = ReadP.val_main_v6 (F := F) (V0 (Proc.devRef .tc main_arg1)) :=
  (val2_keep V0 main_v6 (by decide)).trans (val1_v6 V0)
set_option maxRecDepth 8192 in
set_option maxHeartbeats 2000000 in
theorem val2_v31 : val2 V0 (no_index (Proc.devRef .tc main_v31)) = ReadP.val_main_v31 (F := F) (V0 (Proc.devRef .tc main_arg1)) := by
  unfold val2
  simp only [opsB]
  after_results_simp
  simp only [val1_v6, val1_v16, val1_v3]
  rfl

/-- The buffer contents after the first 3 windows. -/
def val3 : Valuation τ sig (Elt F) := after opsC (val2 V0)
/-- The buffers window 3 writes. -/
abbrev opsC_W : List (Ref sig .tc) := [main_v32, main_c_7, main_v33, main_v34, main_c_8, main_v35, main_v36, main_v37, main_v38, main_v39, main_v40, main_v41, main_v42, main_cst_9, main_v43, main_v44, main_v45, main_v46, main_v47, main_v48, main_call1_cst, main_call1_v0, main_v49]
theorem opsC_writes : (opsC : List (HloOp τ sig (Elt F))).Forall fun op => op.writes ⊆ (opsC_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer window 3 does not write keeps its contents through it. -/
theorem val3_keep (r : Ref sig .tc) (h : r ∉ opsC_W) : val3 V0 (Proc.devRef .tc r) = val2 V0 (Proc.devRef .tc r) :=
  after_of_writes_sub opsC _ opsC_writes h

theorem val3_arg0 : val3 V0 (no_index (Proc.devRef .tc main_arg0)) = V0 (Proc.devRef .tc main_arg0) :=
  (val3_keep V0 main_arg0 (by decide)).trans (val2_arg0 V0)
theorem val3_arg1 : val3 V0 (no_index (Proc.devRef .tc main_arg1)) = V0 (Proc.devRef .tc main_arg1) :=
  (val3_keep V0 main_arg1 (by decide)).trans (val2_arg1 V0)
theorem val3_arg2 : val3 V0 (no_index (Proc.devRef .tc main_arg2)) = V0 (Proc.devRef .tc main_arg2) :=
  (val3_keep V0 main_arg2 (by decide)).trans (val2_arg2 V0)
theorem val3_arg3 : val3 V0 (no_index (Proc.devRef .tc main_arg3)) = V0 (Proc.devRef .tc main_arg3) :=
  (val3_keep V0 main_arg3 (by decide)).trans (val2_arg3 V0)
theorem val3_arg4 : val3 V0 (no_index (Proc.devRef .tc main_arg4)) = V0 (Proc.devRef .tc main_arg4) :=
  (val3_keep V0 main_arg4 (by decide)).trans (val2_arg4 V0)
theorem val3_arg5 : val3 V0 (no_index (Proc.devRef .tc main_arg5)) = V0 (Proc.devRef .tc main_arg5) :=
  (val3_keep V0 main_arg5 (by decide)).trans (val2_arg5 V0)
theorem val3_arg6 : val3 V0 (no_index (Proc.devRef .tc main_arg6)) = V0 (Proc.devRef .tc main_arg6) :=
  (val3_keep V0 main_arg6 (by decide)).trans (val2_arg6 V0)
theorem val3_arg7 : val3 V0 (no_index (Proc.devRef .tc main_arg7)) = V0 (Proc.devRef .tc main_arg7) :=
  (val3_keep V0 main_arg7 (by decide)).trans (val2_arg7 V0)
theorem val3_v3 : val3 V0 (no_index (Proc.devRef .tc main_v3)) = ReadP.val_main_v3 (F := F) (V0 (Proc.devRef .tc main_arg1)) :=
  (val3_keep V0 main_v3 (by decide)).trans (val2_v3 V0)
theorem val3_v6 : val3 V0 (no_index (Proc.devRef .tc main_v6)) = ReadP.val_main_v6 (F := F) (V0 (Proc.devRef .tc main_arg1)) :=
  (val3_keep V0 main_v6 (by decide)).trans (val2_v6 V0)
theorem val3_v31 : val3 V0 (no_index (Proc.devRef .tc main_v31)) = ReadP.val_main_v31 (F := F) (V0 (Proc.devRef .tc main_arg1)) :=
  (val3_keep V0 main_v31 (by decide)).trans (val2_v31 V0)
set_option maxRecDepth 8192 in
set_option maxHeartbeats 2000000 in
theorem val3_v49 : val3 V0 (no_index (Proc.devRef .tc main_v49)) = ReadP.val_main_v49 (F := F) (V0 (Proc.devRef .tc main_arg0)) (V0 (Proc.devRef .tc main_arg1)) (V0 (Proc.devRef .tc main_arg2)) (V0 (Proc.devRef .tc main_arg3)) := by
  unfold val3
  simp only [opsC]
  after_results_simp
  simp only [val2_arg3, val2_v31, val2_v3, val2_arg2, val2_arg0, val2_v6]
  refine (cast_eq_iff_heq).mpr (heq_of_eq ?_)
  try simp only [cast_cast, cast_eq]
  rfl

/-- The buffer contents after the first 4 windows. -/
def val4 : Valuation τ sig (Elt F) := after opsD (val3 V0)
/-- The buffers window 4 writes. -/
abbrev opsD_W : List (Ref sig .tc) := [main_v50, main_c_10, main_v51, main_v52, main_c_11, main_v53, main_v54, main_v55, main_v56, main_v57, main_v58, main_v59, main_v60, main_cst_12, main_v61, main_v62, main_v63, main_v64, main_v65, main_v66, main_call2_cst, main_call2_v0, main_v67]
theorem opsD_writes : (opsD : List (HloOp τ sig (Elt F))).Forall fun op => op.writes ⊆ (opsD_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer window 4 does not write keeps its contents through it. -/
theorem val4_keep (r : Ref sig .tc) (h : r ∉ opsD_W) : val4 V0 (Proc.devRef .tc r) = val3 V0 (Proc.devRef .tc r) :=
  after_of_writes_sub opsD _ opsD_writes h

theorem val4_arg0 : val4 V0 (no_index (Proc.devRef .tc main_arg0)) = V0 (Proc.devRef .tc main_arg0) :=
  (val4_keep V0 main_arg0 (by decide)).trans (val3_arg0 V0)
theorem val4_arg1 : val4 V0 (no_index (Proc.devRef .tc main_arg1)) = V0 (Proc.devRef .tc main_arg1) :=
  (val4_keep V0 main_arg1 (by decide)).trans (val3_arg1 V0)
theorem val4_arg2 : val4 V0 (no_index (Proc.devRef .tc main_arg2)) = V0 (Proc.devRef .tc main_arg2) :=
  (val4_keep V0 main_arg2 (by decide)).trans (val3_arg2 V0)
theorem val4_arg3 : val4 V0 (no_index (Proc.devRef .tc main_arg3)) = V0 (Proc.devRef .tc main_arg3) :=
  (val4_keep V0 main_arg3 (by decide)).trans (val3_arg3 V0)
theorem val4_arg4 : val4 V0 (no_index (Proc.devRef .tc main_arg4)) = V0 (Proc.devRef .tc main_arg4) :=
  (val4_keep V0 main_arg4 (by decide)).trans (val3_arg4 V0)
theorem val4_arg5 : val4 V0 (no_index (Proc.devRef .tc main_arg5)) = V0 (Proc.devRef .tc main_arg5) :=
  (val4_keep V0 main_arg5 (by decide)).trans (val3_arg5 V0)
theorem val4_arg6 : val4 V0 (no_index (Proc.devRef .tc main_arg6)) = V0 (Proc.devRef .tc main_arg6) :=
  (val4_keep V0 main_arg6 (by decide)).trans (val3_arg6 V0)
theorem val4_arg7 : val4 V0 (no_index (Proc.devRef .tc main_arg7)) = V0 (Proc.devRef .tc main_arg7) :=
  (val4_keep V0 main_arg7 (by decide)).trans (val3_arg7 V0)
theorem val4_v3 : val4 V0 (no_index (Proc.devRef .tc main_v3)) = ReadP.val_main_v3 (F := F) (V0 (Proc.devRef .tc main_arg1)) :=
  (val4_keep V0 main_v3 (by decide)).trans (val3_v3 V0)
theorem val4_v6 : val4 V0 (no_index (Proc.devRef .tc main_v6)) = ReadP.val_main_v6 (F := F) (V0 (Proc.devRef .tc main_arg1)) :=
  (val4_keep V0 main_v6 (by decide)).trans (val3_v6 V0)
theorem val4_v31 : val4 V0 (no_index (Proc.devRef .tc main_v31)) = ReadP.val_main_v31 (F := F) (V0 (Proc.devRef .tc main_arg1)) :=
  (val4_keep V0 main_v31 (by decide)).trans (val3_v31 V0)
set_option maxRecDepth 8192 in
set_option maxHeartbeats 2000000 in
theorem val4_v67 : val4 V0 (no_index (Proc.devRef .tc main_v67)) = ReadP.val_main_v67 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val4
  simp only [opsD]
  after_results_simp
  simp only [val3_arg5, val3_v31, val3_v3, val3_arg4, val3_v49, val3_v6]
  refine (cast_eq_iff_heq).mpr (heq_of_eq ?_)
  try simp only [cast_cast, cast_eq]
  rfl

/-- The buffer contents after the first 5 windows. -/
def val5 : Valuation τ sig (Elt F) := after opsE (val4 V0)
/-- The buffers window 5 writes. -/
abbrev opsE_W : List (Ref sig .tc) := [main_v68, main_c_13, main_v69, main_v70, main_c_14, main_v71, main_v72, main_v73, main_v74, main_v75, main_v76, main_v77, main_v78, main_cst_15, main_v79, main_v80, main_v81, main_v82, main_v83, main_v84, main_call3_cst, main_call3_v0, main_v85]
theorem opsE_writes : (opsE : List (HloOp τ sig (Elt F))).Forall fun op => op.writes ⊆ (opsE_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer window 5 does not write keeps its contents through it. -/
theorem val5_keep (r : Ref sig .tc) (h : r ∉ opsE_W) : val5 V0 (Proc.devRef .tc r) = val4 V0 (Proc.devRef .tc r) :=
  after_of_writes_sub opsE _ opsE_writes h

theorem val5_arg0 : val5 V0 (no_index (Proc.devRef .tc main_arg0)) = V0 (Proc.devRef .tc main_arg0) :=
  (val5_keep V0 main_arg0 (by decide)).trans (val4_arg0 V0)
theorem val5_arg1 : val5 V0 (no_index (Proc.devRef .tc main_arg1)) = V0 (Proc.devRef .tc main_arg1) :=
  (val5_keep V0 main_arg1 (by decide)).trans (val4_arg1 V0)
theorem val5_arg2 : val5 V0 (no_index (Proc.devRef .tc main_arg2)) = V0 (Proc.devRef .tc main_arg2) :=
  (val5_keep V0 main_arg2 (by decide)).trans (val4_arg2 V0)
theorem val5_arg3 : val5 V0 (no_index (Proc.devRef .tc main_arg3)) = V0 (Proc.devRef .tc main_arg3) :=
  (val5_keep V0 main_arg3 (by decide)).trans (val4_arg3 V0)
theorem val5_arg4 : val5 V0 (no_index (Proc.devRef .tc main_arg4)) = V0 (Proc.devRef .tc main_arg4) :=
  (val5_keep V0 main_arg4 (by decide)).trans (val4_arg4 V0)
theorem val5_arg5 : val5 V0 (no_index (Proc.devRef .tc main_arg5)) = V0 (Proc.devRef .tc main_arg5) :=
  (val5_keep V0 main_arg5 (by decide)).trans (val4_arg5 V0)
theorem val5_arg6 : val5 V0 (no_index (Proc.devRef .tc main_arg6)) = V0 (Proc.devRef .tc main_arg6) :=
  (val5_keep V0 main_arg6 (by decide)).trans (val4_arg6 V0)
theorem val5_arg7 : val5 V0 (no_index (Proc.devRef .tc main_arg7)) = V0 (Proc.devRef .tc main_arg7) :=
  (val5_keep V0 main_arg7 (by decide)).trans (val4_arg7 V0)
set_option maxRecDepth 8192 in
set_option maxHeartbeats 2000000 in
theorem val5_v85 : val5 V0 (no_index (Proc.devRef .tc main_v85)) = ReadP.val_main_v85 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val5
  simp only [opsE]
  after_results_simp
  simp only [val4_arg7, val4_v31, val4_v3, val4_arg6, val4_v67, val4_v6]
  refine (cast_eq_iff_heq).mpr (heq_of_eq ?_)
  try simp only [cast_cast, cast_eq]
  rfl

/-- The buffer contents after the first 6 windows. -/
def val6 : Valuation τ sig (Elt F) := after opsF (val5 V0)
/-- The buffers window 6 writes. -/
abbrev opsF_W : List (Ref sig .tc) := [main_call4_cst, main_call4_v0, main_call4_cst_0, main_call4_v1, main_call4_v2]
theorem opsF_writes : (opsF : List (HloOp τ sig (Elt F))).Forall fun op => op.writes ⊆ (opsF_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer window 6 does not write keeps its contents through it. -/
theorem val6_keep (r : Ref sig .tc) (h : r ∉ opsF_W) : val6 V0 (Proc.devRef .tc r) = val5 V0 (Proc.devRef .tc r) :=
  after_of_writes_sub opsF _ opsF_writes h

theorem val6_arg0 : val6 V0 (no_index (Proc.devRef .tc main_arg0)) = V0 (Proc.devRef .tc main_arg0) :=
  (val6_keep V0 main_arg0 (by decide)).trans (val5_arg0 V0)
theorem val6_arg1 : val6 V0 (no_index (Proc.devRef .tc main_arg1)) = V0 (Proc.devRef .tc main_arg1) :=
  (val6_keep V0 main_arg1 (by decide)).trans (val5_arg1 V0)
theorem val6_arg2 : val6 V0 (no_index (Proc.devRef .tc main_arg2)) = V0 (Proc.devRef .tc main_arg2) :=
  (val6_keep V0 main_arg2 (by decide)).trans (val5_arg2 V0)
theorem val6_arg3 : val6 V0 (no_index (Proc.devRef .tc main_arg3)) = V0 (Proc.devRef .tc main_arg3) :=
  (val6_keep V0 main_arg3 (by decide)).trans (val5_arg3 V0)
theorem val6_arg4 : val6 V0 (no_index (Proc.devRef .tc main_arg4)) = V0 (Proc.devRef .tc main_arg4) :=
  (val6_keep V0 main_arg4 (by decide)).trans (val5_arg4 V0)
theorem val6_arg5 : val6 V0 (no_index (Proc.devRef .tc main_arg5)) = V0 (Proc.devRef .tc main_arg5) :=
  (val6_keep V0 main_arg5 (by decide)).trans (val5_arg5 V0)
theorem val6_arg6 : val6 V0 (no_index (Proc.devRef .tc main_arg6)) = V0 (Proc.devRef .tc main_arg6) :=
  (val6_keep V0 main_arg6 (by decide)).trans (val5_arg6 V0)
theorem val6_arg7 : val6 V0 (no_index (Proc.devRef .tc main_arg7)) = V0 (Proc.devRef .tc main_arg7) :=
  (val6_keep V0 main_arg7 (by decide)).trans (val5_arg7 V0)
theorem val6_v85 : val6 V0 (no_index (Proc.devRef .tc main_v85)) = ReadP.val_main_v85 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val6_keep V0 main_v85 (by decide)).trans (val5_v85 V0)
set_option maxRecDepth 8192 in
set_option maxHeartbeats 2000000 in
theorem val6_call4_v2 : val6 V0 (no_index (Proc.devRef .tc main_call4_v2)) = ReadP.val_main_call4_v2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val6
  simp only [opsF]
  after_results_simp
  simp only [val5_v85]
  refine (cast_eq_iff_heq).mpr (heq_of_eq ?_)
  try simp only [cast_cast, cast_eq]
  rfl

/-- The buffer contents after the first 7 windows. -/
def val7 : Valuation τ sig (Elt F) := after opsG (val6 V0)
/-- The buffers window 7 writes. -/
abbrev opsG_W : List (Ref sig .tc) := [main_call4_v3, main_call4_v4, main_call4_v5]
theorem opsG_writes : (opsG : List (HloOp τ sig (Elt F))).Forall fun op => op.writes ⊆ (opsG_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer window 7 does not write keeps its contents through it. -/
theorem val7_keep (r : Ref sig .tc) (h : r ∉ opsG_W) : val7 V0 (Proc.devRef .tc r) = val6 V0 (Proc.devRef .tc r) :=
  after_of_writes_sub opsG _ opsG_writes h

theorem val7_arg0 : val7 V0 (no_index (Proc.devRef .tc main_arg0)) = V0 (Proc.devRef .tc main_arg0) :=
  (val7_keep V0 main_arg0 (by decide)).trans (val6_arg0 V0)
theorem val7_arg1 : val7 V0 (no_index (Proc.devRef .tc main_arg1)) = V0 (Proc.devRef .tc main_arg1) :=
  (val7_keep V0 main_arg1 (by decide)).trans (val6_arg1 V0)
theorem val7_arg2 : val7 V0 (no_index (Proc.devRef .tc main_arg2)) = V0 (Proc.devRef .tc main_arg2) :=
  (val7_keep V0 main_arg2 (by decide)).trans (val6_arg2 V0)
theorem val7_arg3 : val7 V0 (no_index (Proc.devRef .tc main_arg3)) = V0 (Proc.devRef .tc main_arg3) :=
  (val7_keep V0 main_arg3 (by decide)).trans (val6_arg3 V0)
theorem val7_arg4 : val7 V0 (no_index (Proc.devRef .tc main_arg4)) = V0 (Proc.devRef .tc main_arg4) :=
  (val7_keep V0 main_arg4 (by decide)).trans (val6_arg4 V0)
theorem val7_arg5 : val7 V0 (no_index (Proc.devRef .tc main_arg5)) = V0 (Proc.devRef .tc main_arg5) :=
  (val7_keep V0 main_arg5 (by decide)).trans (val6_arg5 V0)
theorem val7_arg6 : val7 V0 (no_index (Proc.devRef .tc main_arg6)) = V0 (Proc.devRef .tc main_arg6) :=
  (val7_keep V0 main_arg6 (by decide)).trans (val6_arg6 V0)
theorem val7_arg7 : val7 V0 (no_index (Proc.devRef .tc main_arg7)) = V0 (Proc.devRef .tc main_arg7) :=
  (val7_keep V0 main_arg7 (by decide)).trans (val6_arg7 V0)
set_option maxRecDepth 8192 in
set_option maxHeartbeats 2000000 in
theorem val7_call4_v5 : val7 V0 (no_index (Proc.devRef .tc main_call4_v5)) = ReadP.val_main_call4_v5 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val7
  simp only [opsG]
  after_results_simp
  simp only [val6_call4_v2, val6_v85]
  refine (cast_eq_iff_heq).mpr (heq_of_eq ?_)
  try simp only [cast_cast, cast_eq]
  rfl

/-- The buffer contents after the first 8 windows. -/
def val8 : Valuation τ sig (Elt F) := after opsH (val7 V0)
/-- The buffers window 8 writes. -/
abbrev opsH_W : List (Ref sig .tc) := [main_call4_v6, main_call4_cst_1, main_call4_v7]
theorem opsH_writes : (opsH : List (HloOp τ sig (Elt F))).Forall fun op => op.writes ⊆ (opsH_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer window 8 does not write keeps its contents through it. -/
theorem val8_keep (r : Ref sig .tc) (h : r ∉ opsH_W) : val8 V0 (Proc.devRef .tc r) = val7 V0 (Proc.devRef .tc r) :=
  after_of_writes_sub opsH _ opsH_writes h

theorem val8_arg0 : val8 V0 (no_index (Proc.devRef .tc main_arg0)) = V0 (Proc.devRef .tc main_arg0) :=
  (val8_keep V0 main_arg0 (by decide)).trans (val7_arg0 V0)
theorem val8_arg1 : val8 V0 (no_index (Proc.devRef .tc main_arg1)) = V0 (Proc.devRef .tc main_arg1) :=
  (val8_keep V0 main_arg1 (by decide)).trans (val7_arg1 V0)
theorem val8_arg2 : val8 V0 (no_index (Proc.devRef .tc main_arg2)) = V0 (Proc.devRef .tc main_arg2) :=
  (val8_keep V0 main_arg2 (by decide)).trans (val7_arg2 V0)
theorem val8_arg3 : val8 V0 (no_index (Proc.devRef .tc main_arg3)) = V0 (Proc.devRef .tc main_arg3) :=
  (val8_keep V0 main_arg3 (by decide)).trans (val7_arg3 V0)
theorem val8_arg4 : val8 V0 (no_index (Proc.devRef .tc main_arg4)) = V0 (Proc.devRef .tc main_arg4) :=
  (val8_keep V0 main_arg4 (by decide)).trans (val7_arg4 V0)
theorem val8_arg5 : val8 V0 (no_index (Proc.devRef .tc main_arg5)) = V0 (Proc.devRef .tc main_arg5) :=
  (val8_keep V0 main_arg5 (by decide)).trans (val7_arg5 V0)
theorem val8_arg6 : val8 V0 (no_index (Proc.devRef .tc main_arg6)) = V0 (Proc.devRef .tc main_arg6) :=
  (val8_keep V0 main_arg6 (by decide)).trans (val7_arg6 V0)
theorem val8_arg7 : val8 V0 (no_index (Proc.devRef .tc main_arg7)) = V0 (Proc.devRef .tc main_arg7) :=
  (val8_keep V0 main_arg7 (by decide)).trans (val7_arg7 V0)
theorem val8_call4_v5 : val8 V0 (no_index (Proc.devRef .tc main_call4_v5)) = ReadP.val_main_call4_v5 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) :=
  (val8_keep V0 main_call4_v5 (by decide)).trans (val7_call4_v5 V0)
set_option maxRecDepth 8192 in
set_option maxHeartbeats 2000000 in
theorem val8_call4_v7 : val8 V0 (no_index (Proc.devRef .tc main_call4_v7)) = ReadP.val_main_call4_v7 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val8
  simp only [opsH]
  after_results_simp
  simp only [val7_call4_v5]
  refine (cast_eq_iff_heq).mpr (heq_of_eq ?_)
  try simp only [cast_cast, cast_eq]
  rfl

/-- The buffer contents after the first 9 windows. -/
def val9 : Valuation τ sig (Elt F) := after opsI (val8 V0)
/-- The buffers window 9 writes. -/
abbrev opsI_W : List (Ref sig .tc) := [main_call4_v8, main_call4_v9, main_call4_v10, main_v86]
theorem opsI_writes : (opsI : List (HloOp τ sig (Elt F))).Forall fun op => op.writes ⊆ (opsI_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer window 9 does not write keeps its contents through it. -/
theorem val9_keep (r : Ref sig .tc) (h : r ∉ opsI_W) : val9 V0 (Proc.devRef .tc r) = val8 V0 (Proc.devRef .tc r) :=
  after_of_writes_sub opsI _ opsI_writes h

theorem val9_arg0 : val9 V0 (no_index (Proc.devRef .tc main_arg0)) = V0 (Proc.devRef .tc main_arg0) :=
  (val9_keep V0 main_arg0 (by decide)).trans (val8_arg0 V0)
theorem val9_arg1 : val9 V0 (no_index (Proc.devRef .tc main_arg1)) = V0 (Proc.devRef .tc main_arg1) :=
  (val9_keep V0 main_arg1 (by decide)).trans (val8_arg1 V0)
theorem val9_arg2 : val9 V0 (no_index (Proc.devRef .tc main_arg2)) = V0 (Proc.devRef .tc main_arg2) :=
  (val9_keep V0 main_arg2 (by decide)).trans (val8_arg2 V0)
theorem val9_arg3 : val9 V0 (no_index (Proc.devRef .tc main_arg3)) = V0 (Proc.devRef .tc main_arg3) :=
  (val9_keep V0 main_arg3 (by decide)).trans (val8_arg3 V0)
theorem val9_arg4 : val9 V0 (no_index (Proc.devRef .tc main_arg4)) = V0 (Proc.devRef .tc main_arg4) :=
  (val9_keep V0 main_arg4 (by decide)).trans (val8_arg4 V0)
theorem val9_arg5 : val9 V0 (no_index (Proc.devRef .tc main_arg5)) = V0 (Proc.devRef .tc main_arg5) :=
  (val9_keep V0 main_arg5 (by decide)).trans (val8_arg5 V0)
theorem val9_arg6 : val9 V0 (no_index (Proc.devRef .tc main_arg6)) = V0 (Proc.devRef .tc main_arg6) :=
  (val9_keep V0 main_arg6 (by decide)).trans (val8_arg6 V0)
theorem val9_arg7 : val9 V0 (no_index (Proc.devRef .tc main_arg7)) = V0 (Proc.devRef .tc main_arg7) :=
  (val9_keep V0 main_arg7 (by decide)).trans (val8_arg7 V0)
set_option maxRecDepth 8192 in
set_option maxHeartbeats 2000000 in
theorem val9_v86 : val9 V0 (no_index (Proc.devRef .tc main_v86)) = ReadP.val_main_v86 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val9
  simp only [opsI]
  after_results_simp
  simp only [val8_call4_v7, val8_call4_v5]
  refine (cast_eq_iff_heq).mpr (heq_of_eq ?_)
  try simp only [cast_cast, cast_eq]
  rfl

/-! ## The whole line -/

/-- The contents after the whole line are the contents after the last window. -/
theorem after_ops : after (ValueP.ops (F := F)) V0 = val9 V0 := by
  rw [ops_split]
  simp only [StableHlo.after_append]
  rfl

/-- THE RUN, READ BY STAGES. On every device, from any memory with zero counters, every weakly fair execution of @main
    terminates with the result buffer at the last operation's value — the reference's operations read one at a time, as a
    function of the arguments' contents at launch — and the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86) = ReadP.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v86).trans (by rw [after_ops]; exact val9_v86 (launchContents m c)),
      (h c main_arg0).trans (by rw [after_ops]; exact val9_arg0 (launchContents m c)),
      (h c main_arg1).trans (by rw [after_ops]; exact val9_arg1 (launchContents m c)),
      (h c main_arg2).trans (by rw [after_ops]; exact val9_arg2 (launchContents m c)),
      (h c main_arg3).trans (by rw [after_ops]; exact val9_arg3 (launchContents m c)),
      (h c main_arg4).trans (by rw [after_ops]; exact val9_arg4 (launchContents m c)),
      (h c main_arg5).trans (by rw [after_ops]; exact val9_arg5 (launchContents m c)),
      (h c main_arg6).trans (by rw [after_ops]; exact val9_arg6 (launchContents m c)),
      (h c main_arg7).trans (by rw [after_ops]; exact val9_arg7 (launchContents m c))⟩)
    (run_seq ValueP.scopedRefs_eq ValueP.scopedSems_eq defs main (fun _ => ValueP.ops) ValueP.main_eq (fun _ => ValueP.ops_sub) m ρ)

end Cert.ReferenceIdeal.RunP

end
-- ==== Proof.lean ====
/-
  A three-layer degree-normalised graph convolution with a final row-wise log-softmax: four kernels among host gathers
  and scatter-adds, against a plain reference.

  Both programs build the same edge list (the given edges followed by one self loop per node), the same node degrees
  and the same factor s = rsqrt (max deg 1) (zero where the degree is zero). A layer of the reference gathers rows of the
  dense product at the edges' sources, scales each by s(source) · s(destination), and adds them up at the destinations;
  the kernel scales every row by its own factor first, lets the host gather and add, and scales the sum by the
  destination's factor afterwards. The factor is nonnegative and never +∞, so it moves across the sum whatever the
  rows hold: no finiteness of the inputs is used. Bias, relu and the log-softmax are the same functions on both sides; a
  change of float format is the identity at the ideal values.

  The kernel's value is read off its frame: each region's output array is one whole-array function of its input arrays
  (the 20 row blocks cover it), and the host stretches between are read operation by operation. The reference's value
  is its run read the same way, stage by stage. The three frames are the generated ones (the reference's is its run
  with the result dropped); the idealization rewrote nothing, so there is nothing to preserve.
-/
import proofs.«146913_j22153441312995_2_alg».proof.Defs
import proofs.«146913_j22153441312995_2_alg».proof.Proof.Gen.Kernel
import proofs.«146913_j22153441312995_2_alg».proof.Proof.Gen.Kernel.Frame
import proofs.«146913_j22153441312995_2_alg».proof.Proof.Gen.KernelIdeal
import proofs.«146913_j22153441312995_2_alg».proof.Proof.Gen.KernelIdeal.Frame
import proofs.«146913_j22153441312995_2_alg».proof.Proof.Gen.ReferenceIdeal
import proofs.«146913_j22153441312995_2_alg».proof.Proof.Gen.Pre_finite_inputs
import proofs.«146913_j22153441312995_2_alg».proof.Proof.KernelRun
import proofs.«146913_j22153441312995_2_alg».proof.Proof.Chain
import proofs.«146913_j22153441312995_2_alg».proof.Proof.Bridge
import proofs.«146913_j22153441312995_2_alg».proof.Proof.RefRunStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run' m ρ)

/-- The idealization rewrote no operation. -/
theorem preserves : Cert.preserves_Kernel_KernelIdeal := trivial

/-- Both programs end, from memories agreeing on the arguments, with the same result array: the kernel's composed term,
    which is the reference's last stage of the same arguments. -/
theorem algebraic : Cert.algebraic_KernelIdeal_ReferenceIdeal := by
  intro m ρ m' ρ' _ hagree
  refine ⟨fun c => Cert.KernelIdeal.Chain.k4 m c, ?_, ?_⟩
  · exact (θ_run Cert.KernelIdeal.defs _ _).mono
      (fun r h c => ⟨(h c).1.trans (Cert.KernelIdeal.Chain.w10_v54 m ρ c), (h c).2⟩)
      (Cert.KernelIdeal.RunValue.run_named m ρ)
  · refine (θ_run Cert.ReferenceIdeal.defs _ _).mono (fun r h c => ⟨(h c).1.trans ?_, (h c).2⟩)
      (Cert.ReferenceIdeal.RunP.run' m' ρ')
    obtain ⟨e0, e1, e2, e3, e4, e5, e6, e7⟩ := hagree c
    rw [e0, e1, e2, e3, e4, e5, e6, e7]
    exact (Cert.Bridge.kernel_eq_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
